-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x4096 .f32) (main_arg2 : FVec F S512x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : IVec S_ 32) (main_arg10 : IVec S_ 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S_ : Shape := ⟨0, ![]⟩
abbrev S1x256 : Shape := ⟨2, ![1, 256]⟩
abbrev S4096x256 : Shape := ⟨2, ![4096, 256]⟩
abbrev S512x4096 : Shape := ⟨2, ![512, 4096]⟩
abbrev S512x512 : Shape := ⟨2, ![512, 512]⟩
abbrev S2048x256 : Shape := ⟨2, ![2048, 256]⟩
abbrev S2048x2048 : Shape := ⟨2, ![2048, 2048]⟩
abbrev S512x2048 : Shape := ⟨2, ![512, 2048]⟩

abbrev nBuf : Space → Nat
  | .hbm => 39
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S_, .i32⟩
  | .hbm, ⟨10, _⟩ => ⟨S_, .i32⟩
  | .hbm, ⟨11, _⟩ => ⟨S512x256, .bf16⟩
  | .hbm, ⟨12, _⟩ => ⟨S256x256, .bf16⟩
  | .hbm, ⟨13, _⟩ => ⟨S256x256, .bf16⟩
  | .hbm, ⟨14, _⟩ => ⟨S256x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S4096x256, .bf16⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2048x256, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S2048x256, .bf16⟩
  | .hbm, ⟨38, _⟩ => ⟨S2048x2048, .f32⟩
  | .local _ .vmem, ⟨0, _⟩ => ⟨S512x4096, .f32⟩
  | .local _ .vmem, ⟨1, _⟩ => ⟨S512x4096, .f32⟩
  | .local _ .vmem, ⟨2, _⟩ => ⟨S512x512, .f32⟩
  | .local _ .vmem, ⟨3, _⟩ => ⟨S512x512, .f32⟩
  | .local _ .vmem, ⟨4, _⟩ => ⟨S512x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S4096x4096, .bf16⟩
  | .local _ .vmem, ⟨13, _⟩ => ⟨S4096x256, .bf16⟩
  | .local _ .vmem, ⟨14, _⟩ => ⟨S4096x256, .bf16⟩
  | .local _ .vmem, ⟨15, _⟩ => ⟨S512x256, .bf16⟩
  | .local _ .vmem, ⟨16, _⟩ => ⟨S512x256, .bf16⟩
  | .local _ .vmem, ⟨17, _⟩ => ⟨S256x256, .bf16⟩
  | .local _ .vmem, ⟨18, _⟩ => ⟨S2048x256, .bf16⟩
  | .local _ .vmem, ⟨19, _⟩ => ⟨S512x2048, .f32⟩
  | .local _ .vmem, ⟨20, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v18 : BitVec 32 := Scalar.muli arg0 c512_i32
  let v19 : Index := Scalar.indexCast v18
  let c0_7 : Index := 0#32
  ![v19.toNat, 0]
def k0_off2 (i : grid0.Coords) : Fin 2 → Nat :=
  let arg0 : BitVec 32 := BitVec.ofNat 32 (i 0).val
  let c512_i32_12 : BitVec 32 := 512#32
  let v29 : BitVec 32 := Scalar.muli arg0 c512_i32_12
  let v30 : Index := Scalar.indexCast v29
  let c0_13 : Index := 0#32
  ![v30.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c16_i32 : BitVec 32 := 16#32
  let v4 : BitVec 1 := Scalar.cmpi .slt arg0 c16_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c8_i32_6 : BitVec 32 := 8#32
  let v16 : BitVec 32 := Scalar.subi arg0 c8_i32_6
  let c512_i32 : BitVec 32 := 512#32
  let v17 : BitVec 32 := Scalar.muli v16 c512_i32
  let v18 : Index := Scalar.indexCast v17
  let c0 : Index := 0#32
  ![v18.toNat, 0]
def k0_off4 (i : grid0.Coords) : Fin 2 → Nat :=
  let arg0 : BitVec 32 := BitVec.ofNat 32 (i 0).val
  let c8_i32_6 : BitVec 32 := 8#32
  let v16 : BitVec 32 := Scalar.subi arg0 c8_i32_6
  let c512_i32_16 : BitVec 32 := 512#32
  let v36 : BitVec 32 := Scalar.muli v16 c512_i32_16
  let v37 : Index := Scalar.indexCast v36
  let c0_17 : Index := 0#32
  ![v37.toNat, 0]
def k0_cond3 (i : grid0.Coords) : BitVec 1 :=
  let arg0 : BitVec 32 := BitVec.ofNat 32 (i 0).val
  let c16_i32_2 : BitVec 32 := 16#32
  let v8 : BitVec 1 := Scalar.cmpi .sge arg0 c16_i32_2
  let c24_i32 : BitVec 32 := 24#32
  let v9 : BitVec 1 := Scalar.cmpi .slt arg0 c24_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off5 (i : grid0.Coords) : Fin 2 → Nat :=
  let arg0 : BitVec 32 := BitVec.ofNat 32 (i 0).val
  let c16_i32_6 : BitVec 32 := 16#32
  let v16 : BitVec 32 := Scalar.subi arg0 c16_i32_6
  let c512_i32 : BitVec 32 := 512#32
  let v17 : BitVec 32 := Scalar.muli v16 c512_i32
  let v18 : Index := Scalar.indexCast v17
  let c0 : Index := 0#32
  ![v18.toNat, 0]
def k0_off6 (i : grid0.Coords) : Fin 2 → Nat :=
  let arg0 : BitVec 32 := BitVec.ofNat 32 (i 0).val
  let c16_i32_6 : BitVec 32 := 16#32
  let v16 : BitVec 32 := Scalar.subi arg0 c16_i32_6
  let c512_i32_16 : BitVec 32 := 512#32
  let v36 : BitVec 32 := Scalar.muli v16 c512_i32_16
  let v37 : Index := Scalar.indexCast v36
  let c0_17 : Index := 0#32
  ![v37.toNat, 0]
def k0_cond4 (i : grid0.Coords) : BitVec 1 :=
  let arg0 : BitVec 32 := BitVec.ofNat 32 (i 0).val
  let c24_i32_4 : BitVec 32 := 24#32
  let v13 : BitVec 1 := Scalar.cmpi .sge arg0 c24_i32_4
  let v14 : BitVec 32 := Scalar.extui v13
  let c0_i32_5 : BitVec 32 := 0#32
  let v15 : BitVec 1 := Scalar.cmpi .ne v14 c0_i32_5
  v15

def k0_off7 (i : grid0.Coords) : Fin 2 → Nat :=
  let arg0 : BitVec 32 := BitVec.ofNat 32 (i 0).val
  let c24_i32_6 : BitVec 32 := 24#32
  let v16 : BitVec 32 := Scalar.subi arg0 c24_i32_6
  let c512_i32 : BitVec 32 := 512#32
  let v17 : BitVec 32 := Scalar.muli v16 c512_i32
  let v18 : Index := Scalar.indexCast v17
  let c0 : Index := 0#32
  ![v18.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S512x256_S512x256_0_0 : (Rect.unit (s := S512x256) ![0, 0] S512x256.size inb_S512x256_S512x256_0_0).PackedRows (EltTy.packing .bf16)
  sliceFits_S4096x256_S2048x256 : S4096x256.Slices (fun _ => 0) S2048x256
  h_S_ : 0 < S_.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x2048_S512x2048_0_0 : ∀ a, (![0, 0] : Fin 2 → Nat) a + S512x2048.size a ≤ S512x2048.size a
  h_S512x2048 : 0 < S512x2048.numel
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  dot_S512x256_S2048x256_S512x2048_1_1_0_0_n_n_wf : DotDims.WF S512x256 S2048x256 S512x2048 [1] [1] [0] [0] [] []
  hrank0 : 0 < grid0.rank
  k0_off1_inb : ∀ i : grid0.Coords, ∀ (k0_h1 : k0_cond1 i = 1#1), ∀ a, (k0_off1 i) a + S512x4096.size a ≤ S4096x4096.size a
  k0_off1_packedbf16 : ∀ i : grid0.Coords, ∀ (k0_h1 : k0_cond1 i = 1#1), (Rect.unit (s := S4096x4096) (k0_off1 i) S512x4096.size (k0_off1_inb i k0_h1)).PackedRows (EltTy.packing .bf16)
  k0_off2_inb : ∀ i : grid0.Coords, ∀ (k0_h1 : k0_cond1 i = 1#1), ∀ a, (k0_off2 i) a + S512x256.size a ≤ S4096x256.size a
  k0_off2_packedbf16 : ∀ i : grid0.Coords, ∀ (k0_h1 : k0_cond1 i = 1#1), (Rect.unit (s := S4096x256) (k0_off2 i) S512x256.size (k0_off2_inb i k0_h1)).PackedRows (EltTy.packing .bf16)
  k0_off3_inb : ∀ i : grid0.Coords, ∀ (k0_h2 : k0_cond2 i = 1#1), ∀ a, (k0_off3 i) a + S512x4096.size a ≤ S4096x4096.size a
  k0_off4_inb : ∀ i : grid0.Coords, ∀ (k0_h2 : k0_cond2 i = 1#1), ∀ a, (k0_off4 i) a + S512x256.size a ≤ S4096x256.size a
  k0_off4_packedbf16 : ∀ i : grid0.Coords, ∀ (k0_h2 : k0_cond2 i = 1#1), (Rect.unit (s := S4096x256) (k0_off4 i) S512x256.size (k0_off4_inb i k0_h2)).PackedRows (EltTy.packing .bf16)
  k0_off5_inb : ∀ i : grid0.Coords, ∀ (k0_h3 : k0_cond3 i = 1#1), ∀ a, (k0_off5 i) a + S512x4096.size a ≤ S4096x4096.size a
  k0_off6_inb : ∀ i : grid0.Coords, ∀ (k0_h3 : k0_cond3 i = 1#1), ∀ a, (k0_off6 i) a + S512x256.size a ≤ S4096x256.size a
  k0_off6_packedbf16 : ∀ i : grid0.Coords, ∀ (k0_h3 : k0_cond3 i = 1#1), (Rect.unit (s := S4096x256) (k0_off6 i) S512x256.size (k0_off6_inb i k0_h3)).PackedRows (EltTy.packing .bf16)
  k0_off7_inb : ∀ i : grid0.Coords, ∀ (k0_h4 : k0_cond4 i = 1#1), ∀ a, (k0_off7 i) a + S512x4096.size a ≤ S4096x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x256.size a
  hwx0_8 : ∀ i : grid0.Coords, EltTy.bits .bf16 = 32 ∨ (Rect.block (s := S4096x256) S512x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S2048x256.size a
  hwx1_0 : ∀ i : grid1.Coords, EltTy.bits .bf16 = 32 ∨ (Rect.block (s := S2048x256) S512x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .bf16 = 32 ∨ (Rect.block (s := S2048x256) S2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .f32 = 32 ∨ (Rect.block (s := S2048x2048) S512x2048.size (cc1_transform_3 i) (hinb1_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

abbrev win1_0 : Pipeline.Window sig grid1 :=
  Pipeline.Window.ofSpec (Memref.whole main_v12) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S_ : Shape := ⟨0, ![]⟩
abbrev S4096x256 : Shape := ⟨2, ![4096, 256]⟩
abbrev S1x256 : Shape := ⟨2, ![1, 256]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S_, .i32⟩
  | .hbm, ⟨10, _⟩ => ⟨S_, .i32⟩
  | .hbm, ⟨11, _⟩ => ⟨S4096x256, .f32⟩
  | .hbm, ⟨12, _⟩ => ⟨S4096x256, .f32⟩
  | .hbm, ⟨13, _⟩ => ⟨S1x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .i1⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .i1⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .i1⟩
  | .hbm, ⟨43, _⟩ => ⟨S_, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S2048x256, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2048x256, .f32⟩
  | .hbm, ⟨66, _⟩ => ⟨S2048x256, .f32⟩
  | .hbm, ⟨67, _⟩ => ⟨S256x2048, .f32⟩
  | .hbm, ⟨68, _⟩ => ⟨S2048x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  sliceFits_S4096x256_S2048x256 : S4096x256.Slices (fun _ => 0) S2048x256
  h_S_ : 0 < S_.numel
  transposes_S2048x256_S256x2048_1_0 : S2048x256.Transposes [1, 0] S256x2048
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []
  dot_S2048x256_S256x256_S2048x256_1_0_0_1_n_n_wf : DotDims.WF S2048x256 S256x256 S2048x256 [1] [0] [0] [1] [] []
  dot_S2048x256_S256x2048_S2048x2048_1_0_0_1_n_n_wf : DotDims.WF S2048x256 S256x2048 S2048x2048 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

class Facts : Prop extends Facts₀ where

variable [Facts]
-- ==== Proof.K.K0Fun.lean ====
import proofs.«133194_g38319698214914_cont_sun_m_1384_4_alg».proof.Proof.Gen.Kernel.Skeleton
import Idealize.ShloMosaic.Lib.Pipeline.FrameBody
import Idealize.ShloMosaic.Lib.ValueIdx

/-!
The first kernel, read as mathematics. Its grid has four phases of eight points. With the adjacency `G` cut into eight
slabs of 512 rows, phase 0 keeps the rounded slabs of `G` and the slabs of `H·W1`; phase 1 the slabs of
`leaky(G·S1 + b1)·W2`; phase 2 those of `leaky(G·S2 + b2)·W3`; phase 3 writes the slabs of `leaky(G·S3 + b3)`.
Each whole array is the function whose slab `r / 512` is the body's payload on the inputs' slab, read at row `r % 512`.
-/

noncomputable section

namespace Cert.Kernel.K0

open Cert.Kernel Cert.Kernel.Gen
open Idealize.ShloMosaic Idealize.ShloMosaic.TcCoe Idealize.ShloMosaic.ValueIdx Idealize.SL.Sem

variable {F : FTy → Type} [FloatOps F]

/-- The zero offsets, in the spelling the printed accesses use. -/
theorem hz2 : (![0, 0] : Fin 2 → ℕ) = fun _ => 0 := by
  funext a; match a with | ⟨0, _⟩ => rfl | ⟨1, _⟩ => rfl

theorem inbG (b : Fin 8) : ∀ a, (![512 * b.val, 0] : Fin 2 → ℕ) a + S512x4096.size a ≤ S4096x4096.size a :=
  Fin.forall_fin_two.mpr ⟨by show 512 * b.val + 512 ≤ 4096; omega, by show 0 + 4096 ≤ 4096; omega⟩
theorem inbS (b : Fin 8) : ∀ a, (![512 * b.val, 0] : Fin 2 → ℕ) a + S512x256.size a ≤ S4096x256.size a :=
  Fin.forall_fin_two.mpr ⟨by show 512 * b.val + 512 ≤ 4096; omega, by show 0 + 256 ≤ 256; omega⟩
theorem inbH (b : Fin 8) : ∀ a, (![512 * b.val, 0] : Fin 2 → ℕ) a + S512x512.size a ≤ S4096x512.size a :=
  Fin.forall_fin_two.mpr ⟨by show 512 * b.val + 512 ≤ 4096; omega, by show 0 + 512 ≤ 512; omega⟩

/-- Slab `b` (rows `512 b … 512 b + 511`) of a 4096×4096 array, of a 4096×256 array, of a 4096×512 array. -/
abbrev slabG (b : Fin 8) : Rect S4096x4096 := Rect.unit (s := S4096x4096) ![512 * b.val, 0] S512x4096.size (inbG b)
abbrev slabS (b : Fin 8) : Rect S4096x256 := Rect.unit (s := S4096x256) ![512 * b.val, 0] S512x256.size (inbS b)
abbrev slabH (b : Fin 8) : Rect S4096x512 := Rect.unit (s := S4096x512) ![512 * b.val, 0] S512x512.size (inbH b)

/-- The slab a row lies in, and the row's place inside it. -/
def slabOf (r : Fin 4096) : Fin 8 := ⟨r.val / 512, by have := r.isLt; omega⟩
def rowIn (r : Fin 4096) : Fin 512 := ⟨r.val % 512, Nat.mod_lt _ (by decide)⟩

/-- The slab a grid point works on: the 32 points are four phases of eight slabs. -/
def slabAt (t : Fin cfg0.N) : Fin 8 := ⟨t.val % 8, Nat.mod_lt _ (by decide)⟩

/-- `G` rounded, slab by slab (what phase 0 leaves in the first scratch). -/
def gb (G : Vec F S4096x4096 .f32) : Vec F S4096x4096 .bf16 := fun j =>
  k0_pay1 (View.ld G (slabG (slabOf (j 0)))) (ix2 (rowIn (j 0)) (j 1))

/-- `S1 = H·W1`, slab by slab (what phase 0 leaves in the second scratch). -/
def s1 (H : Vec F S4096x512 .f32) (W1 : Vec F S512x256 .bf16) : Vec F S4096x256 .bf16 := fun j =>
  k0_pay2 (View.ld H (slabH (slabOf (j 0)))) W1 (ix2 (rowIn (j 0)) (j 1))

/-- One propagation step `leaky(G·S + b)·W`, slab by slab (phases 1 and 2 run the same arithmetic: the two printed
    payloads are the same term, kept apart because the body stores them into different scratch buffers). -/
def s2 (Gb : Vec F S4096x4096 .bf16) (S : Vec F S4096x256 .bf16) (b : Vec F S1x256 .f32) (W : Vec F S256x256 .bf16) :
    Vec F S4096x256 .bf16 := fun j =>
  k0_pay3 (View.ld Gb (slabG (slabOf (j 0)))) S b W (ix2 (rowIn (j 0)) (j 1))
def s3 (Gb : Vec F S4096x4096 .bf16) (S : Vec F S4096x256 .bf16) (b : Vec F S1x256 .f32) (W : Vec F S256x256 .bf16) :
    Vec F S4096x256 .bf16 := fun j =>
  k0_pay4 (View.ld Gb (slabG (slabOf (j 0)))) S b W (ix2 (rowIn (j 0)) (j 1))

/-- The last step `leaky(G·S3 + b3)`: slab `b` is what grid point `24 + b` stores into the output window. -/
def outSlab (Gb : Vec F S4096x4096 .bf16) (S : Vec F S4096x256 .bf16) (b3 : Vec F S1x256 .f32) (b : Fin 8) :
    Vec F S512x256 .bf16 :=
  k0_pay5 (View.ld Gb (slabG b)) S b3
def h3 (Gb : Vec F S4096x4096 .bf16) (S : Vec F S4096x256 .bf16) (b3 : Vec F S1x256 .f32) : Vec F S4096x256 .bf16 := fun j =>
  outSlab Gb S b3 (slabOf (j 0)) (ix2 (rowIn (j 0)) (j 1))

/-- Everything the first kernel computes from its eight operands (`G`, `H`, the rounded weights, the bias rows). -/
structure Ops (F : FTy → Type) [FloatOps F] where
  G : Vec F S4096x4096 .f32
  H : Vec F S4096x512 .f32
  W1 : Vec F S512x256 .bf16
  b1 : Vec F S1x256 .f32
  W2 : Vec F S256x256 .bf16
  b2 : Vec F S1x256 .f32
  W3 : Vec F S256x256 .bf16
  b3 : Vec F S1x256 .f32

def Ops.gb (o : Ops F) : Vec F S4096x4096 .bf16 := K0.gb o.G
def Ops.s1 (o : Ops F) : Vec F S4096x256 .bf16 := K0.s1 o.H o.W1
def Ops.s2 (o : Ops F) : Vec F S4096x256 .bf16 := K0.s2 o.gb o.s1 o.b1 o.W2
def Ops.s3 (o : Ops F) : Vec F S4096x256 .bf16 := K0.s3 o.gb o.s2 o.b2 o.W3
def Ops.h3 (o : Ops F) : Vec F S4096x256 .bf16 := K0.h3 o.gb o.s3 o.b3

end Cert.Kernel.K0

end
-- ==== Proof.K.Reg0Grid.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import proofs.«133194_g38319698214914_cont_sun_m_1384_4_alg».proof.Proof.K.K0Fun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
The first kernel's grid, decided. Its 32 points fall into four phases of eight; the four branch conditions of the body
single out the phases, the offsets of its slab accesses are `512` times the point's place in its phase, the output
window is idle through the first three phases and written back at every point of the last, and each input window's
block is a slab of its array (the first two windows) or the whole array (the other six).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The first branch is taken at the points of phase 0. -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- The second at the points of phase 1. -/
theorem hcond2 : ∀ t : Fin cfg0.N, k0_cond2 (grid0.coords t) = 1#1 ↔ 8 ≤ t.val ∧ t.val < 16 :=
  (by decide +kernel : ∀ t : Fin grid0.N, k0_cond2 (grid0.coords t) = 1#1 ↔ 8 ≤ t.val ∧ t.val < 16)
/-- The third at the points of phase 2. -/
theorem hcond3 : ∀ t : Fin cfg0.N, k0_cond3 (grid0.coords t) = 1#1 ↔ 16 ≤ t.val ∧ t.val < 24 :=
  (by decide +kernel : ∀ t : Fin grid0.N, k0_cond3 (grid0.coords t) = 1#1 ↔ 16 ≤ t.val ∧ t.val < 24)
/-- The fourth at the points of phase 3. -/
theorem hcond4 : ∀ t : Fin cfg0.N, k0_cond4 (grid0.coords t) = 1#1 ↔ 24 ≤ t.val :=
  (by decide +kernel : ∀ t : Fin grid0.N, k0_cond4 (grid0.coords t) = 1#1 ↔ 24 ≤ t.val)

/-! ## The offsets of the slab accesses -/

theorem off1 : ∀ t : Fin cfg0.N, t.val < 8 → k0_off1 (grid0.coords t) = ![512 * t.val, 0] :=
  (by decide +kernel : ∀ t : Fin grid0.N, t.val < 8 → k0_off1 (grid0.coords t) = ![512 * t.val, 0])
theorem off2 : ∀ t : Fin cfg0.N, t.val < 8 → k0_off2 (grid0.coords t) = ![512 * t.val, 0] :=
  (by decide +kernel : ∀ t : Fin grid0.N, t.val < 8 → k0_off2 (grid0.coords t) = ![512 * t.val, 0])
theorem off3 : ∀ t : Fin cfg0.N, 8 ≤ t.val → t.val < 16 → k0_off3 (grid0.coords t) = ![512 * (t.val - 8), 0] :=
  (by decide +kernel : ∀ t : Fin grid0.N, 8 ≤ t.val → t.val < 16 → k0_off3 (grid0.coords t) = ![512 * (t.val - 8), 0])
theorem off4 : ∀ t : Fin cfg0.N, 8 ≤ t.val → t.val < 16 → k0_off4 (grid0.coords t) = ![512 * (t.val - 8), 0] :=
  (by decide +kernel : ∀ t : Fin grid0.N, 8 ≤ t.val → t.val < 16 → k0_off4 (grid0.coords t) = ![512 * (t.val - 8), 0])
theorem off5 : ∀ t : Fin cfg0.N, 16 ≤ t.val → t.val < 24 → k0_off5 (grid0.coords t) = ![512 * (t.val - 16), 0] :=
  (by decide +kernel : ∀ t : Fin grid0.N, 16 ≤ t.val → t.val < 24 → k0_off5 (grid0.coords t) = ![512 * (t.val - 16), 0])
theorem off6 : ∀ t : Fin cfg0.N, 16 ≤ t.val → t.val < 24 → k0_off6 (grid0.coords t) = ![512 * (t.val - 16), 0] :=
  (by decide +kernel : ∀ t : Fin grid0.N, 16 ≤ t.val → t.val < 24 → k0_off6 (grid0.coords t) = ![512 * (t.val - 16), 0])
theorem off7 : ∀ t : Fin cfg0.N, 24 ≤ t.val → k0_off7 (grid0.coords t) = ![512 * (t.val - 24), 0] :=
  (by decide +kernel : ∀ t : Fin grid0.N, 24 ≤ t.val → k0_off7 (grid0.coords t) = ![512 * (t.val - 24), 0])

/-! ## Where the windows are idle, where the output is written back, the block indices -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Through the first three phases the body stores nothing into the output window, -/
theorem idleAt0_8 : ∀ t : Fin cfg0.N, t.val < 24 → cfg0.idle 8 (grid0.coords t) = true := by decide +kernel
/-- and the pipeline writes no block of it back. -/
theorem noFlush0_8 : ∀ t : Fin cfg0.N, t.val < 24 → (cfg0.win 8).flush t = false := by decide +kernel
/-- In the last phase the body stores into it at every point, -/
theorem liveAt0_8 : ∀ t : Fin cfg0.N, 24 ≤ t.val → cfg0.idle 8 (grid0.coords t) = false := by decide +kernel
/-- and every point's block is written back. -/
theorem flush0_8 : ∀ t : Fin cfg0.N, 24 ≤ t.val → (cfg0.win 8).flush t = true := by decide +kernel
/-- The output's block index: slab `t - 24` (slab 0 before the last phase). -/
theorem idx0_8 : ∀ t : Fin cfg0.N, win0_8.index t (0 : Fin 2) = t.val - 24 ∧ win0_8.index t (1 : Fin 2) = 0 :=
  (by decide +kernel : ∀ t : Fin grid0.N, win0_8.index t (0 : Fin 2) = t.val - 24 ∧ win0_8.index t (1 : Fin 2) = 0)
/-- The first two inputs' block index: slab `min t 7`. -/
theorem idx0_0 : ∀ t : Fin cfg0.N, win0_0.index t (0 : Fin 2) = min t.val 7 ∧ win0_0.index t (1 : Fin 2) = 0 :=
  (by decide +kernel : ∀ t : Fin grid0.N, win0_0.index t (0 : Fin 2) = min t.val 7 ∧ win0_0.index t (1 : Fin 2) = 0)
theorem idx0_1 : ∀ t : Fin cfg0.N, win0_1.index t (0 : Fin 2) = min t.val 7 ∧ win0_1.index t (1 : Fin 2) = 0 :=
  (by decide +kernel : ∀ t : Fin grid0.N, win0_1.index t (0 : Fin 2) = min t.val 7 ∧ win0_1.index t (1 : Fin 2) = 0)

/-- The six whole-array inputs sit at block index 0 throughout. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The input blocks as slabs of their arrays -/

section Slabs
variable (V : (c : Dev nD) → (b : Ref sig .tc) → Buf (Elt F) ((c : Thread nD τ).loc b))

/-- In phase 0 the first window's block at point `t` is slab `t` of the adjacency, -/
theorem blk0_0 (c : Dev nD) (t : Fin cfg0.N) (h : t.val < 8) : iblk0 V c 0 t = View.ld (V c main_arg1) (K0.slabG ⟨t.val, h⟩) := by
  funext y
  unfold iblk0
  show V c main_arg1 (((cfg0.win 0).blk t).view.emb y) = V c main_arg1 ((K0.slabG ⟨t.val, h⟩).idx y)
  refine congrArg _ ?_
  funext a; apply Fin.ext
  obtain ⟨e0, e1⟩ := idx0_0 t
  match a with
  | ⟨0, _⟩ => show win0_0.index t (0 : Fin 2) * 512 + 1 * (y 0).val = 512 * t.val + 1 * (y 0).val; omega
  | ⟨1, _⟩ => show win0_0.index t (1 : Fin 2) * 4096 + 1 * (y 1).val = 0 + 1 * (y 1).val; omega

/-- and the second window's is slab `t` of the features. -/
theorem blk0_1 (c : Dev nD) (t : Fin cfg0.N) (h : t.val < 8) : iblk0 V c 1 t = View.ld (V c main_arg0) (K0.slabH ⟨t.val, h⟩) := by
  funext y
  unfold iblk0
  show V c main_arg0 (((cfg0.win 1).blk t).view.emb y) = V c main_arg0 ((K0.slabH ⟨t.val, h⟩).idx y)
  refine congrArg _ ?_
  funext a; apply Fin.ext
  obtain ⟨e0, e1⟩ := idx0_1 t
  match a with
  | ⟨0, _⟩ => show win0_1.index t (0 : Fin 2) * 512 + 1 * (y 0).val = 512 * t.val + 1 * (y 0).val; omega
  | ⟨1, _⟩ => show win0_1.index t (1 : Fin 2) * 512 + 1 * (y 1).val = 0 + 1 * (y 1).val; omega

/-- The other six windows' blocks are their whole arrays. -/
theorem blk0_2 (c : Dev nD) (t : Fin cfg0.N) : iblk0 V c 2 t = V c main_v0 := by
  funext y
  unfold iblk0
  show V c main_v0 (((cfg0.win 2).blk t).view.emb y) = V c main_v0 y
  refine congrArg _ ?_
  funext a; apply Fin.ext
  obtain ⟨e0, e1⟩ := idx0_2 t
  match a with
  | ⟨0, _⟩ => show win0_2.index t (0 : Fin 2) * 512 + 1 * (y 0).val = (y 0).val; omega
  | ⟨1, _⟩ => show win0_2.index t (1 : Fin 2) * 256 + 1 * (y 1).val = (y 1).val; omega

theorem blk0_3 (c : Dev nD) (t : Fin cfg0.N) : iblk0 V c 3 t = V c main_v4 := by
  funext y
  unfold iblk0
  show V c main_v4 (((cfg0.win 3).blk t).view.emb y) = V c main_v4 y
  refine congrArg _ ?_
  funext a; apply Fin.ext
  obtain ⟨e0, e1⟩ := idx0_3 t
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem blk0_4 (c : Dev nD) (t : Fin cfg0.N) : iblk0 V c 4 t = V c main_v1 := by
  funext y
  unfold iblk0
  show V c main_v1 (((cfg0.win 4).blk t).view.emb y) = V c main_v1 y
  refine congrArg _ ?_
  funext a; apply Fin.ext
  obtain ⟨e0, e1⟩ := idx0_4 t
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem blk0_5 (c : Dev nD) (t : Fin cfg0.N) : iblk0 V c 5 t = V c main_v5 := by
  funext y
  unfold iblk0
  show V c main_v5 (((cfg0.win 5).blk t).view.emb y) = V c main_v5 y
  refine congrArg _ ?_
  funext a; apply Fin.ext
  obtain ⟨e0, e1⟩ := idx0_5 t
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem blk0_6 (c : Dev nD) (t : Fin cfg0.N) : iblk0 V c 6 t = V c main_v2 := by
  funext y
  unfold iblk0
  show V c main_v2 (((cfg0.win 6).blk t).view.emb y) = V c main_v2 y
  refine congrArg _ ?_
  funext a; apply Fin.ext
  obtain ⟨e0, e1⟩ := idx0_6 t
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem blk0_7 (c : Dev nD) (t : Fin cfg0.N) : iblk0 V c 7 t = V c main_v6 := by
  funext y
  unfold iblk0
  show V c main_v6 (((cfg0.win 7).blk t).view.emb y) = V c main_v6 y
  refine congrArg _ ?_
  funext a; apply Fin.ext
  obtain ⟨e0, e1⟩ := idx0_7 t
  match a with
  | ⟨0, _⟩ => show win0_7.index t (0 : Fin 2) * 1 + 1 * (y 0).val = (y 0).val; omega
  | ⟨1, _⟩ => show win0_7.index t (1 : Fin 2) * 256 + 1 * (y 1).val = (y 1).val; omega

end Slabs

end Cert.Kernel.Hand

end
-- ==== Proof.K.Reg0Runs.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
The first kernel's body, run once per phase. Each run takes the staging buffers and scratch buffers the phase touches at
named contents and hands them back, the buffer the phase stores into with its one store recorded as a piece over the
contents it had; which piece that is the run itself finds.
-/

/-- Phase 0 (grid points 0..7): a 512-row slab of `G` is rounded into the first scratch, the matching slab of `H·W1`
    goes into the second. -/
noncomputable def runP0 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    Σ' (L0 : List (View.Piece (Elt F) S4096x4096 .bf16)), { L1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg10 fullShare f0 ∗ owns (c : Thread nD τ) arg11 fullShare f1
            ∗ (iprop(owns (c : Thread nD τ) arg1 fullShare x0 ∗ owns (c : Thread nD τ) arg2 fullShare x1 ∗ owns (c : Thread nD τ) arg3 fullShare x2
                ∗ (arg10.view.loc (c : Thread nD τ) ↦[arg10.view.set]{fullShare} arg10.view.writes (Elt F) (harg10.unread f0) L0) ∗ (arg11.view.loc (c : Thread nD τ) ↦[arg11.view.set]{fullShare} arg11.view.writes (Elt F) (harg11.unread f1) L1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mega_kernel_eq_skeleton]; unfold cc0__mega_kernel_skel
    unfold owns
    iintro ⟨⟨%g0, %hg0, H0⟩, ⟨%g1, %hg1, H1⟩, ⟨%g2, %hg2, H2⟩, ⟨%gs0, %hgs0, HS0⟩, ⟨%gs1, %hgs1, HS1⟩, Hk⟩
    obtain rfl := harg1.eq_unread hg0; obtain rfl := harg2.eq_unread hg1; obtain rfl := harg3.eq_unread hg2
    obtain rfl := harg10.eq_unread hgs0; obtain rfl := harg11.eq_unread hgs1
    sl_exec (disch := first | exact h1 | exact h2 | exact h3 | exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexact HS0
    iexact HS1

/-- Phase 1 (grid points 8..15): from a slab of the rounded `G`, the whole of `S1`, the bias row and `W2`, the slab of
    `leaky(G·S1 + b1)·W2` goes into the third scratch. -/
noncomputable def runP1 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : k0_cond2 i = 1#1) (h3 : ¬ k0_cond3 i = 1#1) (h4 : ¬ k0_cond4 i = 1#1)
    (x3 : Vec F S1x256 .f32) (x4 : Vec F S256x256 .bf16)
    (f0 : Vec F S4096x4096 .bf16) (f1 : Vec F S4096x256 .bf16) (f2 : Vec F S4096x256 .bf16) :
    { L2 : List (View.Piece (Elt F) S4096x256 .bf16) //
      ∀ (E : Set ℕ) (K : PUnit → sProp 𝕄),
        iprop(owns (c : Thread nD τ) arg4 fullShare x3 ∗ owns (c : Thread nD τ) arg5 fullShare x4 ∗ owns (c : Thread nD τ) arg10 fullShare f0 ∗ owns (c : Thread nD τ) arg11 fullShare f1 ∗ owns (c : Thread nD τ) arg12 fullShare f2
            ∗ (iprop(owns (c : Thread nD τ) arg4 fullShare x3 ∗ owns (c : Thread nD τ) arg5 fullShare x4 ∗ owns (c : Thread nD τ) arg10 fullShare f0 ∗ owns (c : Thread nD τ) arg11 fullShare f1
                ∗ (arg12.view.loc (c : Thread nD τ) ↦[arg12.view.set]{fullShare} arg12.view.writes (Elt F) (harg12.unread f2) L2)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g3, %hg3, H3⟩, ⟨%g4, %hg4, H4⟩, ⟨%gs0, %hgs0, HS0⟩, ⟨%gs1, %hgs1, HS1⟩, ⟨%gs2, %hgs2, HS2⟩, Hk⟩
    obtain rfl := harg4.eq_unread hg3; obtain rfl := harg5.eq_unread hg4
    obtain rfl := harg10.eq_unread hgs0; obtain rfl := harg11.eq_unread hgs1; obtain rfl := harg12.eq_unread hgs2
    sl_exec (disch := first | exact h1 | exact h2 | exact h3 | exact h4)
    sl_step
    iapply Hk
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg10.read_unread _
      iexact HS0
    isplitl [HS1]
    · iexists _; isplitr; · ipureintro; exact harg11.read_unread _
      iexact HS1
    iexact HS2

/-- Phase 2 (grid points 16..23): the same step from `S2` (third scratch) with the second bias row and `W3`; the slab
    of `leaky(G·S2 + b2)·W3` overwrites the slab of the second scratch. -/
noncomputable def runP2 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : k0_cond3 i = 1#1) (h4 : ¬ k0_cond4 i = 1#1)
    (x5 : Vec F S1x256 .f32) (x6 : Vec F S256x256 .bf16)
    (f0 : Vec F S4096x4096 .bf16) (f1 : Vec F S4096x256 .bf16) (f2 : Vec F S4096x256 .bf16) :
    { L1 : List (View.Piece (Elt F) S4096x256 .bf16) //
      ∀ (E : Set ℕ) (K : PUnit → sProp 𝕄),
        iprop(owns (c : Thread nD τ) arg6 fullShare x5 ∗ owns (c : Thread nD τ) arg7 fullShare x6 ∗ owns (c : Thread nD τ) arg10 fullShare f0 ∗ owns (c : Thread nD τ) arg11 fullShare f1 ∗ owns (c : Thread nD τ) arg12 fullShare f2
            ∗ (iprop(owns (c : Thread nD τ) arg6 fullShare x5 ∗ owns (c : Thread nD τ) arg7 fullShare x6 ∗ owns (c : Thread nD τ) arg10 fullShare f0 ∗ owns (c : Thread nD τ) arg12 fullShare f2
                ∗ (arg11.view.loc (c : Thread nD τ) ↦[arg11.view.set]{fullShare} arg11.view.writes (Elt F) (harg11.unread f1) L1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g5, %hg5, H5⟩, ⟨%g6, %hg6, H6⟩, ⟨%gs0, %hgs0, HS0⟩, ⟨%gs1, %hgs1, HS1⟩, ⟨%gs2, %hgs2, HS2⟩, Hk⟩
    obtain rfl := harg6.eq_unread hg5; obtain rfl := harg7.eq_unread hg6
    obtain rfl := harg10.eq_unread hgs0; obtain rfl := harg11.eq_unread hgs1; obtain rfl := harg12.eq_unread hgs2
    sl_exec (disch := first | exact h1 | exact h2 | exact h3 | exact h4)
    sl_step
    iapply Hk
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg10.read_unread _
      iexact HS0
    isplitl [HS2]
    · iexists _; isplitr; · ipureintro; exact harg12.read_unread _
      iexact HS2
    iexact HS1

/-- Phase 3 (grid points 24..31): from a slab of the rounded `G`, the whole of `S3` (second scratch) and the third bias
    row, the slab of `leaky(G·S3 + b3)` is stored over the whole output block. -/
noncomputable def runP3 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : ¬ k0_cond3 i = 1#1) (h4 : k0_cond4 i = 1#1)
    (x7 : Vec F S1x256 .f32) (d9 : Vec F S512x256 .bf16)
    (f0 : Vec F S4096x4096 .bf16) (f1 : Vec F S4096x256 .bf16) :
    { L9 : List (View.Piece (Elt F) S512x256 .bf16) //
      ∀ (E : Set ℕ) (K : PUnit → sProp 𝕄),
        iprop(owns (c : Thread nD τ) arg8 fullShare x7 ∗ owns (c : Thread nD τ) arg9 fullShare d9 ∗ owns (c : Thread nD τ) arg10 fullShare f0 ∗ owns (c : Thread nD τ) arg11 fullShare f1
            ∗ (iprop(owns (c : Thread nD τ) arg8 fullShare x7 ∗ owns (c : Thread nD τ) arg10 fullShare f0 ∗ owns (c : Thread nD τ) arg11 fullShare f1
                ∗ (arg9.view.loc (c : Thread nD τ) ↦[arg9.view.set]{fullShare} arg9.view.writes (Elt F) (harg9.unread d9) L9)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g7, %hg7, H7⟩, ⟨%g9, %hg9, H9⟩, ⟨%gs0, %hgs0, HS0⟩, ⟨%gs1, %hgs1, HS1⟩, Hk⟩
    obtain rfl := harg8.eq_unread hg7; obtain rfl := harg9.eq_unread hg9
    obtain rfl := harg10.eq_unread hgs0; obtain rfl := harg11.eq_unread hgs1
    sl_exec (disch := first | exact h1 | exact h2 | exact h3 | exact h4)
    sl_step
    iapply Hk
    isplitl [H7]
    · iexists _; isplitr; · ipureintro; exact harg8.read_unread _
      iexact H7
    isplitl [HS0]
    · iexists _; isplitr; · ipureintro; exact harg10.read_unread _
      iexact HS0
    isplitl [HS1]
    · iexists _; isplitr; · ipureintro; exact harg11.read_unread _
      iexact HS1
    iexact H9

end Cert.Kernel.Hand

end
-- ==== Proof.K.Reg0Pieces.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«133194_g38319698214914_cont_sun_m_1384_4_alg».proof.Proof.K.Reg0Runs
import proofs.«133194_g38319698214914_cont_sun_m_1384_4_alg».proof.Proof.K.K0Fun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.K0

/-! The one store each phase's run recorded, spelt out: its rectangle (512 whole rows from the offsets the body computes)
    and its payload on the contents the run was given. -/

theorem runP0_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    (runP0 c i arg1 harg1 arg2 harg2 arg3 harg3 arg4 harg4 arg5 harg5 arg6 harg6 arg7 harg7 arg8 harg8 arg9 harg9 arg10 harg10 arg11 harg11 arg12 harg12 h1 h2 h3 h4 x0 x1 x2 f0 f1).1
      = [⟨Rect.unit (s := S4096x4096) (k0_off1 i) S512x4096.size (k0_off1_inb i h1), k0_pay1 x0⟩] := by
  unfold runP0
  dsimp only
  simp only [View.readAt_eq_ld, Memref.IsWhole.read_unread, View.ld_unit_zero (S := S512x4096) hz2]

theorem runP0_snd (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    (runP0 c i arg1 harg1 arg2 harg2 arg3 harg3 arg4 harg4 arg5 harg5 arg6 harg6 arg7 harg7 arg8 harg8 arg9 harg9 arg10 harg10 arg11 harg11 arg12 harg12 h1 h2 h3 h4 x0 x1 x2 f0 f1).2.1
      = [⟨Rect.unit (s := S4096x256) (k0_off2 i) S512x256.size (k0_off2_inb i h1), k0_pay2 x1 x2⟩] := by
  unfold runP0
  dsimp only
  simp only [View.readAt_eq_ld, Memref.IsWhole.read_unread, View.ld_unit_zero (S := S512x512) hz2, View.ld_unit_zero (S := S512x256) hz2]

theorem runP1_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : k0_cond2 i = 1#1) (h3 : ¬ k0_cond3 i = 1#1) (h4 : ¬ k0_cond4 i = 1#1)
    (x3 : Vec F S1x256 .f32) (x4 : Vec F S256x256 .bf16)
    (f0 : Vec F S4096x4096 .bf16) (f1 : Vec F S4096x256 .bf16) (f2 : Vec F S4096x256 .bf16) :
    (runP1 c i arg1 harg1 arg2 harg2 arg3 harg3 arg4 harg4 arg5 harg5 arg6 harg6 arg7 harg7 arg8 harg8 arg9 harg9 arg10 harg10 arg11 harg11 arg12 harg12 h1 h2 h3 h4 x3 x4 f0 f1 f2).1
      = [⟨Rect.unit (s := S4096x256) (k0_off4 i) S512x256.size (k0_off4_inb i h2),
          k0_pay3 (View.ld f0 (Rect.unit (s := S4096x4096) (k0_off3 i) S512x4096.size (k0_off3_inb i h2))) f1 x3 x4⟩] := by
  unfold runP1
  dsimp only
  simp only [View.readAt_eq_ld, Memref.IsWhole.read_unread, View.ld_unit_zero (S := S4096x256) hz2, View.ld_unit_zero (S := S1x256) hz2, View.ld_unit_zero (S := S256x256) hz2]

theorem runP2_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : k0_cond3 i = 1#1) (h4 : ¬ k0_cond4 i = 1#1)
    (x5 : Vec F S1x256 .f32) (x6 : Vec F S256x256 .bf16)
    (f0 : Vec F S4096x4096 .bf16) (f1 : Vec F S4096x256 .bf16) (f2 : Vec F S4096x256 .bf16) :
    (runP2 c i arg1 harg1 arg2 harg2 arg3 harg3 arg4 harg4 arg5 harg5 arg6 harg6 arg7 harg7 arg8 harg8 arg9 harg9 arg10 harg10 arg11 harg11 arg12 harg12 h1 h2 h3 h4 x5 x6 f0 f1 f2).1
      = [⟨Rect.unit (s := S4096x256) (k0_off6 i) S512x256.size (k0_off6_inb i h3),
          k0_pay4 (View.ld f0 (Rect.unit (s := S4096x4096) (k0_off5 i) S512x4096.size (k0_off5_inb i h3))) f2 x5 x6⟩] := by
  unfold runP2
  dsimp only
  simp only [View.readAt_eq_ld, Memref.IsWhole.read_unread, View.ld_unit_zero (S := S4096x256) hz2, View.ld_unit_zero (S := S1x256) hz2, View.ld_unit_zero (S := S256x256) hz2]

theorem runP3_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : ¬ k0_cond3 i = 1#1) (h4 : k0_cond4 i = 1#1)
    (x7 : Vec F S1x256 .f32) (d9 : Vec F S512x256 .bf16)
    (f0 : Vec F S4096x4096 .bf16) (f1 : Vec F S4096x256 .bf16) :
    (runP3 c i arg1 harg1 arg2 harg2 arg3 harg3 arg4 harg4 arg5 harg5 arg6 harg6 arg7 harg7 arg8 harg8 arg9 harg9 arg10 harg10 arg11 harg11 arg12 harg12 h1 h2 h3 h4 x7 d9 f0 f1).1
      = [⟨Rect.unit (s := S512x256) ![0, 0] S512x256.size inb_S512x256_S512x256_0_0,
          k0_pay5 (View.ld f0 (Rect.unit (s := S4096x4096) (k0_off7 i) S512x4096.size (k0_off7_inb i h4))) f1 x7⟩] := by
  unfold runP3
  dsimp only
  simp only [View.readAt_eq_ld, Memref.IsWhole.read_unread, View.ld_unit_zero (S := S4096x256) hz2, View.ld_unit_zero (S := S1x256) hz2]

end Cert.Kernel.Hand

end
-- ==== Proof.K.Reg0Step.lean ====
import proofs.«133194_g38319698214914_cont_sun_m_1384_4_alg».proof.Proof.K.K0Fun
import Idealize.ShloMosaic.Lib.WritesUnit
import Idealize.ShloMosaic.Lib.Pipeline.Frame
import Idealize.ShloMosaic.Lib.Pipeline.Value

/-!
How the scratch buffers of the first kernel fill up. Each phase stores one slab of 512 whole rows per grid point; after
`n` points of a phase the first `512·n` rows of the buffer hold the rows of the whole array the phase computes, the
other rows what they held. The invariant `Inv` says, after `n` of the 32 points, which rows of the three buffers
are known to be rows of `gb`, `S1`, `S2`, `S3`.
-/

noncomputable section

namespace Cert.Kernel.Hand

open Cert.Kernel Cert.Kernel.Gen Cert.Kernel.K0
open Idealize.ShloMosaic Idealize.ShloMosaic.TcCoe Idealize.ShloMosaic.ValueIdx Idealize.SL.Sem

variable {F : FTy → Type} [FloatOps F]

/-- Two unit-stride rectangles of one size at equal offsets are one rectangle. -/
theorem unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- A row's slab and its place in the slab, from the slab's first row. -/
theorem slabOf_eq {r : Fin 4096} {n : ℕ} (hn : n < 8) (h : 512 * n ≤ r.val ∧ r.val < 512 * n + 512) : slabOf r = ⟨n, hn⟩ :=
  Fin.ext (by show r.val / 512 = n; omega)
theorem rowIn_val {r : Fin 4096} {n : ℕ} (h : 512 * n ≤ r.val ∧ r.val < 512 * n + 512) : (rowIn r).val = r.val - 512 * n := by
  show r.val % 512 = r.val - 512 * n; omega

/-- ONE STORE OF WHOLE ROWS. A whole buffer of shape [4096, d] holding `f`, after a store of the 512 rows from row
    `512·n` with payload `P`: on those rows the payload at the row's place in the slab, elsewhere `f`. -/
theorem read_store_slab {d1 : ℕ} {e : EltTy} (m : Memref sig .tc .vmem (⟨2, ![4096, d1]⟩ : Shape) e) (hm : m.IsWhole)
    (f : (⟨2, ![4096, d1]⟩ : Shape).Idx → Elt F e) {off : Fin 2 → ℕ} {n : ℕ}
    (inb : ∀ a : Fin 2, off a + (![512, d1] : Fin 2 → ℕ) a ≤ (![4096, d1] : Fin 2 → ℕ) a)
    (P : (⟨2, ![512, d1]⟩ : Shape).Idx → Elt F e) (hoff : off = ![512 * n, 0]) (y : (⟨2, ![4096, d1]⟩ : Shape).Idx) :
    m.view.read (Elt F) (m.view.writes (Elt F) (hm.unread f)
        [(⟨Rect.unit (s := (⟨2, ![4096, d1]⟩ : Shape)) off (![512, d1] : Fin 2 → ℕ) inb, P⟩ : View.Piece (Elt F) _ e)]) y
      = if h : 512 * n ≤ (y 0).val ∧ (y 0).val < 512 * n + 512 then
          P (ix2 ⟨(y 0).val - 512 * n, by omega⟩ (y 1))
        else f y := by
  rw [View.read_writes_cons_rows m.view (hm.unread f) inb P [] y hoff (W := 512) rfl rfl]
  by_cases h : 512 * n ≤ (y 0).val ∧ (y 0).val < 512 * n + 512
  · rw [dif_pos h, dif_pos h]
    refine congrArg P ?_
    funext a
    match a with
    | ⟨0, _⟩ => exact Fin.ext (by show (y 0).val - (![512 * n, 0] : Fin 2 → ℕ) 0 = (y 0).val - 512 * n; rfl)
    | ⟨1, _⟩ => exact Fin.ext (by show (y 1).val - (![512 * n, 0] : Fin 2 → ℕ) 1 = (y 1).val; exact Nat.sub_zero _)
  · rw [dif_neg h, dif_neg h, View.writes_nil]
    exact congrFun (hm.read_unread f) y

/-- THE FILLING STEP. If the rows below `512·n` are rows of `T`, and slab `n` of `T` is the payload `P`, then after the
    store the rows below `512·(n+1)` are rows of `T`; -/
theorem slab_step {d1 : ℕ} {e : EltTy} (m : Memref sig .tc .vmem (⟨2, ![4096, d1]⟩ : Shape) e) (hm : m.IsWhole)
    (f T : (⟨2, ![4096, d1]⟩ : Shape).Idx → Elt F e) {off : Fin 2 → ℕ} {n : ℕ} (hn : n < 8)
    (inb : ∀ a : Fin 2, off a + (![512, d1] : Fin 2 → ℕ) a ≤ (![4096, d1] : Fin 2 → ℕ) a)
    (P : (⟨2, ![512, d1]⟩ : Shape).Idx → Elt F e) (hoff : off = ![512 * n, 0])
    (hT : ∀ j : (⟨2, ![4096, d1]⟩ : Shape).Idx, slabOf (j 0) = ⟨n, hn⟩ → T j = P (ix2 (rowIn (j 0)) (j 1)))
    (hI : ∀ j : (⟨2, ![4096, d1]⟩ : Shape).Idx, (j 0).val < 512 * n → f j = T j)
    (j : (⟨2, ![4096, d1]⟩ : Shape).Idx) (hj : (j 0).val < 512 * (n + 1)) :
    m.view.read (Elt F) (m.view.writes (Elt F) (hm.unread f)
        [(⟨Rect.unit (s := (⟨2, ![4096, d1]⟩ : Shape)) off (![512, d1] : Fin 2 → ℕ) inb, P⟩ : View.Piece (Elt F) _ e)]) j = T j := by
  rw [read_store_slab m hm f inb P hoff j]
  by_cases h : 512 * n ≤ (j 0).val ∧ (j 0).val < 512 * n + 512
  · rw [dif_pos h, hT j (slabOf_eq hn h)]
    refine congrArg P ?_
    funext a
    match a with
    | ⟨0, _⟩ => exact Fin.ext (rowIn_val h).symm
    | ⟨1, _⟩ => rfl
  · rw [dif_neg h]
    exact hI j (by omega)

/-- and every other row is as it was. -/
theorem slab_keep {d1 : ℕ} {e : EltTy} (m : Memref sig .tc .vmem (⟨2, ![4096, d1]⟩ : Shape) e) (hm : m.IsWhole)
    (f : (⟨2, ![4096, d1]⟩ : Shape).Idx → Elt F e) {off : Fin 2 → ℕ} {n : ℕ}
    (inb : ∀ a : Fin 2, off a + (![512, d1] : Fin 2 → ℕ) a ≤ (![4096, d1] : Fin 2 → ℕ) a)
    (P : (⟨2, ![512, d1]⟩ : Shape).Idx → Elt F e) (hoff : off = ![512 * n, 0])
    (j : (⟨2, ![4096, d1]⟩ : Shape).Idx) (hj : ¬ (512 * n ≤ (j 0).val ∧ (j 0).val < 512 * n + 512)) :
    m.view.read (Elt F) (m.view.writes (Elt F) (hm.unread f)
        [(⟨Rect.unit (s := (⟨2, ![4096, d1]⟩ : Shape)) off (![512, d1] : Fin 2 → ℕ) inb, P⟩ : View.Piece (Elt F) _ e)]) j = f j := by
  rw [read_store_slab m hm f inb P hoff j, dif_neg hj]

/-- WHICH ROWS ARE KNOWN after `n` of the 32 grid points: the first scratch holds the rounded `G` on the slabs phase 0
    has done; the second holds `S1` on those slabs until phase 2 starts overwriting it, then `S3` on the slabs phase 2
    has done; the third holds `S2` on the slabs phase 1 has done. -/
def Inv (o : Ops F) (n : ℕ) (f0 : Vec F S4096x4096 .bf16) (f1 f2 : Vec F S4096x256 .bf16) : Prop :=
  (∀ j : S4096x4096.Idx, (j 0).val < 512 * min n 8 → f0 j = o.gb j)
  ∧ (n ≤ 16 → ∀ j : S4096x256.Idx, (j 0).val < 512 * min n 8 → f1 j = o.s1 j)
  ∧ (8 ≤ n → ∀ j : S4096x256.Idx, (j 0).val < 512 * min (n - 8) 8 → f2 j = o.s2 j)
  ∧ (16 ≤ n → ∀ j : S4096x256.Idx, (j 0).val < 512 * min (n - 16) 8 → f1 j = o.s3 j)

theorem Inv_zero (o : Ops F) (f0 : Vec F S4096x4096 .bf16) (f1 f2 : Vec F S4096x256 .bf16) : Inv o 0 f0 f1 f2 :=
  ⟨fun j h => absurd h (by show ¬ (j 0).val < 512 * min 0 8; omega), fun _ j h => absurd h (by show ¬ (j 0).val < 512 * min 0 8; omega),
    fun h => absurd h (by omega), fun h => absurd h (by omega)⟩

/-- Once a phase is over its buffer is the whole array. -/
theorem Inv.gb_all {o : Ops F} {n : ℕ} {f0 : Vec F S4096x4096 .bf16} {f1 f2 : Vec F S4096x256 .bf16} (h : Inv o n f0 f1 f2)
    (hn : 8 ≤ n) : f0 = o.gb :=
  funext fun j => h.1 j (by have hj : (j 0).val < 4096 := idx2_lt0 j; show (j 0).val < 512 * min n 8; omega)
theorem Inv.s1_all {o : Ops F} {n : ℕ} {f0 : Vec F S4096x4096 .bf16} {f1 f2 : Vec F S4096x256 .bf16} (h : Inv o n f0 f1 f2)
    (hn : 8 ≤ n) (hn' : n ≤ 16) : f1 = o.s1 :=
  funext fun j => h.2.1 hn' j (by have hj : (j 0).val < 4096 := idx2_lt0 j; show (j 0).val < 512 * min n 8; omega)
theorem Inv.s2_all {o : Ops F} {n : ℕ} {f0 : Vec F S4096x4096 .bf16} {f1 f2 : Vec F S4096x256 .bf16} (h : Inv o n f0 f1 f2)
    (hn : 16 ≤ n) : f2 = o.s2 :=
  funext fun j => h.2.2.1 (by omega) j (by have hj : (j 0).val < 4096 := idx2_lt0 j; show (j 0).val < 512 * min (n - 8) 8; omega)
theorem Inv.s3_all {o : Ops F} {n : ℕ} {f0 : Vec F S4096x4096 .bf16} {f1 f2 : Vec F S4096x256 .bf16} (h : Inv o n f0 f1 f2)
    (hn : 24 ≤ n) : f1 = o.s3 :=
  funext fun j => h.2.2.2 (by omega) j (by have hj : (j 0).val < 4096 := idx2_lt0 j; show (j 0).val < 512 * min (n - 16) 8; omega)

/-! ## The invariant, one grid point on -/

section Steps

variable {o : Ops F} {n : ℕ} {f0 : Vec F S4096x4096 .bf16} {f1 f2 : Vec F S4096x256 .bf16}

/-- A point of phase 0 stores slab `n` of the rounded `G` and slab `n` of `S1`. -/
theorem Inv.step0 (h : Inv o n f0 f1 f2) (hn : n < 8)
    (m0 : Memref sig .tc .vmem S4096x4096 .bf16) (hm0 : m0.IsWhole) (m1 : Memref sig .tc .vmem S4096x256 .bf16) (hm1 : m1.IsWhole)
    {off0 off1 : Fin 2 → ℕ} (inb0 : ∀ a : Fin 2, off0 a + S512x4096.size a ≤ S4096x4096.size a)
    (inb1 : ∀ a : Fin 2, off1 a + S512x256.size a ≤ S4096x256.size a)
    (hoff0 : off0 = ![512 * n, 0]) (hoff1 : off1 = ![512 * n, 0])
    (x0 : Vec F S512x4096 .f32) (hx0 : x0 = View.ld o.G (slabG ⟨n, hn⟩))
    (x1 : Vec F S512x512 .f32) (hx1 : x1 = View.ld o.H (slabH ⟨n, hn⟩)) (x2 : Vec F S512x256 .bf16) (hx2 : x2 = o.W1) :
    Inv o (n + 1)
      (m0.view.read (Elt F) (m0.view.writes (Elt F) (hm0.unread f0) [⟨Rect.unit (s := S4096x4096) off0 S512x4096.size inb0, k0_pay1 x0⟩]))
      (m1.view.read (Elt F) (m1.view.writes (Elt F) (hm1.unread f1) [⟨Rect.unit (s := S4096x256) off1 S512x256.size inb1, k0_pay2 x1 x2⟩]))
      f2 := by
  subst hx0 hx1 hx2
  have e1 : min (n + 1) 8 = n + 1 := by omega
  have e2 : min (n + 1 - 8) 8 = 0 := by omega
  have e3 : min n 8 = n := by omega
  refine ⟨fun j hj => ?_, fun _ j hj => ?_, fun h8 j hj => ?_, fun h16 => absurd h16 (by omega)⟩
  · rw [e1] at hj
    exact slab_step m0 hm0 f0 o.gb hn inb0 _ hoff0 (fun j hs => by unfold Ops.gb K0.gb; rw [hs])
      (fun j hj' => h.1 j (by rw [e3]; exact hj')) j hj
  · rw [e1] at hj
    exact slab_step m1 hm1 f1 o.s1 hn inb1 _ hoff1 (fun j hs => by unfold Ops.s1 K0.s1; rw [hs])
      (fun j hj' => h.2.1 (by omega) j (by rw [e3]; exact hj')) j hj
  · rw [e2] at hj; omega

/-- A point of phase 1 (the `n - 8`-th) stores that slab of `S2` into the third scratch. -/
theorem Inv.step1 (h : Inv o n f0 f1 f2) (hn : 8 ≤ n) (hn' : n < 16)
    (m2 : Memref sig .tc .vmem S4096x256 .bf16) (hm2 : m2.IsWhole)
    {off3 off4 : Fin 2 → ℕ} (inb3 : ∀ a : Fin 2, off3 a + S512x4096.size a ≤ S4096x4096.size a)
    (inb4 : ∀ a : Fin 2, off4 a + S512x256.size a ≤ S4096x256.size a)
    (hoff3 : off3 = ![512 * (n - 8), 0]) (hoff4 : off4 = ![512 * (n - 8), 0])
    (x3 : Vec F S1x256 .f32) (hx3 : x3 = o.b1) (x4 : Vec F S256x256 .bf16) (hx4 : x4 = o.W2) :
    Inv o (n + 1) f0 f1
      (m2.view.read (Elt F) (m2.view.writes (Elt F) (hm2.unread f2)
        [⟨Rect.unit (s := S4096x256) off4 S512x256.size inb4,
          k0_pay3 (View.ld f0 (Rect.unit (s := S4096x4096) off3 S512x4096.size inb3)) f1 x3 x4⟩])) := by
  subst hx3 hx4 hoff3
  have e0 : f0 = o.gb := h.gb_all hn
  have e1 : f1 = o.s1 := h.s1_all hn (by omega)
  have hb : n - 8 < 8 := by omega
  have m1 : min (n + 1) 8 = min n 8 := by omega
  have m2' : min (n + 1 - 8) 8 = n - 8 + 1 := by omega
  have m3 : min (n + 1 - 16) 8 = 0 := by omega
  have m4 : min (n - 8) 8 = n - 8 := by omega
  refine ⟨fun j hj => h.1 j (by rw [← m1]; exact hj), fun h16 j hj => h.2.1 (by omega) j (by rw [← m1]; exact hj),
    fun _ j hj => ?_, fun h16 j hj => ?_⟩
  · rw [m2'] at hj
    exact slab_step m2 hm2 f2 o.s2 hb inb4 _ hoff4 (fun j hs => by unfold Ops.s2 K0.s2; rw [hs, e0, e1])
      (fun j hj' => h.2.2.1 hn j (by rw [m4]; exact hj')) j hj
  · rw [m3] at hj; omega

/-- A point of phase 2 (the `n - 16`-th) stores that slab of `S3` over the slab of `S1` in the second scratch. -/
theorem Inv.step2 (h : Inv o n f0 f1 f2) (hn : 16 ≤ n) (hn' : n < 24)
    (m1 : Memref sig .tc .vmem S4096x256 .bf16) (hm1 : m1.IsWhole)
    {off5 off6 : Fin 2 → ℕ} (inb5 : ∀ a : Fin 2, off5 a + S512x4096.size a ≤ S4096x4096.size a)
    (inb6 : ∀ a : Fin 2, off6 a + S512x256.size a ≤ S4096x256.size a)
    (hoff5 : off5 = ![512 * (n - 16), 0]) (hoff6 : off6 = ![512 * (n - 16), 0])
    (x5 : Vec F S1x256 .f32) (hx5 : x5 = o.b2) (x6 : Vec F S256x256 .bf16) (hx6 : x6 = o.W3) :
    Inv o (n + 1) f0
      (m1.view.read (Elt F) (m1.view.writes (Elt F) (hm1.unread f1)
        [⟨Rect.unit (s := S4096x256) off6 S512x256.size inb6,
          k0_pay4 (View.ld f0 (Rect.unit (s := S4096x4096) off5 S512x4096.size inb5)) f2 x5 x6⟩]))
      f2 := by
  subst hx5 hx6 hoff5
  have e0 : f0 = o.gb := h.gb_all (by omega)
  have e2 : f2 = o.s2 := h.s2_all hn
  have hb : n - 16 < 8 := by omega
  have k1 : min (n + 1) 8 = min n 8 := by omega
  have k2 : min (n + 1 - 8) 8 = min (n - 8) 8 := by omega
  have k3 : min (n + 1 - 16) 8 = n - 16 + 1 := by omega
  have k4 : min (n - 16) 8 = n - 16 := by omega
  refine ⟨fun j hj => h.1 j (by rw [← k1]; exact hj), fun h16 => absurd h16 (by omega),
    fun _ j hj => h.2.2.1 (by omega) j (by rw [← k2]; exact hj), fun _ j hj => ?_⟩
  rw [k3] at hj
  exact slab_step m1 hm1 f1 o.s3 hb inb6 _ hoff6 (fun j hs => by unfold Ops.s3 K0.s3; rw [hs, e0, e2])
    (fun j hj' => h.2.2.2 hn j (by rw [k4]; exact hj')) j hj

/-- A point of phase 3 stores into no scratch. -/
theorem Inv.step3 (h : Inv o n f0 f1 f2) (hn : 24 ≤ n) : Inv o (n + 1) f0 f1 f2 := by
  have k1 : min (n + 1) 8 = min n 8 := by omega
  have k2 : min (n + 1 - 8) 8 = min (n - 8) 8 := by omega
  have k3 : min (n + 1 - 16) 8 = min (n - 16) 8 := by omega
  exact ⟨fun j hj => h.1 j (by rw [← k1]; exact hj), fun h16 => absurd h16 (by omega),
    fun _ j hj => h.2.2.1 (by omega) j (by rw [← k2]; exact hj),
    fun _ j hj => h.2.2.2 (by omega) j (by rw [← k3]; exact hj)⟩

/-- What a point of phase 3 (the `n - 24`-th) stores over the output block: that slab of the last activation. -/
theorem Inv.out3 (h : Inv o n f0 f1 f2) (hn : 24 ≤ n) (hn' : n < 32)
    {off7 : Fin 2 → ℕ} (inb7 : ∀ a : Fin 2, off7 a + S512x4096.size a ≤ S4096x4096.size a)
    (hoff7 : off7 = ![512 * (n - 24), 0]) (x7 : Vec F S1x256 .f32) (hx7 : x7 = o.b3) :
    k0_pay5 (View.ld f0 (Rect.unit (s := S4096x4096) off7 S512x4096.size inb7)) f1 x7
      = outSlab o.gb o.s3 o.b3 ⟨n - 24, by omega⟩ := by
  subst hx7 hoff7
  rw [h.gb_all (by omega), h.s3_all hn]
  rfl

end Steps

end Cert.Kernel.Hand

end
-- ==== Proof.K.Reg0Dat.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«133194_g38319698214914_cont_sun_m_1384_4_alg».proof.Proof.K.Reg0Grid
import proofs.«133194_g38319698214914_cont_sun_m_1384_4_alg».proof.Proof.K.Reg0Pieces
import proofs.«133194_g38319698214914_cont_sun_m_1384_4_alg».proof.Proof.K.Reg0Step

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.K0

/-!
The first pallas_call as a pipeline with a carried state. Between grid points the three scratch buffers hold contents
`f0 f1 f2` of which `Inv` says which rows are already rows of the rounded `G`, of `S1`, `S2`, `S3`; each input window's
staging buffer holds its block; the output window is idle through the first three phases and holds slab `t - 24` of the
last activation after point `t` of the fourth.
-/

variable (V : (c : Dev nD) → (b : Ref sig .tc) → Buf (Elt F) ((c : Thread nD τ).loc b))

/-- The kernel's eight operands as the region finds them: `G`, `H`, the rounded weights, the bias rows. -/
def opsOf (c : Dev nD) : Ops F :=
  ⟨V c main_arg1, V c main_arg0, V c main_v0, V c main_v4, V c main_v1, V c main_v5, V c main_v2, V c main_v6⟩

/-- The three scratch buffers, whole. -/
abbrev scM0 : Memref sig .tc .vmem S4096x4096 .bf16 := Memref.whole cc0_scratch0
abbrev scM1 : Memref sig .tc .vmem S4096x256 .bf16 := Memref.whole cc0_scratch1
abbrev scM2 : Memref sig .tc .vmem S4096x256 .bf16 := Memref.whole cc0_scratch2

/-- What else the region lends the body and the body never touches: the second call's staging buffers, at anything. -/
def Six (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- THE STATE BETWEEN POINTS, after `n` of them: the scratch buffers at some contents satisfying `Inv … n`, the untouched
    rest, the generator register at some state. -/
def Phi0 (c : Dev nD) (n : ℕ) : sProp 𝕄 :=
  iprop(∃ f0 : Vec F S4096x4096 .bf16, ∃ f1 : Vec F S4096x256 .bf16, ∃ f2 : Vec F S4096x256 .bf16,
    owns (c : Thread nD τ) scM0 fullShare f0 ∗ owns (c : Thread nD τ) scM1 fullShare f1 ∗ owns (c : Thread nD τ) scM2 fullShare f2
      ∗ Six c ∗ (∃ r, prngReg c r) ∗ ⌜Inv (opsOf V c) n f0 f1 f2⌝)

/-- A buffer holding raw contents `g` is owned at what `g` reads. -/
theorem owns_of_raw (c : Dev nD) {sp : Space} {sh : Shape} {e : EltTy} (m : Memref sig .tc sp sh e) (g : m.view.ty.Contents (Elt F)) :
    (m.view.loc (c : Thread nD τ) ↦[m.view.set]{fullShare} g : sProp 𝕄) ⊢ owns (c : Thread nD τ) m fullShare (m.view.read (Elt F) g) := by
  unfold owns
  iintro H
  iexists g
  isplitr; · ipureintro; rfl
  iexact H

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outSlab (opsOf V c).gb (opsOf V c).s3 (opsOf V c).b3 (slabAt t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = outSlab (opsOf V c).gb (opsOf V c).s3 (opsOf V c).b3 (slabAt t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (st0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (st0_5 t) fullShare (iblk0 V c 5 t) := by
  unfold Dat.leavesExact; rw [liveAt0_5 t, after0_5]
theorem leaves0_6 (c : Dev nD) (t : Fin cfg0.N) :
    (dat0 V c).leavesExact 6 t = owns (c : Thread nD τ) (st0_6 t) fullShare (iblk0 V c 6 t) := by
  unfold Dat.leavesExact; rw [liveAt0_6 t, after0_6]
theorem leaves0_7 (c : Dev nD) (t : Fin cfg0.N) :
    (dat0 V c).leavesExact 7 t = owns (c : Thread nD τ) (st0_7 t) fullShare (iblk0 V c 7 t) := by
  unfold Dat.leavesExact; rw [liveAt0_7 t, after0_7]
theorem leaves0_8 (c : Dev nD) (t : Fin cfg0.N) (h : 24 ≤ t.val) :
    (dat0 V c).leavesExact 8 t = owns (c : Thread nD τ) (st0_8 t) fullShare (outSlab (opsOf V c).gb (opsOf V c).s3 (opsOf V c).b3 (slabAt t)) := by
  unfold Dat.leavesExact; rw [liveAt0_8 t h, after0_8]

theorem Phi_castSucc (c : Dev nD) (t : Fin cfg0.N) : (dat0 V c).Φ t.castSucc = Phi0 V c t.val := by
  dsimp only [dat0]; simp only [Fin.coe_castSucc]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

end Cert.Kernel.Hand

end
-- ==== Proof.K.Reg0Body.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«133194_g38319698214914_cont_sun_m_1384_4_alg».proof.Proof.K.Reg0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.K0

variable (V : (c : Dev nD) → (b : Ref sig .tc) → Buf (Elt F) ((c : Thread nD τ).loc b))

/-- One store over a whole block covers it. -/
theorem cover9 (p : Vec F S512x256 .bf16) (y : S512x256.Idx) :
    ∃ pc ∈ ([⟨Rect.unit (s := S512x256) ![0, 0] S512x256.size inb_S512x256_S512x256_0_0, p⟩] : List (View.Piece (Elt F) S512x256 .bf16)), y ∈ pc.1.set :=
  View.cover_of_tiled [⟨Rect.unit (s := S512x256) ![0, 0] S512x256.size inb_S512x256_S512x256_0_0, p⟩] S512x256.size (by rfl) y

set_option maxHeartbeats 8000000 in
/-- THE BODY AT ANY POINT. Which phase the point is in is decided by its number; the phase's run applies to the staging
    buffers at their blocks and the scratch buffers at the contents the state names; the state after the point is the
    same buffers with the run's one store, and `Inv` moves on by the matching step. In the fourth phase the store covers
    the output block, which then holds the slab of the last activation. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = Phi0 V c (t.val + 1) from rfl, Phi_castSucc]
  rw [leaves0_0, leaves0_1, leaves0_2, leaves0_3, leaves0_4, leaves0_5, leaves0_6, leaves0_7]
  have hN : t.val < 32 := lt_of_lt_of_eq t.isLt (show cfg0.N = 32 from N_0)
  have hc1 : (k0_cond1 (grid0.coords t) = 1#1) ↔ t.val < 8 := hcond1 t
  have hc2 : (k0_cond2 (grid0.coords t) = 1#1) ↔ 8 ≤ t.val ∧ t.val < 16 := hcond2 t
  have hc3 : (k0_cond3 (grid0.coords t) = 1#1) ↔ 16 ≤ t.val ∧ t.val < 24 := hcond3 t
  have hc4 : (k0_cond4 (grid0.coords t) = 1#1) ↔ 24 ≤ t.val := hcond4 t
  by_cases h8 : t.val < 8
  · -- phase 0
    have c1 : k0_cond1 (grid0.coords t) = 1#1 := hc1.mpr h8
    have c2 : ¬ k0_cond2 (grid0.coords t) = 1#1 := fun h => by have := hc2.mp h; omega
    have c3 : ¬ k0_cond3 (grid0.coords t) = 1#1 := fun h => by have := hc3.mp h; omega
    have c4 : ¬ k0_cond4 (grid0.coords t) = 1#1 := fun h => by have := hc4.mp h; omega
    rw [Dat.leavesExact_idle (dat0 V c) 8 t (idleAt0_8 t (by omega)) (noFlush0_8 t (by omega))]
    unfold Phi0
    iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hx0 : iblk0 V c 0 t = View.ld (opsOf V c).G (slabG ⟨t.val, h8⟩) := blk0_0 V c t h8
    have hx1 : iblk0 V c 1 t = View.ld (opsOf V c).H (slabH ⟨t.val, h8⟩) := blk0_1 V c t h8
    have hx2 : iblk0 V c 2 t = (opsOf V c).W1 := blk0_2 V c t
    have hs := hI.step0 h8 scM0 (Memref.isWhole_whole _) scM1 (Memref.isWhole_whole _) (k0_off1_inb (grid0.coords t) c1) (k0_off2_inb (grid0.coords t) c1) (off1 t h8) (off2 t h8) (iblk0 V c 0 t) hx0 (iblk0 V c 1 t) hx1 (iblk0 V c 2 t) hx2
    have e0 := runP0_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1
    have e1 := runP0_snd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1
    generalize runP0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1 = R at e0 e1
    obtain ⟨L0, L1, hrun⟩ := R
    dsimp only at e0 e1
    subst e0 e1
    iapply (hrun Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HS2 HR Hg]
    · iexists _; iexists _; iexists f2
      isplitl [HS0]
      · unfold owns; iexists _; isplitr
        swap; · iexact HS0
        ipureintro; rfl
      isplitl [HS1]
      · unfold owns; iexists _; isplitr
        swap; · iexact HS1
        ipureintro; rfl
      isplitl [HS2]; · iexact HS2
      isplitl [HR]; · iexact HR
      isplitl [Hg]; · iexact Hg
      ipureintro
      exact hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h16 : t.val < 16
    · -- phase 1
      have h8' : 8 ≤ t.val := by omega
      have c1 : ¬ k0_cond1 (grid0.coords t) = 1#1 := fun h => by have := hc1.mp h; omega
      have c2 : k0_cond2 (grid0.coords t) = 1#1 := hc2.mpr ⟨h8', h16⟩
      have c3 : ¬ k0_cond3 (grid0.coords t) = 1#1 := fun h => by have := hc3.mp h; omega
      have c4 : ¬ k0_cond4 (grid0.coords t) = 1#1 := fun h => by have := hc4.mp h; omega
      rw [Dat.leavesExact_idle (dat0 V c) 8 t (idleAt0_8 t (by omega)) (noFlush0_8 t (by omega))]
      unfold Phi0
      iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hx3 : iblk0 V c 3 t = (opsOf V c).b1 := blk0_3 V c t
      have hx4 : iblk0 V c 4 t = (opsOf V c).W2 := blk0_4 V c t
      have hs := hI.step1 h8' h16 scM2 (Memref.isWhole_whole _) (k0_off3_inb (grid0.coords t) c2) (k0_off4_inb (grid0.coords t) c2) (off3 t h8' h16) (off4 t h8' h16) (iblk0 V c 3 t) hx3 (iblk0 V c 4 t) hx4
      have e0 := runP1_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 3 t) (iblk0 V c 4 t) f0 f1 f2
      generalize runP1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 3 t) (iblk0 V c 4 t) f0 f1 f2 = R at e0
      obtain ⟨L2, hrun⟩ := R
      dsimp only at e0
      subst e0
      iapply (hrun Set.univ _)
      isplitl [H3]; · iexact H3
      isplitl [H4]; · iexact H4
      isplitl [HS0]; · iexact HS0
      isplitl [HS1]; · iexact HS1
      isplitl [HS2]; · iexact HS2
      iintro ⟨H3, H4, HS0, HS1, HS2⟩
      isplitl [HS0 HS1 HS2 HR Hg]
      · iexists f0; iexists f1; iexists _
        isplitl [HS0]; · iexact HS0
        isplitl [HS1]; · iexact HS1
        isplitl [HS2]
        · unfold owns; iexists _; isplitr
          swap; · iexact HS2
          ipureintro; rfl
        isplitl [HR]; · iexact HR
        isplitl [Hg]; · iexact Hg
        ipureintro
        exact hs
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · by_cases h24 : t.val < 24
      · -- phase 2
        have h16' : 16 ≤ t.val := by omega
        have c1 : ¬ k0_cond1 (grid0.coords t) = 1#1 := fun h => by have := hc1.mp h; omega
        have c2 : ¬ k0_cond2 (grid0.coords t) = 1#1 := fun h => by have := hc2.mp h; omega
        have c3 : k0_cond3 (grid0.coords t) = 1#1 := hc3.mpr ⟨h16', h24⟩
        have c4 : ¬ k0_cond4 (grid0.coords t) = 1#1 := fun h => by have := hc4.mp h; omega
        rw [Dat.leavesExact_idle (dat0 V c) 8 t (idleAt0_8 t (by omega)) (noFlush0_8 t (by omega))]
        unfold Phi0
        iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have hx5 : iblk0 V c 5 t = (opsOf V c).b2 := blk0_5 V c t
        have hx6 : iblk0 V c 6 t = (opsOf V c).W3 := blk0_6 V c t
        have hs := hI.step2 h16' h24 scM1 (Memref.isWhole_whole _) (k0_off5_inb (grid0.coords t) c3) (k0_off6_inb (grid0.coords t) c3) (off5 t h16' h24) (off6 t h16' h24) (iblk0 V c 5 t) hx5 (iblk0 V c 6 t) hx6
        have e0 := runP2_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 5 t) (iblk0 V c 6 t) f0 f1 f2
        generalize runP2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 5 t) (iblk0 V c 6 t) f0 f1 f2 = R at e0
        obtain ⟨L1, hrun⟩ := R
        dsimp only at e0
        subst e0
        iapply (hrun Set.univ _)
        isplitl [H5]; · iexact H5
        isplitl [H6]; · iexact H6
        isplitl [HS0]; · iexact HS0
        isplitl [HS1]; · iexact HS1
        isplitl [HS2]; · iexact HS2
        iintro ⟨H5, H6, HS0, HS2, HS1⟩
        isplitl [HS0 HS1 HS2 HR Hg]
        · iexists f0; iexists _; iexists f2
          isplitl [HS0]; · iexact HS0
          isplitl [HS1]
          · unfold owns; iexists _; isplitr
            swap; · iexact HS1
            ipureintro; rfl
          isplitl [HS2]; · iexact HS2
          isplitl [HR]; · iexact HR
          isplitl [Hg]; · iexact Hg
          ipureintro
          exact hs
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- phase 3
        have h24' : 24 ≤ t.val := by omega
        have c1 : ¬ k0_cond1 (grid0.coords t) = 1#1 := fun h => by have := hc1.mp h; omega
        have c2 : ¬ k0_cond2 (grid0.coords t) = 1#1 := fun h => by have := hc2.mp h; omega
        have c3 : ¬ k0_cond3 (grid0.coords t) = 1#1 := fun h => by have := hc3.mp h; omega
        have c4 : k0_cond4 (grid0.coords t) = 1#1 := hc4.mpr h24'
        rw [leaves0_8 V c t h24']
        unfold Phi0
        iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have hx7 : iblk0 V c 7 t = (opsOf V c).b3 := blk0_7 V c t
        have ho := hI.out3 h24' hN (k0_off7_inb (grid0.coords t) c4) (off7 t h24') (iblk0 V c 7 t) hx7
        have hsl : (⟨t.val - 24, by omega⟩ : Fin 8) = slabAt t := Fin.ext (by show t.val - 24 = t.val % 8; omega)
        rw [hsl] at ho
        have e0 := runP3_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 7 t) ((dat0 V c).before 8 t d8) f0 f1
        generalize runP3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 7 t) ((dat0 V c).before 8 t d8) f0 f1 = R at e0
        obtain ⟨L9, hrun⟩ := R
        dsimp only at e0
        subst e0
        iapply (hrun Set.univ _)
        isplitl [H7]; · iexact H7
        isplitl [H8]; · iexact H8
        isplitl [HS0]; · iexact HS0
        isplitl [HS1]; · iexact HS1
        iintro ⟨H7, HS0, HS1, H9⟩
        isplitl [HS0 HS1 HS2 HR Hg]
        · iexists f0; iexists f1; iexists f2
          isplitl [HS0]; · iexact HS0
          isplitl [HS1]; · iexact HS1
          isplitl [HS2]; · iexact HS2
          isplitl [HR]; · iexact HR
          isplitl [Hg]; · iexact Hg
          ipureintro
          exact hI.step3 h24'
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns
        iexists _; isplitr
        swap; · iexact H9
        ipureintro
        rw [View.read_writes_eq_canon _ _ _ (cover9 _), View.canon_unit_zero hz2]
        exact ho

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg0Flush.lean ====
import proofs.«133194_g38319698214914_cont_sun_m_1384_4_alg».proof.Proof.K.Reg0Grid
import proofs.«133194_g38319698214914_cont_sun_m_1384_4_alg».proof.Proof.K.K0Fun
import Idealize.ShloMosaic.Lib.Pipeline.Value
import Idealize.ShloMosaic.Lib.ValueIdx

/-!
What the first kernel leaves in its output array. The eight points of the last phase write back blocks `0 … 7` of 512
rows, which together are all 4096 rows; point `24 + b` writes slab `b` of the last propagation step, so the array ends
holding that step's whole result.
-/

set_option maxRecDepth 16384

noncomputable section

namespace Cert.Kernel.Hand

open Cert.Kernel Cert.Kernel.Gen
open Idealize.ShloMosaic Idealize.ShloMosaic.TcCoe Idealize.ShloMosaic.ValueIdx Idealize.SL.Sem
open Idealize.ShloMosaic.Pipeline (Dat)

variable {F : FTy → Type} [FloatOps F]

/-- A point that writes the output back lies in the last phase. -/
theorem last_of_flush0_8 (t : Fin cfg0.N) (hf : (cfg0.win 8).flush t = true) : 24 ≤ t.val := by
  by_contra hlt
  have h := noFlush0_8 t (by omega)
  rw [h] at hf
  exact Bool.noConfusion hf

/-- An index of the output array is in point `t`'s block iff each coordinate is in the block's range on its axis. -/
theorem mem_blk0_8 (t : Fin cfg0.N) (i : S4096x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v7).slice (win0_8.rect t)).set ↔ _
  rw [View.set_slice_whole, Rect.mem_set_unit]
  exact Iff.rfl

/-- Every row of the output array is in the block of a point of the last phase: row `r` in that of point `24 + r / 512`. -/
theorem cover0_8 (i : S4096x256.Idx) : ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 32 := N_0
  let t : Fin cfg0.N := ⟨24 + (i 0).val / 512, by rw [hN]; omega⟩
  have ht : t.val = 24 + (i 0).val / 512 := rfl
  obtain ⟨e0, e1⟩ := idx0_8 t
  refine ⟨t, flush0_8 t (by omega), ?_⟩
  rw [mem_blk0_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

section Flush
variable {c : Dev nD} (dat : Dat τ (Elt F) Unit ℕ (UR sig nD τ) ℕ cfg0 c)
  (Gb : Vec F S4096x4096 .bf16) (S : Vec F S4096x256 .bf16) (b3 : Vec F S1x256 .f32)

/-- What a point of the last phase writes back is its block of the whole last step. -/
theorem flushed0_8_eq (hafter : ∀ t : Fin cfg0.N, 24 ≤ t.val → dat.after 8 t = K0.outSlab Gb S b3 (K0.slabAt t))
    (t : Fin cfg0.N) (hf : (cfg0.win 8).flush t = true) :
    dat.flushed 8 t = ((cfg0.win 8).blk t).view.read (Elt F) (K0.h3 Gb S b3) := by
  have h24 : 24 ≤ t.val := last_of_flush0_8 t hf
  have hN : cfg0.N = 32 := N_0
  have htlt : t.val < 32 := hN ▸ t.isLt
  show (cfg0.win 8).cut (grid0.coords t) (dat.after 8 t) = _
  rw [hafter t h24]
  funext y
  show K0.outSlab Gb S b3 (K0.slabAt t) y = K0.h3 Gb S b3 (((cfg0.win 8).blk t).view.emb y)
  obtain ⟨e0, e1⟩ := idx0_8 t
  have hy0 : (y 0).val < 512 := (y 0).isLt
  have hy1 : (y 1).val < 256 := (y 1).isLt
  have c0 : ((((cfg0.win 8).blk t).view.emb y) 0).val = win0_8.index t (0 : Fin 2) * 512 + 1 * (y 0).val := rfl
  have c1 : ((((cfg0.win 8).blk t).view.emb y) 1).val = win0_8.index t (1 : Fin 2) * 256 + 1 * (y 1).val := rfl
  have hs : K0.slabOf ((((cfg0.win 8).blk t).view.emb y) 0) = K0.slabAt t := by
    apply Fin.ext; show ((((cfg0.win 8).blk t).view.emb y) 0).val / 512 = t.val % 8; omega
  have hr : K0.rowIn ((((cfg0.win 8).blk t).view.emb y) 0) = y 0 := by
    apply Fin.ext; show ((((cfg0.win 8).blk t).view.emb y) 0).val % 512 = (y 0).val; omega
  have hc : (((cfg0.win 8).blk t).view.emb y) 1 = y 1 := by
    apply Fin.ext; rw [c1]; omega
  unfold K0.h3
  rw [hs, hr, hc]
  exact congrArg _ (eq_ix2 y)

/-- The output array after the first kernel: the whole last step. -/
theorem arrAt0_8 (hafter : ∀ t : Fin cfg0.N, 24 ≤ t.val → dat.after 8 t = K0.outSlab Gb S b3 (K0.slabAt t)) :
    dat.arrAt 8 cfg0.N = K0.h3 Gb S b3 :=
  dat.arrAt_eq_of_cover 8 (K0.h3 Gb S b3) (fun t hf => flushed0_8_eq dat Gb S b3 hafter t hf) cover0_8

end Flush

end Cert.Kernel.Hand

end
-- ==== Proof.K.Reg1.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import proofs.«133194_g38319698214914_cont_sun_m_1384_4_alg».proof.Proof.K.K0Fun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
The second kernel (the decoder `(HR · tW) · HDᵀ` over four blocks of 512 rows) as a region entered at arbitrary
contents `V` of the core's buffers. At each grid point the body reads the three input windows whole and overwrites the
output window with the one payload of the three; so after the body every input window holds its block and the output
window the payload of the input blocks. The proof data say exactly that, and the body obligation follows from the body's
triple.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's buffer, whole -/

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S2048x256 := Rect.unit (s := S2048x256) ![0, 0] S2048x256.size inb_S2048x256_S2048x256_0_0
abbrev r1_3 : Rect S512x2048 := Rect.unit (s := S512x2048) ![0, 0] S512x2048.size inb_S512x2048_S512x2048_0_0

/-! ## What the body leaves in the output window's buffer -/

/-- The output window's staging buffer after the body, from the input windows' blocks: its one store. -/
def out1_3 (x0 : Vec F S512x256 .bf16) (x1 : Vec F S256x256 .bf16) (x2 : Vec F S2048x256 .bf16) : Vec F S512x2048 .f32 :=
  View.canon [⟨r1_3, k1_pay1 (View.ld x0 r1_0) (View.ld x1 r1_1) (View.ld x2 r1_2)⟩]

/-- The one store is of the whole buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-- A whole-buffer load is the buffer and a whole-buffer store leaves its value: the output is the payload of the inputs. -/
theorem out1_3_eq (x0 : Vec F S512x256 .bf16) (x1 : Vec F S256x256 .bf16) (x2 : Vec F S2048x256 .bf16) :
    out1_3 x0 x1 x2 = k1_pay1 x0 x1 x2 := by
  unfold out1_3
  rw [View.canon_unit_zero K0.hz2, View.ld_unit_zero K0.hz2, View.ld_unit_zero K0.hz2, View.ld_unit_zero K0.hz2]

/-! ## The body's triple -/

set_option maxHeartbeats 4000000 in
/-- The kernel body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S512x256 .bf16) (harg1 : arg1.IsWhole) (arg2 : Memref sig .tc .vmem S256x256 .bf16) (harg2 : arg2.IsWhole) (arg3 : Memref sig .tc .vmem S2048x256 .bf16) (harg3 : arg3.IsWhole) (arg4 : Memref sig .tc .vmem S512x2048 .f32) (harg4 : arg4.IsWhole)
    (x0 : Vec F S512x256 .bf16) (x1 : Vec F S256x256 .bf16) (x2 : Vec F S2048x256 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__decoder_kernel i arg1 harg1 arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point `t`
    each input's buffer at its block and the output's at `out1_3` of the input blocks; the class's invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.K1Fun.lean ====
import proofs.«133194_g38319698214914_cont_sun_m_1384_4_alg».proof.Proof.Gen.Kernel.Skeleton
import Idealize.ShloMosaic.Lib.Pipeline.FrameBody
import Idealize.ShloMosaic.Lib.ValueIdx

/-!
The second kernel, read as mathematics: four grid points, each taking a slab of 512 rows of `R` with the whole of `T`
and `D` to the matching slab of `(R·T)·Dᵀ`. The whole result is the function whose slab `r / 512` is the body's payload
on `R`'s slab, read at row `r % 512`.
-/

noncomputable section

namespace Cert.Kernel.K1

open Cert.Kernel Cert.Kernel.Gen
open Idealize.ShloMosaic Idealize.ShloMosaic.TcCoe Idealize.ShloMosaic.ValueIdx Idealize.SL.Sem

variable {F : FTy → Type} [FloatOps F]

theorem inbR (b : Fin 4) : ∀ a, (![512 * b.val, 0] : Fin 2 → ℕ) a + S512x256.size a ≤ S2048x256.size a :=
  Fin.forall_fin_two.mpr ⟨by show 512 * b.val + 512 ≤ 2048; omega, by show 0 + 256 ≤ 256; omega⟩
theorem inbO (b : Fin 4) : ∀ a, (![512 * b.val, 0] : Fin 2 → ℕ) a + S512x2048.size a ≤ S2048x2048.size a :=
  Fin.forall_fin_two.mpr ⟨by show 512 * b.val + 512 ≤ 2048; omega, by show 0 + 2048 ≤ 2048; omega⟩

/-- Slab `b` (rows `512 b … 512 b + 511`) of a 2048×256 array and of the 2048×2048 result. -/
abbrev slabR (b : Fin 4) : Rect S2048x256 := Rect.unit (s := S2048x256) ![512 * b.val, 0] S512x256.size (inbR b)
abbrev slabO (b : Fin 4) : Rect S2048x2048 := Rect.unit (s := S2048x2048) ![512 * b.val, 0] S512x2048.size (inbO b)

/-- The slab a row lies in, and the row's place inside it. -/
def slabOf (r : Fin 2048) : Fin 4 := ⟨r.val / 512, by have := r.isLt; omega⟩
def rowIn (r : Fin 2048) : Fin 512 := ⟨r.val % 512, Nat.mod_lt _ (by decide)⟩

/-- `(R·T)·Dᵀ`, slab by slab. -/
def dec (R : Vec F S2048x256 .bf16) (T : Vec F S256x256 .bf16) (D : Vec F S2048x256 .bf16) : Vec F S2048x2048 .f32 := fun j =>
  k1_pay1 (View.ld R (slabR (slabOf (j 0)))) T D (ix2 (rowIn (j 0)) (j 1))

end Cert.Kernel.K1

end
-- ==== Proof.K.Reg1Flush.lean ====
import proofs.«133194_g38319698214914_cont_sun_m_1384_4_alg».proof.Proof.K.Reg1
import proofs.«133194_g38319698214914_cont_sun_m_1384_4_alg».proof.Proof.K.K1Fun
import Idealize.ShloMosaic.Lib.Pipeline.Value
import Idealize.ShloMosaic.Lib.ValueIdx

/-!
The result array after the second kernel's region, as one function.

The output window walks the result's four blocks of 512 rows in order, the first input window walks the same blocks of
its operand, and the other two input windows stay on their whole arrays. So the result array ends as the function whose
block `r / 512` is the body's payload of (that block of the first operand, the second operand, the third operand), read
at row `r % 512`.
-/

set_option maxRecDepth 16384

noncomputable section

namespace Cert.Kernel.Hand

open Cert.Kernel Cert.Kernel.Gen
open Idealize.ShloMosaic Idealize.ShloMosaic.TcCoe Idealize.ShloMosaic.ValueIdx Idealize.SL.Sem
open Idealize.ShloMosaic.Pipeline (Dat)

variable {F : FTy → Type} [FloatOps F]

section Flush
variable (V : (c : Dev nD) → (b : Ref sig .tc) → Buf (Elt F) ((c : Thread nD τ).loc b))

/-- `K1.dec` at row `512 b + y₀` is the payload of block `b` at row `y₀`. -/
theorem dec_blk (HR : Vec F S2048x256 .bf16) (tW : Vec F S256x256 .bf16) (HD : Vec F S2048x256 .bf16) (b : Fin 4)
    (y : S512x2048.Idx) (i : S2048x2048.Idx) (hi0 : (i 0).val = 512 * b.val + (y 0).val) (hi1 : (i 1).val = (y 1).val) :
    K1.dec HR tW HD i = k1_pay1 (View.ld HR (K1.slabR b)) tW HD y := by
  have hy : (y 0).val < 512 := (y 0).isLt
  have hb : K1.slabOf (i 0) = b := Fin.ext (by show (i 0).val / 512 = b.val; omega)
  have hr : K1.rowIn (i 0) = y 0 := Fin.ext (by show (i 0).val % 512 = (y 0).val; omega)
  have h1 : i 1 = y 1 := Fin.ext hi1
  unfold K1.dec
  rw [hb, hr, h1]
  exact congrArg (k1_pay1 (View.ld HR (K1.slabR b)) tW HD) (eq_ix2 (n0 := 512) (n1 := 2048) y).symm

/-- The windows' block indices, decided over the four grid points. -/
theorem idx1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 ∧ t.val < 4 :=
  (by decide +kernel : ∀ t : Fin grid1.N, _)

/-- The first input window's block at point `t` is block `t` of its operand. -/
theorem blk1_0 (c : Dev nD) (t : Fin cfg1.N) (b : Fin 4) (hb : b.val = t.val) :
    iblk1 V c 0 t = View.ld (V c main_v12 : S2048x256.Idx → Elt F .bf16) (K1.slabR b) := by
  obtain ⟨e0, e1, -⟩ := idx1 t
  funext x
  unfold iblk1
  rw [View.read_apply]
  show V c main_v12 _ = V c main_v12 _
  congr 1
  funext a; apply Fin.ext
  match a with
  | ⟨0, _⟩ => show win1_0.index t (0 : Fin 2) * 512 + 1 * (x 0).val = 512 * b.val + 1 * (x 0).val; omega
  | ⟨1, _⟩ => show win1_0.index t (1 : Fin 2) * 256 + 1 * (x 1).val = 0 + 1 * (x 1).val; omega

/-- The second and third input windows' blocks are their whole operands at every point. -/
theorem blk1_1 (c : Dev nD) (t : Fin cfg1.N) : iblk1 V c 1 t = (V c main_v3 : S256x256.Idx → Elt F .bf16) := by
  obtain ⟨-, -, -, -, e0, e1, -⟩ := idx1 t
  funext x
  unfold iblk1
  rw [View.read_apply]
  show V c main_v3 _ = V c main_v3 x
  congr 1
  funext a; apply Fin.ext
  match a with
  | ⟨0, _⟩ => show win1_1.index t (0 : Fin 2) * 256 + 1 * (x 0).val = (x 0).val; omega
  | ⟨1, _⟩ => show win1_1.index t (1 : Fin 2) * 256 + 1 * (x 1).val = (x 1).val; omega
theorem blk1_2 (c : Dev nD) (t : Fin cfg1.N) : iblk1 V c 2 t = (V c main_v18 : S2048x256.Idx → Elt F .bf16) := by
  obtain ⟨-, -, -, -, -, -, e0, e1, -⟩ := idx1 t
  funext x
  unfold iblk1
  rw [View.read_apply]
  show V c main_v18 _ = V c main_v18 x
  congr 1
  funext a; apply Fin.ext
  match a with
  | ⟨0, _⟩ => show win1_2.index t (0 : Fin 2) * 2048 + 1 * (x 0).val = (x 0).val; omega
  | ⟨1, _⟩ => show win1_2.index t (1 : Fin 2) * 256 + 1 * (x 1).val = (x 1).val; omega

/-- What point `t` writes back is block `t` of `K1.dec` of the operands as the region finds them. -/
theorem flushed1_3_eq (c : Dev nD) (t : Fin cfg1.N) :
    (dat1 V c).flushed 3 t = ((cfg1.win 3).blk t).view.read (Elt F) (K1.dec (V c main_v12) (V c main_v3) (V c main_v18)) := by
  obtain ⟨-, -, e0, e1, -, -, -, -, ht⟩ := idx1 t
  show (cfg1.win 3).cut (grid1.coords t) ((dat1 V c).after 3 t) = _
  rw [after1_3, out1_3_eq, blk1_0 V c t ⟨t.val, ht⟩ rfl, blk1_1, blk1_2]
  funext y
  rw [View.read_apply]
  show k1_pay1 _ _ _ y = K1.dec _ _ _ (((cfg1.win 3).blk t).view.emb y)
  refine (dec_blk _ _ _ ⟨t.val, ht⟩ y _ ?_ ?_).symm
  · show win1_3.index t (0 : Fin 2) * 512 + 1 * (y 0).val = 512 * t.val + (y 0).val; omega
  · show win1_3.index t (1 : Fin 2) * 2048 + 1 * (y 1).val = (y 1).val; omega

/-- An index of the result array is in point `t`'s block iff each coordinate is in the block's range on its axis. -/
theorem mem_blk1_3 (t : Fin cfg1.N) (i : S2048x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v19).slice (win1_3.rect t)).set ↔ _
  rw [View.set_slice_whole, Rect.mem_set_unit]
  exact Iff.rfl

/-- Row `r` of the result array is in the block of point `r / 512`, which is written back. -/
theorem covered1_3 (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  have hN : cfg1.N = 4 := N_1
  obtain ⟨t, htv⟩ : ∃ t : Fin cfg1.N, t.val = (i 0).val / 512 := ⟨⟨(i 0).val / 512, by rw [hN]; omega⟩, rfl⟩
  obtain ⟨-, -, e0, e1, -⟩ := idx1 t
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- THE RESULT ARRAY after the region: `K1.dec` of the three operands as the region finds them. -/
theorem arrAt1_3 (c : Dev nD) :
    (dat1 V c).arrAt 3 cfg1.N = K1.dec (V c main_v12) (V c main_v3) (V c main_v18) :=
  (dat1 V c).arrAt_eq_of_cover 3 (K1.dec (V c main_v12) (V c main_v3) (V c main_v18)) (fun t _ => flushed1_3_eq V c t) covered1_3

end Flush

end Cert.Kernel.Hand

end
-- ==== Proof.K.Frame.lean ====
import proofs.«133194_g38319698214914_cont_sun_m_1384_4_alg».proof.Proof.Gen.Kernel.Launch
import proofs.«133194_g38319698214914_cont_sun_m_1384_4_alg».proof.Proof.Gen.Kernel.Skeleton
import proofs.«133194_g38319698214914_cont_sun_m_1384_4_alg».proof.Proof.Gen.Kernel.Points
import proofs.«133194_g38319698214914_cont_sun_m_1384_4_alg».proof.Proof.Gen.Kernel.Regions
import proofs.«133194_g38319698214914_cont_sun_m_1384_4_alg».proof.Proof.K.Reg0Body
import proofs.«133194_g38319698214914_cont_sun_m_1384_4_alg».proof.Proof.K.Reg0Flush
import proofs.«133194_g38319698214914_cont_sun_m_1384_4_alg».proof.Proof.K.Reg1
import proofs.«133194_g38319698214914_cont_sun_m_1384_4_alg».proof.Proof.K.Reg1Flush
import proofs.«133194_g38319698214914_cont_sun_m_1384_4_alg».proof.Proof.K.K1Fun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The whole program from launch to return. It is four stretches in order: host operations (the weights rounded, the bias
vectors reshaped to rows), the first kernel, host operations (the two windows of 2048 rows cut out of the first kernel's
result), the second kernel. The contents of a core's buffers at the five boundaries are a fold from the launch memory:
a host stretch changes the buffers its operations write, a kernel changes its result array and nothing else that
outlives it. Read at the end, that fold gives: every argument array as launched, the first kernel's result the whole
last propagation step of its operands, the second kernel's result the decoder of its operands.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.K0

variable {F : FTy → Type} [FloatOps F]

local notation "𝕄" => MT nD τ sig Unit (Elt F) ℕ (UR sig nD τ) ℕ

section Around
variable (V : (c : Dev nD) → (b : Ref sig .tc) → Buf (Elt F) ((c : Thread nD τ).loc b))

/-- Holding a whole buffer at contents `f` is owning the whole-buffer reference at `f`, and conversely. -/
theorem sc_in (c : Dev nD) (b : Ref sig .tc) (f : b.ty.Contents (Elt F)) :
    ((((c : Thread nD τ).loc b) ↦{fullShare} f) : sProp 𝕄) ⊢ owns (c : Thread nD τ) (Memref.whole b) fullShare f := by
  rw [owns_whole (c : Thread nD τ) b fullShare f]
theorem sc_out (c : Dev nD) (b : Ref sig .tc) (f : b.ty.Contents (Elt F)) :
    (owns (c : Thread nD τ) (Memref.whole b) fullShare f : sProp 𝕄) ⊢ (((c : Thread nD τ).loc b) ↦{fullShare} f) := by
  rw [owns_whole (c : Thread nD τ) b fullShare f]

/-- Before the first grid point nothing is asked of the scratch buffers: the first kernel's state between points is made
    from the generator register and the scoped buffers no window stages, whatever they hold. -/
theorem Phi0_in (c : Dev nD) :
    (iprop((∃ r, prngReg c r) ∗ Pipeline.scopedRest (Ix := Unit) (Name := ℕ) (U := UR sig nD τ) (Lvl := ℕ) (Val := Elt F) spec0 c) : sProp 𝕄)
      ⊢ Phi0 V c 0 := by
  rw [scopedRest0_eq]
  unfold Phi0 Six
  iintro ⟨Hp, ⟨%f0, H0⟩, ⟨%f1, H1⟩, ⟨%f2, H2⟩, Hsix⟩
  iexists f0; iexists f1; iexists f2
  isplitl [H0]; · iapply (sc_in c cc0_scratch0 f0); iexact H0
  isplitl [H1]; · iapply (sc_in c cc0_scratch1 f1); iexact H1
  isplitl [H2]; · iapply (sc_in c cc0_scratch2 f2); iexact H2
  isplitl [Hsix]; · iexact Hsix
  isplitl [Hp]; · iexact Hp
  ipureintro; exact Inv_zero _ _ _ _

/-- After any number of points the state gives the same resources back, the scratch buffers' contents forgotten. -/
theorem Phi0_out (c : Dev nD) (n : ℕ) :
    (Phi0 V c n : sProp 𝕄)
      ⊢ iprop((∃ r, prngReg c r) ∗ Pipeline.scopedRest (Ix := Unit) (Name := ℕ) (U := UR sig nD τ) (Lvl := ℕ) (Val := Elt F) spec0 c) := by
  rw [scopedRest0_eq]
  unfold Phi0 Six
  iintro ⟨%f0, %f1, %f2, H0, H1, H2, Hsix, Hp, -⟩
  isplitl [Hp]; · iexact Hp
  isplitl [H0]; · iexists f0; iapply (sc_out c cc0_scratch0 f0); iexact H0
  isplitl [H1]; · iexists f1; iapply (sc_out c cc0_scratch1 f1); iexact H1
  isplitl [H2]; · iexists f2; iapply (sc_out c cc0_scratch2 f2); iexact H2
  iexact Hsix

end Around

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W2_main_v7 (c : Dev nD) : W2 m ρ c (Proc.devRef .tc main_v7) = (opsOf (V1 m ρ) c).h3 :=
  (W2_arr m ρ c 8).trans
    (arrAt0_8 (dat0 (V1 m ρ) c) (opsOf (V1 m ρ) c).gb (opsOf (V1 m ρ) c).s3 (opsOf (V1 m ρ) c).b3 (fun t _ => after0_8 (V1 m ρ) c t))

theorem W4_main_v19 (c : Dev nD) :
    W4 m ρ c (Proc.devRef .tc main_v19) = K1.dec (V3 m ρ c main_v12) (V3 m ρ c main_v3) (V3 m ρ c main_v18) :=
  (W4_arr m ρ c 3).trans (arrAt1_3 (V3 m ρ) c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    iintro ⟨Hp, -, Hr⟩
    iapply (Phi0_in (V1 m ρ) c)
    isplitl [Hp]; · iexact Hp
    iexact Hr
  hout c := by
    rw [Pipeline.ownSems0_none, show (pdats m ρ 0 c).Φ (Fin.last _) = Phi0 (V1 m ρ) c cfg0.N from rfl]
    have hgive := Phi0_out (V1 m ρ) c cfg0.N
    iintro H
    ihave H' := hgive $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run_all m ρ)

end Cert.Kernel.Hand

end
-- ==== Proof.KI.K0Fun.lean ====
import proofs.«133194_g38319698214914_cont_sun_m_1384_4_alg».proof.Proof.Gen.KernelIdeal.Skeleton
import Idealize.ShloMosaic.Lib.Pipeline.FrameBody
import Idealize.ShloMosaic.Lib.ValueIdx

/-!
The first kernel, read as mathematics. Its grid has four phases of eight points. With the adjacency `G` cut into eight
slabs of 512 rows, phase 0 keeps the rounded slabs of `G` and the slabs of `H·W1`; phase 1 the slabs of
`leaky(G·S1 + b1)·W2`; phase 2 those of `leaky(G·S2 + b2)·W3`; phase 3 writes the slabs of `leaky(G·S3 + b3)`.
Each whole array is the function whose slab `r / 512` is the body's payload on the inputs' slab, read at row `r % 512`.
-/

noncomputable section

namespace Cert.KernelIdeal.K0

open Cert.KernelIdeal Cert.KernelIdeal.Gen
open Idealize.ShloMosaic Idealize.ShloMosaic.TcCoe Idealize.ShloMosaic.ValueIdx Idealize.SL.Sem

variable {F : FTy → Type} [FloatOps F]

/-- The zero offsets, in the spelling the printed accesses use. -/
theorem hz2 : (![0, 0] : Fin 2 → ℕ) = fun _ => 0 := by
  funext a; match a with | ⟨0, _⟩ => rfl | ⟨1, _⟩ => rfl

theorem inbG (b : Fin 8) : ∀ a, (![512 * b.val, 0] : Fin 2 → ℕ) a + S512x4096.size a ≤ S4096x4096.size a :=
  Fin.forall_fin_two.mpr ⟨by show 512 * b.val + 512 ≤ 4096; omega, by show 0 + 4096 ≤ 4096; omega⟩
theorem inbS (b : Fin 8) : ∀ a, (![512 * b.val, 0] : Fin 2 → ℕ) a + S512x256.size a ≤ S4096x256.size a :=
  Fin.forall_fin_two.mpr ⟨by show 512 * b.val + 512 ≤ 4096; omega, by show 0 + 256 ≤ 256; omega⟩
theorem inbH (b : Fin 8) : ∀ a, (![512 * b.val, 0] : Fin 2 → ℕ) a + S512x512.size a ≤ S4096x512.size a :=
  Fin.forall_fin_two.mpr ⟨by show 512 * b.val + 512 ≤ 4096; omega, by show 0 + 512 ≤ 512; omega⟩

/-- Slab `b` (rows `512 b … 512 b + 511`) of a 4096×4096 array, of a 4096×256 array, of a 4096×512 array. -/
abbrev slabG (b : Fin 8) : Rect S4096x4096 := Rect.unit (s := S4096x4096) ![512 * b.val, 0] S512x4096.size (inbG b)
abbrev slabS (b : Fin 8) : Rect S4096x256 := Rect.unit (s := S4096x256) ![512 * b.val, 0] S512x256.size (inbS b)
abbrev slabH (b : Fin 8) : Rect S4096x512 := Rect.unit (s := S4096x512) ![512 * b.val, 0] S512x512.size (inbH b)

/-- The slab a row lies in, and the row's place inside it. -/
def slabOf (r : Fin 4096) : Fin 8 := ⟨r.val / 512, by have := r.isLt; omega⟩
def rowIn (r : Fin 4096) : Fin 512 := ⟨r.val % 512, Nat.mod_lt _ (by decide)⟩

/-- The slab a grid point works on: the 32 points are four phases of eight slabs. -/
def slabAt (t : Fin cfg0.N) : Fin 8 := ⟨t.val % 8, Nat.mod_lt _ (by decide)⟩

/-- `G` rounded, slab by slab (what phase 0 leaves in the first scratch). -/
def gb (G : Vec F S4096x4096 .f32) : Vec F S4096x4096 .bf16 := fun j =>
  k0_pay1 (View.ld G (slabG (slabOf (j 0)))) (ix2 (rowIn (j 0)) (j 1))

/-- `S1 = H·W1`, slab by slab (what phase 0 leaves in the second scratch). -/
def s1 (H : Vec F S4096x512 .f32) (W1 : Vec F S512x256 .bf16) : Vec F S4096x256 .bf16 := fun j =>
  k0_pay2 (View.ld H (slabH (slabOf (j 0)))) W1 (ix2 (rowIn (j 0)) (j 1))

/-- One propagation step `leaky(G·S + b)·W`, slab by slab (phases 1 and 2 run the same arithmetic: the two printed
    payloads are the same term, kept apart because the body stores them into different scratch buffers). -/
def s2 (Gb : Vec F S4096x4096 .bf16) (S : Vec F S4096x256 .bf16) (b : Vec F S1x256 .f32) (W : Vec F S256x256 .bf16) :
    Vec F S4096x256 .bf16 := fun j =>
  k0_pay3 (View.ld Gb (slabG (slabOf (j 0)))) S b W (ix2 (rowIn (j 0)) (j 1))
def s3 (Gb : Vec F S4096x4096 .bf16) (S : Vec F S4096x256 .bf16) (b : Vec F S1x256 .f32) (W : Vec F S256x256 .bf16) :
    Vec F S4096x256 .bf16 := fun j =>
  k0_pay4 (View.ld Gb (slabG (slabOf (j 0)))) S b W (ix2 (rowIn (j 0)) (j 1))

/-- The last step `leaky(G·S3 + b3)`: slab `b` is what grid point `24 + b` stores into the output window. -/
def outSlab (Gb : Vec F S4096x4096 .bf16) (S : Vec F S4096x256 .bf16) (b3 : Vec F S1x256 .f32) (b : Fin 8) :
    Vec F S512x256 .bf16 :=
  k0_pay5 (View.ld Gb (slabG b)) S b3
def h3 (Gb : Vec F S4096x4096 .bf16) (S : Vec F S4096x256 .bf16) (b3 : Vec F S1x256 .f32) : Vec F S4096x256 .bf16 := fun j =>
  outSlab Gb S b3 (slabOf (j 0)) (ix2 (rowIn (j 0)) (j 1))

/-- Everything the first kernel computes from its eight operands (`G`, `H`, the rounded weights, the bias rows). -/
structure Ops (F : FTy → Type) [FloatOps F] where
  G : Vec F S4096x4096 .f32
  H : Vec F S4096x512 .f32
  W1 : Vec F S512x256 .bf16
  b1 : Vec F S1x256 .f32
  W2 : Vec F S256x256 .bf16
  b2 : Vec F S1x256 .f32
  W3 : Vec F S256x256 .bf16
  b3 : Vec F S1x256 .f32

def Ops.gb (o : Ops F) : Vec F S4096x4096 .bf16 := K0.gb o.G
def Ops.s1 (o : Ops F) : Vec F S4096x256 .bf16 := K0.s1 o.H o.W1
def Ops.s2 (o : Ops F) : Vec F S4096x256 .bf16 := K0.s2 o.gb o.s1 o.b1 o.W2
def Ops.s3 (o : Ops F) : Vec F S4096x256 .bf16 := K0.s3 o.gb o.s2 o.b2 o.W3
def Ops.h3 (o : Ops F) : Vec F S4096x256 .bf16 := K0.h3 o.gb o.s3 o.b3

end Cert.KernelIdeal.K0

end
-- ==== Proof.KI.Reg0Grid.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import proofs.«133194_g38319698214914_cont_sun_m_1384_4_alg».proof.Proof.KI.K0Fun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
The first kernel's grid, decided. Its 32 points fall into four phases of eight; the four branch conditions of the body
single out the phases, the offsets of its slab accesses are `512` times the point's place in its phase, the output
window is idle through the first three phases and written back at every point of the last, and each input window's
block is a slab of its array (the first two windows) or the whole array (the other six).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The first branch is taken at the points of phase 0. -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- The second at the points of phase 1. -/
theorem hcond2 : ∀ t : Fin cfg0.N, k0_cond2 (grid0.coords t) = 1#1 ↔ 8 ≤ t.val ∧ t.val < 16 :=
  (by decide +kernel : ∀ t : Fin grid0.N, k0_cond2 (grid0.coords t) = 1#1 ↔ 8 ≤ t.val ∧ t.val < 16)
/-- The third at the points of phase 2. -/
theorem hcond3 : ∀ t : Fin cfg0.N, k0_cond3 (grid0.coords t) = 1#1 ↔ 16 ≤ t.val ∧ t.val < 24 :=
  (by decide +kernel : ∀ t : Fin grid0.N, k0_cond3 (grid0.coords t) = 1#1 ↔ 16 ≤ t.val ∧ t.val < 24)
/-- The fourth at the points of phase 3. -/
theorem hcond4 : ∀ t : Fin cfg0.N, k0_cond4 (grid0.coords t) = 1#1 ↔ 24 ≤ t.val :=
  (by decide +kernel : ∀ t : Fin grid0.N, k0_cond4 (grid0.coords t) = 1#1 ↔ 24 ≤ t.val)

/-! ## The offsets of the slab accesses -/

theorem off1 : ∀ t : Fin cfg0.N, t.val < 8 → k0_off1 (grid0.coords t) = ![512 * t.val, 0] :=
  (by decide +kernel : ∀ t : Fin grid0.N, t.val < 8 → k0_off1 (grid0.coords t) = ![512 * t.val, 0])
theorem off2 : ∀ t : Fin cfg0.N, t.val < 8 → k0_off2 (grid0.coords t) = ![512 * t.val, 0] :=
  (by decide +kernel : ∀ t : Fin grid0.N, t.val < 8 → k0_off2 (grid0.coords t) = ![512 * t.val, 0])
theorem off3 : ∀ t : Fin cfg0.N, 8 ≤ t.val → t.val < 16 → k0_off3 (grid0.coords t) = ![512 * (t.val - 8), 0] :=
  (by decide +kernel : ∀ t : Fin grid0.N, 8 ≤ t.val → t.val < 16 → k0_off3 (grid0.coords t) = ![512 * (t.val - 8), 0])
theorem off4 : ∀ t : Fin cfg0.N, 8 ≤ t.val → t.val < 16 → k0_off4 (grid0.coords t) = ![512 * (t.val - 8), 0] :=
  (by decide +kernel : ∀ t : Fin grid0.N, 8 ≤ t.val → t.val < 16 → k0_off4 (grid0.coords t) = ![512 * (t.val - 8), 0])
theorem off5 : ∀ t : Fin cfg0.N, 16 ≤ t.val → t.val < 24 → k0_off5 (grid0.coords t) = ![512 * (t.val - 16), 0] :=
  (by decide +kernel : ∀ t : Fin grid0.N, 16 ≤ t.val → t.val < 24 → k0_off5 (grid0.coords t) = ![512 * (t.val - 16), 0])
theorem off6 : ∀ t : Fin cfg0.N, 16 ≤ t.val → t.val < 24 → k0_off6 (grid0.coords t) = ![512 * (t.val - 16), 0] :=
  (by decide +kernel : ∀ t : Fin grid0.N, 16 ≤ t.val → t.val < 24 → k0_off6 (grid0.coords t) = ![512 * (t.val - 16), 0])
theorem off7 : ∀ t : Fin cfg0.N, 24 ≤ t.val → k0_off7 (grid0.coords t) = ![512 * (t.val - 24), 0] :=
  (by decide +kernel : ∀ t : Fin grid0.N, 24 ≤ t.val → k0_off7 (grid0.coords t) = ![512 * (t.val - 24), 0])

/-! ## Where the windows are idle, where the output is written back, the block indices -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Through the first three phases the body stores nothing into the output window, -/
theorem idleAt0_8 : ∀ t : Fin cfg0.N, t.val < 24 → cfg0.idle 8 (grid0.coords t) = true := by decide +kernel
/-- and the pipeline writes no block of it back. -/
theorem noFlush0_8 : ∀ t : Fin cfg0.N, t.val < 24 → (cfg0.win 8).flush t = false := by decide +kernel
/-- In the last phase the body stores into it at every point, -/
theorem liveAt0_8 : ∀ t : Fin cfg0.N, 24 ≤ t.val → cfg0.idle 8 (grid0.coords t) = false := by decide +kernel
/-- and every point's block is written back. -/
theorem flush0_8 : ∀ t : Fin cfg0.N, 24 ≤ t.val → (cfg0.win 8).flush t = true := by decide +kernel
/-- The output's block index: slab `t - 24` (slab 0 before the last phase). -/
theorem idx0_8 : ∀ t : Fin cfg0.N, win0_8.index t (0 : Fin 2) = t.val - 24 ∧ win0_8.index t (1 : Fin 2) = 0 :=
  (by decide +kernel : ∀ t : Fin grid0.N, win0_8.index t (0 : Fin 2) = t.val - 24 ∧ win0_8.index t (1 : Fin 2) = 0)
/-- The first two inputs' block index: slab `min t 7`. -/
theorem idx0_0 : ∀ t : Fin cfg0.N, win0_0.index t (0 : Fin 2) = min t.val 7 ∧ win0_0.index t (1 : Fin 2) = 0 :=
  (by decide +kernel : ∀ t : Fin grid0.N, win0_0.index t (0 : Fin 2) = min t.val 7 ∧ win0_0.index t (1 : Fin 2) = 0)
theorem idx0_1 : ∀ t : Fin cfg0.N, win0_1.index t (0 : Fin 2) = min t.val 7 ∧ win0_1.index t (1 : Fin 2) = 0 :=
  (by decide +kernel : ∀ t : Fin grid0.N, win0_1.index t (0 : Fin 2) = min t.val 7 ∧ win0_1.index t (1 : Fin 2) = 0)

/-- The six whole-array inputs sit at block index 0 throughout. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The input blocks as slabs of their arrays -/

section Slabs
variable (V : (c : Dev nD) → (b : Ref sig .tc) → Buf (Elt F) ((c : Thread nD τ).loc b))

/-- In phase 0 the first window's block at point `t` is slab `t` of the adjacency, -/
theorem blk0_0 (c : Dev nD) (t : Fin cfg0.N) (h : t.val < 8) : iblk0 V c 0 t = View.ld (V c main_arg1) (K0.slabG ⟨t.val, h⟩) := by
  funext y
  unfold iblk0
  show V c main_arg1 (((cfg0.win 0).blk t).view.emb y) = V c main_arg1 ((K0.slabG ⟨t.val, h⟩).idx y)
  refine congrArg _ ?_
  funext a; apply Fin.ext
  obtain ⟨e0, e1⟩ := idx0_0 t
  match a with
  | ⟨0, _⟩ => show win0_0.index t (0 : Fin 2) * 512 + 1 * (y 0).val = 512 * t.val + 1 * (y 0).val; omega
  | ⟨1, _⟩ => show win0_0.index t (1 : Fin 2) * 4096 + 1 * (y 1).val = 0 + 1 * (y 1).val; omega

/-- and the second window's is slab `t` of the features. -/
theorem blk0_1 (c : Dev nD) (t : Fin cfg0.N) (h : t.val < 8) : iblk0 V c 1 t = View.ld (V c main_arg0) (K0.slabH ⟨t.val, h⟩) := by
  funext y
  unfold iblk0
  show V c main_arg0 (((cfg0.win 1).blk t).view.emb y) = V c main_arg0 ((K0.slabH ⟨t.val, h⟩).idx y)
  refine congrArg _ ?_
  funext a; apply Fin.ext
  obtain ⟨e0, e1⟩ := idx0_1 t
  match a with
  | ⟨0, _⟩ => show win0_1.index t (0 : Fin 2) * 512 + 1 * (y 0).val = 512 * t.val + 1 * (y 0).val; omega
  | ⟨1, _⟩ => show win0_1.index t (1 : Fin 2) * 512 + 1 * (y 1).val = 0 + 1 * (y 1).val; omega

/-- The other six windows' blocks are their whole arrays. -/
theorem blk0_2 (c : Dev nD) (t : Fin cfg0.N) : iblk0 V c 2 t = V c main_v0 := by
  funext y
  unfold iblk0
  show V c main_v0 (((cfg0.win 2).blk t).view.emb y) = V c main_v0 y
  refine congrArg _ ?_
  funext a; apply Fin.ext
  obtain ⟨e0, e1⟩ := idx0_2 t
  match a with
  | ⟨0, _⟩ => show win0_2.index t (0 : Fin 2) * 512 + 1 * (y 0).val = (y 0).val; omega
  | ⟨1, _⟩ => show win0_2.index t (1 : Fin 2) * 256 + 1 * (y 1).val = (y 1).val; omega

theorem blk0_3 (c : Dev nD) (t : Fin cfg0.N) : iblk0 V c 3 t = V c main_v4 := by
  funext y
  unfold iblk0
  show V c main_v4 (((cfg0.win 3).blk t).view.emb y) = V c main_v4 y
  refine congrArg _ ?_
  funext a; apply Fin.ext
  obtain ⟨e0, e1⟩ := idx0_3 t
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem blk0_4 (c : Dev nD) (t : Fin cfg0.N) : iblk0 V c 4 t = V c main_v1 := by
  funext y
  unfold iblk0
  show V c main_v1 (((cfg0.win 4).blk t).view.emb y) = V c main_v1 y
  refine congrArg _ ?_
  funext a; apply Fin.ext
  obtain ⟨e0, e1⟩ := idx0_4 t
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem blk0_5 (c : Dev nD) (t : Fin cfg0.N) : iblk0 V c 5 t = V c main_v5 := by
  funext y
  unfold iblk0
  show V c main_v5 (((cfg0.win 5).blk t).view.emb y) = V c main_v5 y
  refine congrArg _ ?_
  funext a; apply Fin.ext
  obtain ⟨e0, e1⟩ := idx0_5 t
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem blk0_6 (c : Dev nD) (t : Fin cfg0.N) : iblk0 V c 6 t = V c main_v2 := by
  funext y
  unfold iblk0
  show V c main_v2 (((cfg0.win 6).blk t).view.emb y) = V c main_v2 y
  refine congrArg _ ?_
  funext a; apply Fin.ext
  obtain ⟨e0, e1⟩ := idx0_6 t
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem blk0_7 (c : Dev nD) (t : Fin cfg0.N) : iblk0 V c 7 t = V c main_v6 := by
  funext y
  unfold iblk0
  show V c main_v6 (((cfg0.win 7).blk t).view.emb y) = V c main_v6 y
  refine congrArg _ ?_
  funext a; apply Fin.ext
  obtain ⟨e0, e1⟩ := idx0_7 t
  match a with
  | ⟨0, _⟩ => show win0_7.index t (0 : Fin 2) * 1 + 1 * (y 0).val = (y 0).val; omega
  | ⟨1, _⟩ => show win0_7.index t (1 : Fin 2) * 256 + 1 * (y 1).val = (y 1).val; omega

end Slabs

end Cert.KernelIdeal.Hand

end
-- ==== Proof.KI.Reg0Runs.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
The first kernel's body, run once per phase. Each run takes the staging buffers and scratch buffers the phase touches at
named contents and hands them back, the buffer the phase stores into with its one store recorded as a piece over the
contents it had; which piece that is the run itself finds.
-/

/-- Phase 0 (grid points 0..7): a 512-row slab of `G` is rounded into the first scratch, the matching slab of `H·W1`
    goes into the second. -/
noncomputable def runP0 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    Σ' (L0 : List (View.Piece (Elt F) S4096x4096 .bf16)), { L1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg10 fullShare f0 ∗ owns (c : Thread nD τ) arg11 fullShare f1
            ∗ (iprop(owns (c : Thread nD τ) arg1 fullShare x0 ∗ owns (c : Thread nD τ) arg2 fullShare x1 ∗ owns (c : Thread nD τ) arg3 fullShare x2
                ∗ (arg10.view.loc (c : Thread nD τ) ↦[arg10.view.set]{fullShare} arg10.view.writes (Elt F) (harg10.unread f0) L0) ∗ (arg11.view.loc (c : Thread nD τ) ↦[arg11.view.set]{fullShare} arg11.view.writes (Elt F) (harg11.unread f1) L1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mega_kernel_eq_skeleton]; unfold cc0__mega_kernel_skel
    unfold owns
    iintro ⟨⟨%g0, %hg0, H0⟩, ⟨%g1, %hg1, H1⟩, ⟨%g2, %hg2, H2⟩, ⟨%gs0, %hgs0, HS0⟩, ⟨%gs1, %hgs1, HS1⟩, Hk⟩
    obtain rfl := harg1.eq_unread hg0; obtain rfl := harg2.eq_unread hg1; obtain rfl := harg3.eq_unread hg2
    obtain rfl := harg10.eq_unread hgs0; obtain rfl := harg11.eq_unread hgs1
    sl_exec (disch := first | exact h1 | exact h2 | exact h3 | exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexact HS0
    iexact HS1

/-- Phase 1 (grid points 8..15): from a slab of the rounded `G`, the whole of `S1`, the bias row and `W2`, the slab of
    `leaky(G·S1 + b1)·W2` goes into the third scratch. -/
noncomputable def runP1 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : k0_cond2 i = 1#1) (h3 : ¬ k0_cond3 i = 1#1) (h4 : ¬ k0_cond4 i = 1#1)
    (x3 : Vec F S1x256 .f32) (x4 : Vec F S256x256 .bf16)
    (f0 : Vec F S4096x4096 .bf16) (f1 : Vec F S4096x256 .bf16) (f2 : Vec F S4096x256 .bf16) :
    { L2 : List (View.Piece (Elt F) S4096x256 .bf16) //
      ∀ (E : Set ℕ) (K : PUnit → sProp 𝕄),
        iprop(owns (c : Thread nD τ) arg4 fullShare x3 ∗ owns (c : Thread nD τ) arg5 fullShare x4 ∗ owns (c : Thread nD τ) arg10 fullShare f0 ∗ owns (c : Thread nD τ) arg11 fullShare f1 ∗ owns (c : Thread nD τ) arg12 fullShare f2
            ∗ (iprop(owns (c : Thread nD τ) arg4 fullShare x3 ∗ owns (c : Thread nD τ) arg5 fullShare x4 ∗ owns (c : Thread nD τ) arg10 fullShare f0 ∗ owns (c : Thread nD τ) arg11 fullShare f1
                ∗ (arg12.view.loc (c : Thread nD τ) ↦[arg12.view.set]{fullShare} arg12.view.writes (Elt F) (harg12.unread f2) L2)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g3, %hg3, H3⟩, ⟨%g4, %hg4, H4⟩, ⟨%gs0, %hgs0, HS0⟩, ⟨%gs1, %hgs1, HS1⟩, ⟨%gs2, %hgs2, HS2⟩, Hk⟩
    obtain rfl := harg4.eq_unread hg3; obtain rfl := harg5.eq_unread hg4
    obtain rfl := harg10.eq_unread hgs0; obtain rfl := harg11.eq_unread hgs1; obtain rfl := harg12.eq_unread hgs2
    sl_exec (disch := first | exact h1 | exact h2 | exact h3 | exact h4)
    sl_step
    iapply Hk
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg10.read_unread _
      iexact HS0
    isplitl [HS1]
    · iexists _; isplitr; · ipureintro; exact harg11.read_unread _
      iexact HS1
    iexact HS2

/-- Phase 2 (grid points 16..23): the same step from `S2` (third scratch) with the second bias row and `W3`; the slab
    of `leaky(G·S2 + b2)·W3` overwrites the slab of the second scratch. -/
noncomputable def runP2 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : k0_cond3 i = 1#1) (h4 : ¬ k0_cond4 i = 1#1)
    (x5 : Vec F S1x256 .f32) (x6 : Vec F S256x256 .bf16)
    (f0 : Vec F S4096x4096 .bf16) (f1 : Vec F S4096x256 .bf16) (f2 : Vec F S4096x256 .bf16) :
    { L1 : List (View.Piece (Elt F) S4096x256 .bf16) //
      ∀ (E : Set ℕ) (K : PUnit → sProp 𝕄),
        iprop(owns (c : Thread nD τ) arg6 fullShare x5 ∗ owns (c : Thread nD τ) arg7 fullShare x6 ∗ owns (c : Thread nD τ) arg10 fullShare f0 ∗ owns (c : Thread nD τ) arg11 fullShare f1 ∗ owns (c : Thread nD τ) arg12 fullShare f2
            ∗ (iprop(owns (c : Thread nD τ) arg6 fullShare x5 ∗ owns (c : Thread nD τ) arg7 fullShare x6 ∗ owns (c : Thread nD τ) arg10 fullShare f0 ∗ owns (c : Thread nD τ) arg12 fullShare f2
                ∗ (arg11.view.loc (c : Thread nD τ) ↦[arg11.view.set]{fullShare} arg11.view.writes (Elt F) (harg11.unread f1) L1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g5, %hg5, H5⟩, ⟨%g6, %hg6, H6⟩, ⟨%gs0, %hgs0, HS0⟩, ⟨%gs1, %hgs1, HS1⟩, ⟨%gs2, %hgs2, HS2⟩, Hk⟩
    obtain rfl := harg6.eq_unread hg5; obtain rfl := harg7.eq_unread hg6
    obtain rfl := harg10.eq_unread hgs0; obtain rfl := harg11.eq_unread hgs1; obtain rfl := harg12.eq_unread hgs2
    sl_exec (disch := first | exact h1 | exact h2 | exact h3 | exact h4)
    sl_step
    iapply Hk
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg10.read_unread _
      iexact HS0
    isplitl [HS2]
    · iexists _; isplitr; · ipureintro; exact harg12.read_unread _
      iexact HS2
    iexact HS1

/-- Phase 3 (grid points 24..31): from a slab of the rounded `G`, the whole of `S3` (second scratch) and the third bias
    row, the slab of `leaky(G·S3 + b3)` is stored over the whole output block. -/
noncomputable def runP3 (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : ¬ k0_cond3 i = 1#1) (h4 : k0_cond4 i = 1#1)
    (x7 : Vec F S1x256 .f32) (d9 : Vec F S512x256 .bf16)
    (f0 : Vec F S4096x4096 .bf16) (f1 : Vec F S4096x256 .bf16) :
    { L9 : List (View.Piece (Elt F) S512x256 .bf16) //
      ∀ (E : Set ℕ) (K : PUnit → sProp 𝕄),
        iprop(owns (c : Thread nD τ) arg8 fullShare x7 ∗ owns (c : Thread nD τ) arg9 fullShare d9 ∗ owns (c : Thread nD τ) arg10 fullShare f0 ∗ owns (c : Thread nD τ) arg11 fullShare f1
            ∗ (iprop(owns (c : Thread nD τ) arg8 fullShare x7 ∗ owns (c : Thread nD τ) arg10 fullShare f0 ∗ owns (c : Thread nD τ) arg11 fullShare f1
                ∗ (arg9.view.loc (c : Thread nD τ) ↦[arg9.view.set]{fullShare} arg9.view.writes (Elt F) (harg9.unread d9) L9)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__mega_kernel_eq_skeleton]; unfold cc0__mega_kernel_skel
    unfold owns
    iintro ⟨⟨%g7, %hg7, H7⟩, ⟨%g9, %hg9, H9⟩, ⟨%gs0, %hgs0, HS0⟩, ⟨%gs1, %hgs1, HS1⟩, Hk⟩
    obtain rfl := harg8.eq_unread hg7; obtain rfl := harg9.eq_unread hg9
    obtain rfl := harg10.eq_unread hgs0; obtain rfl := harg11.eq_unread hgs1
    sl_exec (disch := first | exact h1 | exact h2 | exact h3 | exact h4)
    sl_step
    iapply Hk
    isplitl [H7]
    · iexists _; isplitr; · ipureintro; exact harg8.read_unread _
      iexact H7
    isplitl [HS0]
    · iexists _; isplitr; · ipureintro; exact harg10.read_unread _
      iexact HS0
    isplitl [HS1]
    · iexists _; isplitr; · ipureintro; exact harg11.read_unread _
      iexact HS1
    iexact H9

end Cert.KernelIdeal.Hand

end
-- ==== Proof.KI.Reg0Pieces.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«133194_g38319698214914_cont_sun_m_1384_4_alg».proof.Proof.KI.Reg0Runs
import proofs.«133194_g38319698214914_cont_sun_m_1384_4_alg».proof.Proof.KI.K0Fun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.K0

/-! The one store each phase's run recorded, spelt out: its rectangle (512 whole rows from the offsets the body computes)
    and its payload on the contents the run was given. -/

theorem runP0_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    (runP0 c i arg1 harg1 arg2 harg2 arg3 harg3 arg4 harg4 arg5 harg5 arg6 harg6 arg7 harg7 arg8 harg8 arg9 harg9 arg10 harg10 arg11 harg11 arg12 harg12 h1 h2 h3 h4 x0 x1 x2 f0 f1).1
      = [⟨Rect.unit (s := S4096x4096) (k0_off1 i) S512x4096.size (k0_off1_inb i h1), k0_pay1 x0⟩] := by
  unfold runP0
  dsimp only
  simp only [View.readAt_eq_ld, Memref.IsWhole.read_unread, View.ld_unit_zero (S := S512x4096) hz2]

theorem runP0_snd (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : k0_cond1 i = 1#1) (h2 : ¬ k0_cond2 i = 1#1) (h3 : ¬ k0_cond3 i = 1#1) (h4 : ¬ k0_cond4 i = 1#1)
    (x0 : Vec F S512x4096 .f32) (x1 : Vec F S512x512 .f32) (x2 : Vec F S512x256 .bf16)
    (f0 : Vec F S4096x4096 .bf16) (f1 : Vec F S4096x256 .bf16) :
    (runP0 c i arg1 harg1 arg2 harg2 arg3 harg3 arg4 harg4 arg5 harg5 arg6 harg6 arg7 harg7 arg8 harg8 arg9 harg9 arg10 harg10 arg11 harg11 arg12 harg12 h1 h2 h3 h4 x0 x1 x2 f0 f1).2.1
      = [⟨Rect.unit (s := S4096x256) (k0_off2 i) S512x256.size (k0_off2_inb i h1), k0_pay2 x1 x2⟩] := by
  unfold runP0
  dsimp only
  simp only [View.readAt_eq_ld, Memref.IsWhole.read_unread, View.ld_unit_zero (S := S512x512) hz2, View.ld_unit_zero (S := S512x256) hz2]

theorem runP1_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : k0_cond2 i = 1#1) (h3 : ¬ k0_cond3 i = 1#1) (h4 : ¬ k0_cond4 i = 1#1)
    (x3 : Vec F S1x256 .f32) (x4 : Vec F S256x256 .bf16)
    (f0 : Vec F S4096x4096 .bf16) (f1 : Vec F S4096x256 .bf16) (f2 : Vec F S4096x256 .bf16) :
    (runP1 c i arg1 harg1 arg2 harg2 arg3 harg3 arg4 harg4 arg5 harg5 arg6 harg6 arg7 harg7 arg8 harg8 arg9 harg9 arg10 harg10 arg11 harg11 arg12 harg12 h1 h2 h3 h4 x3 x4 f0 f1 f2).1
      = [⟨Rect.unit (s := S4096x256) (k0_off4 i) S512x256.size (k0_off4_inb i h2),
          k0_pay3 (View.ld f0 (Rect.unit (s := S4096x4096) (k0_off3 i) S512x4096.size (k0_off3_inb i h2))) f1 x3 x4⟩] := by
  unfold runP1
  dsimp only
  simp only [View.readAt_eq_ld, Memref.IsWhole.read_unread, View.ld_unit_zero (S := S4096x256) hz2, View.ld_unit_zero (S := S1x256) hz2, View.ld_unit_zero (S := S256x256) hz2]

theorem runP2_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : k0_cond3 i = 1#1) (h4 : ¬ k0_cond4 i = 1#1)
    (x5 : Vec F S1x256 .f32) (x6 : Vec F S256x256 .bf16)
    (f0 : Vec F S4096x4096 .bf16) (f1 : Vec F S4096x256 .bf16) (f2 : Vec F S4096x256 .bf16) :
    (runP2 c i arg1 harg1 arg2 harg2 arg3 harg3 arg4 harg4 arg5 harg5 arg6 harg6 arg7 harg7 arg8 harg8 arg9 harg9 arg10 harg10 arg11 harg11 arg12 harg12 h1 h2 h3 h4 x5 x6 f0 f1 f2).1
      = [⟨Rect.unit (s := S4096x256) (k0_off6 i) S512x256.size (k0_off6_inb i h3),
          k0_pay4 (View.ld f0 (Rect.unit (s := S4096x4096) (k0_off5 i) S512x4096.size (k0_off5_inb i h3))) f2 x5 x6⟩] := by
  unfold runP2
  dsimp only
  simp only [View.readAt_eq_ld, Memref.IsWhole.read_unread, View.ld_unit_zero (S := S4096x256) hz2, View.ld_unit_zero (S := S1x256) hz2, View.ld_unit_zero (S := S256x256) hz2]

theorem runP3_fst (c : Dev nD) (i : grid0.Coords) (arg1 : Memref sig .tc .vmem S512x4096 .f32) (harg1 : arg1.IsWhole) (arg2 : Memref sig .tc .vmem S512x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x256 .bf16) (harg9 : arg9.IsWhole) (arg10 : Memref sig .tc .vmem S4096x4096 .bf16) (harg10 : arg10.IsWhole) (arg11 : Memref sig .tc .vmem S4096x256 .bf16) (harg11 : arg11.IsWhole) (arg12 : Memref sig .tc .vmem S4096x256 .bf16) (harg12 : arg12.IsWhole)
    (h1 : ¬ k0_cond1 i = 1#1) (h2 : ¬ k0_cond2 i = 1#1) (h3 : ¬ k0_cond3 i = 1#1) (h4 : k0_cond4 i = 1#1)
    (x7 : Vec F S1x256 .f32) (d9 : Vec F S512x256 .bf16)
    (f0 : Vec F S4096x4096 .bf16) (f1 : Vec F S4096x256 .bf16) :
    (runP3 c i arg1 harg1 arg2 harg2 arg3 harg3 arg4 harg4 arg5 harg5 arg6 harg6 arg7 harg7 arg8 harg8 arg9 harg9 arg10 harg10 arg11 harg11 arg12 harg12 h1 h2 h3 h4 x7 d9 f0 f1).1
      = [⟨Rect.unit (s := S512x256) ![0, 0] S512x256.size inb_S512x256_S512x256_0_0,
          k0_pay5 (View.ld f0 (Rect.unit (s := S4096x4096) (k0_off7 i) S512x4096.size (k0_off7_inb i h4))) f1 x7⟩] := by
  unfold runP3
  dsimp only
  simp only [View.readAt_eq_ld, Memref.IsWhole.read_unread, View.ld_unit_zero (S := S4096x256) hz2, View.ld_unit_zero (S := S1x256) hz2]

end Cert.KernelIdeal.Hand

end
-- ==== Proof.KI.Reg0Step.lean ====
import proofs.«133194_g38319698214914_cont_sun_m_1384_4_alg».proof.Proof.KI.K0Fun
import Idealize.ShloMosaic.Lib.WritesUnit
import Idealize.ShloMosaic.Lib.Pipeline.Frame
import Idealize.ShloMosaic.Lib.Pipeline.Value

/-!
How the scratch buffers of the first kernel fill up. Each phase stores one slab of 512 whole rows per grid point; after
`n` points of a phase the first `512·n` rows of the buffer hold the rows of the whole array the phase computes, the
other rows what they held. The invariant `Inv` says, after `n` of the 32 points, which rows of the three buffers
are known to be rows of `gb`, `S1`, `S2`, `S3`.
-/

noncomputable section

namespace Cert.KernelIdeal.Hand

open Cert.KernelIdeal Cert.KernelIdeal.Gen Cert.KernelIdeal.K0
open Idealize.ShloMosaic Idealize.ShloMosaic.TcCoe Idealize.ShloMosaic.ValueIdx Idealize.SL.Sem

variable {F : FTy → Type} [FloatOps F]

/-- Two unit-stride rectangles of one size at equal offsets are one rectangle. -/
theorem unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- A row's slab and its place in the slab, from the slab's first row. -/
theorem slabOf_eq {r : Fin 4096} {n : ℕ} (hn : n < 8) (h : 512 * n ≤ r.val ∧ r.val < 512 * n + 512) : slabOf r = ⟨n, hn⟩ :=
  Fin.ext (by show r.val / 512 = n; omega)
theorem rowIn_val {r : Fin 4096} {n : ℕ} (h : 512 * n ≤ r.val ∧ r.val < 512 * n + 512) : (rowIn r).val = r.val - 512 * n := by
  show r.val % 512 = r.val - 512 * n; omega

/-- ONE STORE OF WHOLE ROWS. A whole buffer of shape [4096, d] holding `f`, after a store of the 512 rows from row
    `512·n` with payload `P`: on those rows the payload at the row's place in the slab, elsewhere `f`. -/
theorem read_store_slab {d1 : ℕ} {e : EltTy} (m : Memref sig .tc .vmem (⟨2, ![4096, d1]⟩ : Shape) e) (hm : m.IsWhole)
    (f : (⟨2, ![4096, d1]⟩ : Shape).Idx → Elt F e) {off : Fin 2 → ℕ} {n : ℕ}
    (inb : ∀ a : Fin 2, off a + (![512, d1] : Fin 2 → ℕ) a ≤ (![4096, d1] : Fin 2 → ℕ) a)
    (P : (⟨2, ![512, d1]⟩ : Shape).Idx → Elt F e) (hoff : off = ![512 * n, 0]) (y : (⟨2, ![4096, d1]⟩ : Shape).Idx) :
    m.view.read (Elt F) (m.view.writes (Elt F) (hm.unread f)
        [(⟨Rect.unit (s := (⟨2, ![4096, d1]⟩ : Shape)) off (![512, d1] : Fin 2 → ℕ) inb, P⟩ : View.Piece (Elt F) _ e)]) y
      = if h : 512 * n ≤ (y 0).val ∧ (y 0).val < 512 * n + 512 then
          P (ix2 ⟨(y 0).val - 512 * n, by omega⟩ (y 1))
        else f y := by
  rw [View.read_writes_cons_rows m.view (hm.unread f) inb P [] y hoff (W := 512) rfl rfl]
  by_cases h : 512 * n ≤ (y 0).val ∧ (y 0).val < 512 * n + 512
  · rw [dif_pos h, dif_pos h]
    refine congrArg P ?_
    funext a
    match a with
    | ⟨0, _⟩ => exact Fin.ext (by show (y 0).val - (![512 * n, 0] : Fin 2 → ℕ) 0 = (y 0).val - 512 * n; rfl)
    | ⟨1, _⟩ => exact Fin.ext (by show (y 1).val - (![512 * n, 0] : Fin 2 → ℕ) 1 = (y 1).val; exact Nat.sub_zero _)
  · rw [dif_neg h, dif_neg h, View.writes_nil]
    exact congrFun (hm.read_unread f) y

/-- THE FILLING STEP. If the rows below `512·n` are rows of `T`, and slab `n` of `T` is the payload `P`, then after the
    store the rows below `512·(n+1)` are rows of `T`; -/
theorem slab_step {d1 : ℕ} {e : EltTy} (m : Memref sig .tc .vmem (⟨2, ![4096, d1]⟩ : Shape) e) (hm : m.IsWhole)
    (f T : (⟨2, ![4096, d1]⟩ : Shape).Idx → Elt F e) {off : Fin 2 → ℕ} {n : ℕ} (hn : n < 8)
    (inb : ∀ a : Fin 2, off a + (![512, d1] : Fin 2 → ℕ) a ≤ (![4096, d1] : Fin 2 → ℕ) a)
    (P : (⟨2, ![512, d1]⟩ : Shape).Idx → Elt F e) (hoff : off = ![512 * n, 0])
    (hT : ∀ j : (⟨2, ![4096, d1]⟩ : Shape).Idx, slabOf (j 0) = ⟨n, hn⟩ → T j = P (ix2 (rowIn (j 0)) (j 1)))
    (hI : ∀ j : (⟨2, ![4096, d1]⟩ : Shape).Idx, (j 0).val < 512 * n → f j = T j)
    (j : (⟨2, ![4096, d1]⟩ : Shape).Idx) (hj : (j 0).val < 512 * (n + 1)) :
    m.view.read (Elt F) (m.view.writes (Elt F) (hm.unread f)
        [(⟨Rect.unit (s := (⟨2, ![4096, d1]⟩ : Shape)) off (![512, d1] : Fin 2 → ℕ) inb, P⟩ : View.Piece (Elt F) _ e)]) j = T j := by
  rw [read_store_slab m hm f inb P hoff j]
  by_cases h : 512 * n ≤ (j 0).val ∧ (j 0).val < 512 * n + 512
  · rw [dif_pos h, hT j (slabOf_eq hn h)]
    refine congrArg P ?_
    funext a
    match a with
    | ⟨0, _⟩ => exact Fin.ext (rowIn_val h).symm
    | ⟨1, _⟩ => rfl
  · rw [dif_neg h]
    exact hI j (by omega)

/-- and every other row is as it was. -/
theorem slab_keep {d1 : ℕ} {e : EltTy} (m : Memref sig .tc .vmem (⟨2, ![4096, d1]⟩ : Shape) e) (hm : m.IsWhole)
    (f : (⟨2, ![4096, d1]⟩ : Shape).Idx → Elt F e) {off : Fin 2 → ℕ} {n : ℕ}
    (inb : ∀ a : Fin 2, off a + (![512, d1] : Fin 2 → ℕ) a ≤ (![4096, d1] : Fin 2 → ℕ) a)
    (P : (⟨2, ![512, d1]⟩ : Shape).Idx → Elt F e) (hoff : off = ![512 * n, 0])
    (j : (⟨2, ![4096, d1]⟩ : Shape).Idx) (hj : ¬ (512 * n ≤ (j 0).val ∧ (j 0).val < 512 * n + 512)) :
    m.view.read (Elt F) (m.view.writes (Elt F) (hm.unread f)
        [(⟨Rect.unit (s := (⟨2, ![4096, d1]⟩ : Shape)) off (![512, d1] : Fin 2 → ℕ) inb, P⟩ : View.Piece (Elt F) _ e)]) j = f j := by
  rw [read_store_slab m hm f inb P hoff j, dif_neg hj]

/-- WHICH ROWS ARE KNOWN after `n` of the 32 grid points: the first scratch holds the rounded `G` on the slabs phase 0
    has done; the second holds `S1` on those slabs until phase 2 starts overwriting it, then `S3` on the slabs phase 2
    has done; the third holds `S2` on the slabs phase 1 has done. -/
def Inv (o : Ops F) (n : ℕ) (f0 : Vec F S4096x4096 .bf16) (f1 f2 : Vec F S4096x256 .bf16) : Prop :=
  (∀ j : S4096x4096.Idx, (j 0).val < 512 * min n 8 → f0 j = o.gb j)
  ∧ (n ≤ 16 → ∀ j : S4096x256.Idx, (j 0).val < 512 * min n 8 → f1 j = o.s1 j)
  ∧ (8 ≤ n → ∀ j : S4096x256.Idx, (j 0).val < 512 * min (n - 8) 8 → f2 j = o.s2 j)
  ∧ (16 ≤ n → ∀ j : S4096x256.Idx, (j 0).val < 512 * min (n - 16) 8 → f1 j = o.s3 j)

theorem Inv_zero (o : Ops F) (f0 : Vec F S4096x4096 .bf16) (f1 f2 : Vec F S4096x256 .bf16) : Inv o 0 f0 f1 f2 :=
  ⟨fun j h => absurd h (by show ¬ (j 0).val < 512 * min 0 8; omega), fun _ j h => absurd h (by show ¬ (j 0).val < 512 * min 0 8; omega),
    fun h => absurd h (by omega), fun h => absurd h (by omega)⟩

/-- Once a phase is over its buffer is the whole array. -/
theorem Inv.gb_all {o : Ops F} {n : ℕ} {f0 : Vec F S4096x4096 .bf16} {f1 f2 : Vec F S4096x256 .bf16} (h : Inv o n f0 f1 f2)
    (hn : 8 ≤ n) : f0 = o.gb :=
  funext fun j => h.1 j (by have hj : (j 0).val < 4096 := idx2_lt0 j; show (j 0).val < 512 * min n 8; omega)
theorem Inv.s1_all {o : Ops F} {n : ℕ} {f0 : Vec F S4096x4096 .bf16} {f1 f2 : Vec F S4096x256 .bf16} (h : Inv o n f0 f1 f2)
    (hn : 8 ≤ n) (hn' : n ≤ 16) : f1 = o.s1 :=
  funext fun j => h.2.1 hn' j (by have hj : (j 0).val < 4096 := idx2_lt0 j; show (j 0).val < 512 * min n 8; omega)
theorem Inv.s2_all {o : Ops F} {n : ℕ} {f0 : Vec F S4096x4096 .bf16} {f1 f2 : Vec F S4096x256 .bf16} (h : Inv o n f0 f1 f2)
    (hn : 16 ≤ n) : f2 = o.s2 :=
  funext fun j => h.2.2.1 (by omega) j (by have hj : (j 0).val < 4096 := idx2_lt0 j; show (j 0).val < 512 * min (n - 8) 8; omega)
theorem Inv.s3_all {o : Ops F} {n : ℕ} {f0 : Vec F S4096x4096 .bf16} {f1 f2 : Vec F S4096x256 .bf16} (h : Inv o n f0 f1 f2)
    (hn : 24 ≤ n) : f1 = o.s3 :=
  funext fun j => h.2.2.2 (by omega) j (by have hj : (j 0).val < 4096 := idx2_lt0 j; show (j 0).val < 512 * min (n - 16) 8; omega)

/-! ## The invariant, one grid point on -/

section Steps

variable {o : Ops F} {n : ℕ} {f0 : Vec F S4096x4096 .bf16} {f1 f2 : Vec F S4096x256 .bf16}

/-- A point of phase 0 stores slab `n` of the rounded `G` and slab `n` of `S1`. -/
theorem Inv.step0 (h : Inv o n f0 f1 f2) (hn : n < 8)
    (m0 : Memref sig .tc .vmem S4096x4096 .bf16) (hm0 : m0.IsWhole) (m1 : Memref sig .tc .vmem S4096x256 .bf16) (hm1 : m1.IsWhole)
    {off0 off1 : Fin 2 → ℕ} (inb0 : ∀ a : Fin 2, off0 a + S512x4096.size a ≤ S4096x4096.size a)
    (inb1 : ∀ a : Fin 2, off1 a + S512x256.size a ≤ S4096x256.size a)
    (hoff0 : off0 = ![512 * n, 0]) (hoff1 : off1 = ![512 * n, 0])
    (x0 : Vec F S512x4096 .f32) (hx0 : x0 = View.ld o.G (slabG ⟨n, hn⟩))
    (x1 : Vec F S512x512 .f32) (hx1 : x1 = View.ld o.H (slabH ⟨n, hn⟩)) (x2 : Vec F S512x256 .bf16) (hx2 : x2 = o.W1) :
    Inv o (n + 1)
      (m0.view.read (Elt F) (m0.view.writes (Elt F) (hm0.unread f0) [⟨Rect.unit (s := S4096x4096) off0 S512x4096.size inb0, k0_pay1 x0⟩]))
      (m1.view.read (Elt F) (m1.view.writes (Elt F) (hm1.unread f1) [⟨Rect.unit (s := S4096x256) off1 S512x256.size inb1, k0_pay2 x1 x2⟩]))
      f2 := by
  subst hx0 hx1 hx2
  have e1 : min (n + 1) 8 = n + 1 := by omega
  have e2 : min (n + 1 - 8) 8 = 0 := by omega
  have e3 : min n 8 = n := by omega
  refine ⟨fun j hj => ?_, fun _ j hj => ?_, fun h8 j hj => ?_, fun h16 => absurd h16 (by omega)⟩
  · rw [e1] at hj
    exact slab_step m0 hm0 f0 o.gb hn inb0 _ hoff0 (fun j hs => by unfold Ops.gb K0.gb; rw [hs])
      (fun j hj' => h.1 j (by rw [e3]; exact hj')) j hj
  · rw [e1] at hj
    exact slab_step m1 hm1 f1 o.s1 hn inb1 _ hoff1 (fun j hs => by unfold Ops.s1 K0.s1; rw [hs])
      (fun j hj' => h.2.1 (by omega) j (by rw [e3]; exact hj')) j hj
  · rw [e2] at hj; omega

/-- A point of phase 1 (the `n - 8`-th) stores that slab of `S2` into the third scratch. -/
theorem Inv.step1 (h : Inv o n f0 f1 f2) (hn : 8 ≤ n) (hn' : n < 16)
    (m2 : Memref sig .tc .vmem S4096x256 .bf16) (hm2 : m2.IsWhole)
    {off3 off4 : Fin 2 → ℕ} (inb3 : ∀ a : Fin 2, off3 a + S512x4096.size a ≤ S4096x4096.size a)
    (inb4 : ∀ a : Fin 2, off4 a + S512x256.size a ≤ S4096x256.size a)
    (hoff3 : off3 = ![512 * (n - 8), 0]) (hoff4 : off4 = ![512 * (n - 8), 0])
    (x3 : Vec F S1x256 .f32) (hx3 : x3 = o.b1) (x4 : Vec F S256x256 .bf16) (hx4 : x4 = o.W2) :
    Inv o (n + 1) f0 f1
      (m2.view.read (Elt F) (m2.view.writes (Elt F) (hm2.unread f2)
        [⟨Rect.unit (s := S4096x256) off4 S512x256.size inb4,
          k0_pay3 (View.ld f0 (Rect.unit (s := S4096x4096) off3 S512x4096.size inb3)) f1 x3 x4⟩])) := by
  subst hx3 hx4 hoff3
  have e0 : f0 = o.gb := h.gb_all hn
  have e1 : f1 = o.s1 := h.s1_all hn (by omega)
  have hb : n - 8 < 8 := by omega
  have m1 : min (n + 1) 8 = min n 8 := by omega
  have m2' : min (n + 1 - 8) 8 = n - 8 + 1 := by omega
  have m3 : min (n + 1 - 16) 8 = 0 := by omega
  have m4 : min (n - 8) 8 = n - 8 := by omega
  refine ⟨fun j hj => h.1 j (by rw [← m1]; exact hj), fun h16 j hj => h.2.1 (by omega) j (by rw [← m1]; exact hj),
    fun _ j hj => ?_, fun h16 j hj => ?_⟩
  · rw [m2'] at hj
    exact slab_step m2 hm2 f2 o.s2 hb inb4 _ hoff4 (fun j hs => by unfold Ops.s2 K0.s2; rw [hs, e0, e1])
      (fun j hj' => h.2.2.1 hn j (by rw [m4]; exact hj')) j hj
  · rw [m3] at hj; omega

/-- A point of phase 2 (the `n - 16`-th) stores that slab of `S3` over the slab of `S1` in the second scratch. -/
theorem Inv.step2 (h : Inv o n f0 f1 f2) (hn : 16 ≤ n) (hn' : n < 24)
    (m1 : Memref sig .tc .vmem S4096x256 .bf16) (hm1 : m1.IsWhole)
    {off5 off6 : Fin 2 → ℕ} (inb5 : ∀ a : Fin 2, off5 a + S512x4096.size a ≤ S4096x4096.size a)
    (inb6 : ∀ a : Fin 2, off6 a + S512x256.size a ≤ S4096x256.size a)
    (hoff5 : off5 = ![512 * (n - 16), 0]) (hoff6 : off6 = ![512 * (n - 16), 0])
    (x5 : Vec F S1x256 .f32) (hx5 : x5 = o.b2) (x6 : Vec F S256x256 .bf16) (hx6 : x6 = o.W3) :
    Inv o (n + 1) f0
      (m1.view.read (Elt F) (m1.view.writes (Elt F) (hm1.unread f1)
        [⟨Rect.unit (s := S4096x256) off6 S512x256.size inb6,
          k0_pay4 (View.ld f0 (Rect.unit (s := S4096x4096) off5 S512x4096.size inb5)) f2 x5 x6⟩]))
      f2 := by
  subst hx5 hx6 hoff5
  have e0 : f0 = o.gb := h.gb_all (by omega)
  have e2 : f2 = o.s2 := h.s2_all hn
  have hb : n - 16 < 8 := by omega
  have k1 : min (n + 1) 8 = min n 8 := by omega
  have k2 : min (n + 1 - 8) 8 = min (n - 8) 8 := by omega
  have k3 : min (n + 1 - 16) 8 = n - 16 + 1 := by omega
  have k4 : min (n - 16) 8 = n - 16 := by omega
  refine ⟨fun j hj => h.1 j (by rw [← k1]; exact hj), fun h16 => absurd h16 (by omega),
    fun _ j hj => h.2.2.1 (by omega) j (by rw [← k2]; exact hj), fun _ j hj => ?_⟩
  rw [k3] at hj
  exact slab_step m1 hm1 f1 o.s3 hb inb6 _ hoff6 (fun j hs => by unfold Ops.s3 K0.s3; rw [hs, e0, e2])
    (fun j hj' => h.2.2.2 hn j (by rw [k4]; exact hj')) j hj

/-- A point of phase 3 stores into no scratch. -/
theorem Inv.step3 (h : Inv o n f0 f1 f2) (hn : 24 ≤ n) : Inv o (n + 1) f0 f1 f2 := by
  have k1 : min (n + 1) 8 = min n 8 := by omega
  have k2 : min (n + 1 - 8) 8 = min (n - 8) 8 := by omega
  have k3 : min (n + 1 - 16) 8 = min (n - 16) 8 := by omega
  exact ⟨fun j hj => h.1 j (by rw [← k1]; exact hj), fun h16 => absurd h16 (by omega),
    fun _ j hj => h.2.2.1 (by omega) j (by rw [← k2]; exact hj),
    fun _ j hj => h.2.2.2 (by omega) j (by rw [← k3]; exact hj)⟩

/-- What a point of phase 3 (the `n - 24`-th) stores over the output block: that slab of the last activation. -/
theorem Inv.out3 (h : Inv o n f0 f1 f2) (hn : 24 ≤ n) (hn' : n < 32)
    {off7 : Fin 2 → ℕ} (inb7 : ∀ a : Fin 2, off7 a + S512x4096.size a ≤ S4096x4096.size a)
    (hoff7 : off7 = ![512 * (n - 24), 0]) (x7 : Vec F S1x256 .f32) (hx7 : x7 = o.b3) :
    k0_pay5 (View.ld f0 (Rect.unit (s := S4096x4096) off7 S512x4096.size inb7)) f1 x7
      = outSlab o.gb o.s3 o.b3 ⟨n - 24, by omega⟩ := by
  subst hx7 hoff7
  rw [h.gb_all (by omega), h.s3_all hn]
  rfl

end Steps

end Cert.KernelIdeal.Hand

end
-- ==== Proof.KI.Reg0Dat.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«133194_g38319698214914_cont_sun_m_1384_4_alg».proof.Proof.KI.Reg0Grid
import proofs.«133194_g38319698214914_cont_sun_m_1384_4_alg».proof.Proof.KI.Reg0Pieces
import proofs.«133194_g38319698214914_cont_sun_m_1384_4_alg».proof.Proof.KI.Reg0Step

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.K0

/-!
The first pallas_call as a pipeline with a carried state. Between grid points the three scratch buffers hold contents
`f0 f1 f2` of which `Inv` says which rows are already rows of the rounded `G`, of `S1`, `S2`, `S3`; each input window's
staging buffer holds its block; the output window is idle through the first three phases and holds slab `t - 24` of the
last activation after point `t` of the fourth.
-/

variable (V : (c : Dev nD) → (b : Ref sig .tc) → Buf (Elt F) ((c : Thread nD τ).loc b))

/-- The kernel's eight operands as the region finds them: `G`, `H`, the rounded weights, the bias rows. -/
def opsOf (c : Dev nD) : Ops F :=
  ⟨V c main_arg1, V c main_arg0, V c main_v0, V c main_v4, V c main_v1, V c main_v5, V c main_v2, V c main_v6⟩

/-- The three scratch buffers, whole. -/
abbrev scM0 : Memref sig .tc .vmem S4096x4096 .bf16 := Memref.whole cc0_scratch0
abbrev scM1 : Memref sig .tc .vmem S4096x256 .bf16 := Memref.whole cc0_scratch1
abbrev scM2 : Memref sig .tc .vmem S4096x256 .bf16 := Memref.whole cc0_scratch2

/-- What else the region lends the body and the body never touches: the second call's staging buffers, at anything. -/
def Six (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- THE STATE BETWEEN POINTS, after `n` of them: the scratch buffers at some contents satisfying `Inv … n`, the untouched
    rest, the generator register at some state. -/
def Phi0 (c : Dev nD) (n : ℕ) : sProp 𝕄 :=
  iprop(∃ f0 : Vec F S4096x4096 .bf16, ∃ f1 : Vec F S4096x256 .bf16, ∃ f2 : Vec F S4096x256 .bf16,
    owns (c : Thread nD τ) scM0 fullShare f0 ∗ owns (c : Thread nD τ) scM1 fullShare f1 ∗ owns (c : Thread nD τ) scM2 fullShare f2
      ∗ Six c ∗ (∃ r, prngReg c r) ∗ ⌜Inv (opsOf V c) n f0 f1 f2⌝)

/-- A buffer holding raw contents `g` is owned at what `g` reads. -/
theorem owns_of_raw (c : Dev nD) {sp : Space} {sh : Shape} {e : EltTy} (m : Memref sig .tc sp sh e) (g : m.view.ty.Contents (Elt F)) :
    (m.view.loc (c : Thread nD τ) ↦[m.view.set]{fullShare} g : sProp 𝕄) ⊢ owns (c : Thread nD τ) m fullShare (m.view.read (Elt F) g) := by
  unfold owns
  iintro H
  iexists g
  isplitr; · ipureintro; rfl
  iexact H

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outSlab (opsOf V c).gb (opsOf V c).s3 (opsOf V c).b3 (slabAt t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = outSlab (opsOf V c).gb (opsOf V c).s3 (opsOf V c).b3 (slabAt t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (st0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (st0_5 t) fullShare (iblk0 V c 5 t) := by
  unfold Dat.leavesExact; rw [liveAt0_5 t, after0_5]
theorem leaves0_6 (c : Dev nD) (t : Fin cfg0.N) :
    (dat0 V c).leavesExact 6 t = owns (c : Thread nD τ) (st0_6 t) fullShare (iblk0 V c 6 t) := by
  unfold Dat.leavesExact; rw [liveAt0_6 t, after0_6]
theorem leaves0_7 (c : Dev nD) (t : Fin cfg0.N) :
    (dat0 V c).leavesExact 7 t = owns (c : Thread nD τ) (st0_7 t) fullShare (iblk0 V c 7 t) := by
  unfold Dat.leavesExact; rw [liveAt0_7 t, after0_7]
theorem leaves0_8 (c : Dev nD) (t : Fin cfg0.N) (h : 24 ≤ t.val) :
    (dat0 V c).leavesExact 8 t = owns (c : Thread nD τ) (st0_8 t) fullShare (outSlab (opsOf V c).gb (opsOf V c).s3 (opsOf V c).b3 (slabAt t)) := by
  unfold Dat.leavesExact; rw [liveAt0_8 t h, after0_8]

theorem Phi_castSucc (c : Dev nD) (t : Fin cfg0.N) : (dat0 V c).Φ t.castSucc = Phi0 V c t.val := by
  dsimp only [dat0]; simp only [Fin.coe_castSucc]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

end Cert.KernelIdeal.Hand

end
-- ==== Proof.KI.Reg0Body.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«133194_g38319698214914_cont_sun_m_1384_4_alg».proof.Proof.KI.Reg0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.K0

variable (V : (c : Dev nD) → (b : Ref sig .tc) → Buf (Elt F) ((c : Thread nD τ).loc b))

/-- One store over a whole block covers it. -/
theorem cover9 (p : Vec F S512x256 .bf16) (y : S512x256.Idx) :
    ∃ pc ∈ ([⟨Rect.unit (s := S512x256) ![0, 0] S512x256.size inb_S512x256_S512x256_0_0, p⟩] : List (View.Piece (Elt F) S512x256 .bf16)), y ∈ pc.1.set :=
  View.cover_of_tiled [⟨Rect.unit (s := S512x256) ![0, 0] S512x256.size inb_S512x256_S512x256_0_0, p⟩] S512x256.size (by rfl) y

set_option maxHeartbeats 8000000 in
/-- THE BODY AT ANY POINT. Which phase the point is in is decided by its number; the phase's run applies to the staging
    buffers at their blocks and the scratch buffers at the contents the state names; the state after the point is the
    same buffers with the run's one store, and `Inv` moves on by the matching step. In the fourth phase the store covers
    the output block, which then holds the slab of the last activation. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = Phi0 V c (t.val + 1) from rfl, Phi_castSucc]
  rw [leaves0_0, leaves0_1, leaves0_2, leaves0_3, leaves0_4, leaves0_5, leaves0_6, leaves0_7]
  have hN : t.val < 32 := lt_of_lt_of_eq t.isLt (show cfg0.N = 32 from N_0)
  have hc1 : (k0_cond1 (grid0.coords t) = 1#1) ↔ t.val < 8 := hcond1 t
  have hc2 : (k0_cond2 (grid0.coords t) = 1#1) ↔ 8 ≤ t.val ∧ t.val < 16 := hcond2 t
  have hc3 : (k0_cond3 (grid0.coords t) = 1#1) ↔ 16 ≤ t.val ∧ t.val < 24 := hcond3 t
  have hc4 : (k0_cond4 (grid0.coords t) = 1#1) ↔ 24 ≤ t.val := hcond4 t
  by_cases h8 : t.val < 8
  · -- phase 0
    have c1 : k0_cond1 (grid0.coords t) = 1#1 := hc1.mpr h8
    have c2 : ¬ k0_cond2 (grid0.coords t) = 1#1 := fun h => by have := hc2.mp h; omega
    have c3 : ¬ k0_cond3 (grid0.coords t) = 1#1 := fun h => by have := hc3.mp h; omega
    have c4 : ¬ k0_cond4 (grid0.coords t) = 1#1 := fun h => by have := hc4.mp h; omega
    rw [Dat.leavesExact_idle (dat0 V c) 8 t (idleAt0_8 t (by omega)) (noFlush0_8 t (by omega))]
    unfold Phi0
    iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hx0 : iblk0 V c 0 t = View.ld (opsOf V c).G (slabG ⟨t.val, h8⟩) := blk0_0 V c t h8
    have hx1 : iblk0 V c 1 t = View.ld (opsOf V c).H (slabH ⟨t.val, h8⟩) := blk0_1 V c t h8
    have hx2 : iblk0 V c 2 t = (opsOf V c).W1 := blk0_2 V c t
    have hs := hI.step0 h8 scM0 (Memref.isWhole_whole _) scM1 (Memref.isWhole_whole _) (k0_off1_inb (grid0.coords t) c1) (k0_off2_inb (grid0.coords t) c1) (off1 t h8) (off2 t h8) (iblk0 V c 0 t) hx0 (iblk0 V c 1 t) hx1 (iblk0 V c 2 t) hx2
    have e0 := runP0_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1
    have e1 := runP0_snd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1
    generalize runP0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 0 t) (iblk0 V c 1 t) (iblk0 V c 2 t) f0 f1 = R at e0 e1
    obtain ⟨L0, L1, hrun⟩ := R
    dsimp only at e0 e1
    subst e0 e1
    iapply (hrun Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HS2 HR Hg]
    · iexists _; iexists _; iexists f2
      isplitl [HS0]
      · unfold owns; iexists _; isplitr
        swap; · iexact HS0
        ipureintro; rfl
      isplitl [HS1]
      · unfold owns; iexists _; isplitr
        swap; · iexact HS1
        ipureintro; rfl
      isplitl [HS2]; · iexact HS2
      isplitl [HR]; · iexact HR
      isplitl [Hg]; · iexact Hg
      ipureintro
      exact hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h16 : t.val < 16
    · -- phase 1
      have h8' : 8 ≤ t.val := by omega
      have c1 : ¬ k0_cond1 (grid0.coords t) = 1#1 := fun h => by have := hc1.mp h; omega
      have c2 : k0_cond2 (grid0.coords t) = 1#1 := hc2.mpr ⟨h8', h16⟩
      have c3 : ¬ k0_cond3 (grid0.coords t) = 1#1 := fun h => by have := hc3.mp h; omega
      have c4 : ¬ k0_cond4 (grid0.coords t) = 1#1 := fun h => by have := hc4.mp h; omega
      rw [Dat.leavesExact_idle (dat0 V c) 8 t (idleAt0_8 t (by omega)) (noFlush0_8 t (by omega))]
      unfold Phi0
      iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hx3 : iblk0 V c 3 t = (opsOf V c).b1 := blk0_3 V c t
      have hx4 : iblk0 V c 4 t = (opsOf V c).W2 := blk0_4 V c t
      have hs := hI.step1 h8' h16 scM2 (Memref.isWhole_whole _) (k0_off3_inb (grid0.coords t) c2) (k0_off4_inb (grid0.coords t) c2) (off3 t h8' h16) (off4 t h8' h16) (iblk0 V c 3 t) hx3 (iblk0 V c 4 t) hx4
      have e0 := runP1_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 3 t) (iblk0 V c 4 t) f0 f1 f2
      generalize runP1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 3 t) (iblk0 V c 4 t) f0 f1 f2 = R at e0
      obtain ⟨L2, hrun⟩ := R
      dsimp only at e0
      subst e0
      iapply (hrun Set.univ _)
      isplitl [H3]; · iexact H3
      isplitl [H4]; · iexact H4
      isplitl [HS0]; · iexact HS0
      isplitl [HS1]; · iexact HS1
      isplitl [HS2]; · iexact HS2
      iintro ⟨H3, H4, HS0, HS1, HS2⟩
      isplitl [HS0 HS1 HS2 HR Hg]
      · iexists f0; iexists f1; iexists _
        isplitl [HS0]; · iexact HS0
        isplitl [HS1]; · iexact HS1
        isplitl [HS2]
        · unfold owns; iexists _; isplitr
          swap; · iexact HS2
          ipureintro; rfl
        isplitl [HR]; · iexact HR
        isplitl [Hg]; · iexact Hg
        ipureintro
        exact hs
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · by_cases h24 : t.val < 24
      · -- phase 2
        have h16' : 16 ≤ t.val := by omega
        have c1 : ¬ k0_cond1 (grid0.coords t) = 1#1 := fun h => by have := hc1.mp h; omega
        have c2 : ¬ k0_cond2 (grid0.coords t) = 1#1 := fun h => by have := hc2.mp h; omega
        have c3 : k0_cond3 (grid0.coords t) = 1#1 := hc3.mpr ⟨h16', h24⟩
        have c4 : ¬ k0_cond4 (grid0.coords t) = 1#1 := fun h => by have := hc4.mp h; omega
        rw [Dat.leavesExact_idle (dat0 V c) 8 t (idleAt0_8 t (by omega)) (noFlush0_8 t (by omega))]
        unfold Phi0
        iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have hx5 : iblk0 V c 5 t = (opsOf V c).b2 := blk0_5 V c t
        have hx6 : iblk0 V c 6 t = (opsOf V c).W3 := blk0_6 V c t
        have hs := hI.step2 h16' h24 scM1 (Memref.isWhole_whole _) (k0_off5_inb (grid0.coords t) c3) (k0_off6_inb (grid0.coords t) c3) (off5 t h16' h24) (off6 t h16' h24) (iblk0 V c 5 t) hx5 (iblk0 V c 6 t) hx6
        have e0 := runP2_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 5 t) (iblk0 V c 6 t) f0 f1 f2
        generalize runP2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 5 t) (iblk0 V c 6 t) f0 f1 f2 = R at e0
        obtain ⟨L1, hrun⟩ := R
        dsimp only at e0
        subst e0
        iapply (hrun Set.univ _)
        isplitl [H5]; · iexact H5
        isplitl [H6]; · iexact H6
        isplitl [HS0]; · iexact HS0
        isplitl [HS1]; · iexact HS1
        isplitl [HS2]; · iexact HS2
        iintro ⟨H5, H6, HS0, HS2, HS1⟩
        isplitl [HS0 HS1 HS2 HR Hg]
        · iexists f0; iexists _; iexists f2
          isplitl [HS0]; · iexact HS0
          isplitl [HS1]
          · unfold owns; iexists _; isplitr
            swap; · iexact HS1
            ipureintro; rfl
          isplitl [HS2]; · iexact HS2
          isplitl [HR]; · iexact HR
          isplitl [Hg]; · iexact Hg
          ipureintro
          exact hs
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- phase 3
        have h24' : 24 ≤ t.val := by omega
        have c1 : ¬ k0_cond1 (grid0.coords t) = 1#1 := fun h => by have := hc1.mp h; omega
        have c2 : ¬ k0_cond2 (grid0.coords t) = 1#1 := fun h => by have := hc2.mp h; omega
        have c3 : ¬ k0_cond3 (grid0.coords t) = 1#1 := fun h => by have := hc3.mp h; omega
        have c4 : k0_cond4 (grid0.coords t) = 1#1 := hc4.mpr h24'
        rw [leaves0_8 V c t h24']
        unfold Phi0
        iintro ⟨⟨%f0, %f1, %f2, HS0, HS1, HS2, HR, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have hx7 : iblk0 V c 7 t = (opsOf V c).b3 := blk0_7 V c t
        have ho := hI.out3 h24' hN (k0_off7_inb (grid0.coords t) c4) (off7 t h24') (iblk0 V c 7 t) hx7
        have hsl : (⟨t.val - 24, by omega⟩ : Fin 8) = slabAt t := Fin.ext (by show t.val - 24 = t.val % 8; omega)
        rw [hsl] at ho
        have e0 := runP3_fst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 7 t) ((dat0 V c).before 8 t d8) f0 f1
        generalize runP3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) c1 c2 c3 c4 (iblk0 V c 7 t) ((dat0 V c).before 8 t d8) f0 f1 = R at e0
        obtain ⟨L9, hrun⟩ := R
        dsimp only at e0
        subst e0
        iapply (hrun Set.univ _)
        isplitl [H7]; · iexact H7
        isplitl [H8]; · iexact H8
        isplitl [HS0]; · iexact HS0
        isplitl [HS1]; · iexact HS1
        iintro ⟨H7, HS0, HS1, H9⟩
        isplitl [HS0 HS1 HS2 HR Hg]
        · iexists f0; iexists f1; iexists f2
          isplitl [HS0]; · iexact HS0
          isplitl [HS1]; · iexact HS1
          isplitl [HS2]; · iexact HS2
          isplitl [HR]; · iexact HR
          isplitl [Hg]; · iexact Hg
          ipureintro
          exact hI.step3 h24'
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns
        iexists _; isplitr
        swap; · iexact H9
        ipureintro
        rw [View.read_writes_eq_canon _ _ _ (cover9 _), View.canon_unit_zero hz2]
        exact ho

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0Flush.lean ====
import proofs.«133194_g38319698214914_cont_sun_m_1384_4_alg».proof.Proof.KI.Reg0Grid
import proofs.«133194_g38319698214914_cont_sun_m_1384_4_alg».proof.Proof.KI.K0Fun
import Idealize.ShloMosaic.Lib.Pipeline.Value
import Idealize.ShloMosaic.Lib.ValueIdx

/-!
What the first kernel leaves in its output array. The eight points of the last phase write back blocks `0 … 7` of 512
rows, which together are all 4096 rows; point `24 + b` writes slab `b` of the last propagation step, so the array ends
holding that step's whole result.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- A point that writes the output back lies in the last phase. -/
theorem last_of_flush0_8 (t : Fin cfg0.N) (hf : (cfg0.win 8).flush t = true) : 24 ≤ t.val := by
  by_contra hlt
  have h := noFlush0_8 t (by omega)
  rw [h] at hf
  exact Bool.noConfusion hf

/-- An index of the output array is in point `t`'s block iff each coordinate is in the block's range on its axis. -/
theorem mem_blk0_8 (t : Fin cfg0.N) (i : S4096x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v7).slice (win0_8.rect t)).set ↔ _
  rw [View.set_slice_whole, Rect.mem_set_unit]
  exact Iff.rfl

/-- Every row of the output array is in the block of a point of the last phase: row `r` in that of point `24 + r / 512`. -/
theorem cover0_8 (i : S4096x256.Idx) : ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 32 := N_0
  let t : Fin cfg0.N := ⟨24 + (i 0).val / 512, by rw [hN]; omega⟩
  have ht : t.val = 24 + (i 0).val / 512 := rfl
  obtain ⟨e0, e1⟩ := idx0_8 t
  refine ⟨t, flush0_8 t (by omega), ?_⟩
  rw [mem_blk0_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

section Flush
variable {c : Dev nD} (dat : Dat τ (Elt F) Unit ℕ (UR sig nD τ) ℕ cfg0 c)
  (Gb : Vec F S4096x4096 .bf16) (S : Vec F S4096x256 .bf16) (b3 : Vec F S1x256 .f32)

/-- What a point of the last phase writes back is its block of the whole last step. -/
theorem flushed0_8_eq (hafter : ∀ t : Fin cfg0.N, 24 ≤ t.val → dat.after 8 t = K0.outSlab Gb S b3 (K0.slabAt t))
    (t : Fin cfg0.N) (hf : (cfg0.win 8).flush t = true) :
    dat.flushed 8 t = ((cfg0.win 8).blk t).view.read (Elt F) (K0.h3 Gb S b3) := by
  have h24 : 24 ≤ t.val := last_of_flush0_8 t hf
  have hN : cfg0.N = 32 := N_0
  have htlt : t.val < 32 := hN ▸ t.isLt
  show (cfg0.win 8).cut (grid0.coords t) (dat.after 8 t) = _
  rw [hafter t h24]
  funext y
  show K0.outSlab Gb S b3 (K0.slabAt t) y = K0.h3 Gb S b3 (((cfg0.win 8).blk t).view.emb y)
  obtain ⟨e0, e1⟩ := idx0_8 t
  have hy0 : (y 0).val < 512 := (y 0).isLt
  have hy1 : (y 1).val < 256 := (y 1).isLt
  have c0 : ((((cfg0.win 8).blk t).view.emb y) 0).val = win0_8.index t (0 : Fin 2) * 512 + 1 * (y 0).val := rfl
  have c1 : ((((cfg0.win 8).blk t).view.emb y) 1).val = win0_8.index t (1 : Fin 2) * 256 + 1 * (y 1).val := rfl
  have hs : K0.slabOf ((((cfg0.win 8).blk t).view.emb y) 0) = K0.slabAt t := by
    apply Fin.ext; show ((((cfg0.win 8).blk t).view.emb y) 0).val / 512 = t.val % 8; omega
  have hr : K0.rowIn ((((cfg0.win 8).blk t).view.emb y) 0) = y 0 := by
    apply Fin.ext; show ((((cfg0.win 8).blk t).view.emb y) 0).val % 512 = (y 0).val; omega
  have hc : (((cfg0.win 8).blk t).view.emb y) 1 = y 1 := by
    apply Fin.ext; rw [c1]; omega
  unfold K0.h3
  rw [hs, hr, hc]
  exact congrArg _ (eq_ix2 y)

/-- The output array after the first kernel: the whole last step. -/
theorem arrAt0_8 (hafter : ∀ t : Fin cfg0.N, 24 ≤ t.val → dat.after 8 t = K0.outSlab Gb S b3 (K0.slabAt t)) :
    dat.arrAt 8 cfg0.N = K0.h3 Gb S b3 :=
  dat.arrAt_eq_of_cover 8 (K0.h3 Gb S b3) (fun t hf => flushed0_8_eq dat Gb S b3 hafter t hf) cover0_8

end Flush

end Cert.KernelIdeal.Hand

end
-- ==== Proof.KI.Reg1.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import proofs.«133194_g38319698214914_cont_sun_m_1384_4_alg».proof.Proof.KI.K0Fun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
The second kernel (the decoder `(HR · tW) · HDᵀ` over four blocks of 512 rows) as a region entered at arbitrary
contents `V` of the core's buffers. At each grid point the body reads the three input windows whole and overwrites the
output window with the one payload of the three; so after the body every input window holds its block and the output
window the payload of the input blocks. The proof data say exactly that, and the body obligation follows from the body's
triple.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's buffer, whole -/

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S2048x256 := Rect.unit (s := S2048x256) ![0, 0] S2048x256.size inb_S2048x256_S2048x256_0_0
abbrev r1_3 : Rect S512x2048 := Rect.unit (s := S512x2048) ![0, 0] S512x2048.size inb_S512x2048_S512x2048_0_0

/-! ## What the body leaves in the output window's buffer -/

/-- The output window's staging buffer after the body, from the input windows' blocks: its one store. -/
def out1_3 (x0 : Vec F S512x256 .bf16) (x1 : Vec F S256x256 .bf16) (x2 : Vec F S2048x256 .bf16) : Vec F S512x2048 .f32 :=
  View.canon [⟨r1_3, k1_pay1 (View.ld x0 r1_0) (View.ld x1 r1_1) (View.ld x2 r1_2)⟩]

/-- The one store is of the whole buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-- A whole-buffer load is the buffer and a whole-buffer store leaves its value: the output is the payload of the inputs. -/
theorem out1_3_eq (x0 : Vec F S512x256 .bf16) (x1 : Vec F S256x256 .bf16) (x2 : Vec F S2048x256 .bf16) :
    out1_3 x0 x1 x2 = k1_pay1 x0 x1 x2 := by
  unfold out1_3
  rw [View.canon_unit_zero K0.hz2, View.ld_unit_zero K0.hz2, View.ld_unit_zero K0.hz2, View.ld_unit_zero K0.hz2]

/-! ## The body's triple -/

set_option maxHeartbeats 4000000 in
/-- The kernel body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S512x256 .bf16) (harg1 : arg1.IsWhole) (arg2 : Memref sig .tc .vmem S256x256 .bf16) (harg2 : arg2.IsWhole) (arg3 : Memref sig .tc .vmem S2048x256 .bf16) (harg3 : arg3.IsWhole) (arg4 : Memref sig .tc .vmem S512x2048 .f32) (harg4 : arg4.IsWhole)
    (x0 : Vec F S512x256 .bf16) (x1 : Vec F S256x256 .bf16) (x2 : Vec F S2048x256 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__decoder_kernel i arg1 harg1 arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point `t`
    each input's buffer at its block and the output's at `out1_3` of the input blocks; the class's invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.K1Fun.lean ====
import proofs.«133194_g38319698214914_cont_sun_m_1384_4_alg».proof.Proof.Gen.KernelIdeal.Skeleton
import Idealize.ShloMosaic.Lib.Pipeline.FrameBody
import Idealize.ShloMosaic.Lib.ValueIdx

/-!
The second kernel, read as mathematics: four grid points, each taking a slab of 512 rows of `R` with the whole of `T`
and `D` to the matching slab of `(R·T)·Dᵀ`. The whole result is the function whose slab `r / 512` is the body's payload
on `R`'s slab, read at row `r % 512`.
-/

noncomputable section

namespace Cert.KernelIdeal.K1

open Cert.KernelIdeal Cert.KernelIdeal.Gen
open Idealize.ShloMosaic Idealize.ShloMosaic.TcCoe Idealize.ShloMosaic.ValueIdx Idealize.SL.Sem

variable {F : FTy → Type} [FloatOps F]

theorem inbR (b : Fin 4) : ∀ a, (![512 * b.val, 0] : Fin 2 → ℕ) a + S512x256.size a ≤ S2048x256.size a :=
  Fin.forall_fin_two.mpr ⟨by show 512 * b.val + 512 ≤ 2048; omega, by show 0 + 256 ≤ 256; omega⟩
theorem inbO (b : Fin 4) : ∀ a, (![512 * b.val, 0] : Fin 2 → ℕ) a + S512x2048.size a ≤ S2048x2048.size a :=
  Fin.forall_fin_two.mpr ⟨by show 512 * b.val + 512 ≤ 2048; omega, by show 0 + 2048 ≤ 2048; omega⟩

/-- Slab `b` (rows `512 b … 512 b + 511`) of a 2048×256 array and of the 2048×2048 result. -/
abbrev slabR (b : Fin 4) : Rect S2048x256 := Rect.unit (s := S2048x256) ![512 * b.val, 0] S512x256.size (inbR b)
abbrev slabO (b : Fin 4) : Rect S2048x2048 := Rect.unit (s := S2048x2048) ![512 * b.val, 0] S512x2048.size (inbO b)

/-- The slab a row lies in, and the row's place inside it. -/
def slabOf (r : Fin 2048) : Fin 4 := ⟨r.val / 512, by have := r.isLt; omega⟩
def rowIn (r : Fin 2048) : Fin 512 := ⟨r.val % 512, Nat.mod_lt _ (by decide)⟩

/-- `(R·T)·Dᵀ`, slab by slab. -/
def dec (R : Vec F S2048x256 .bf16) (T : Vec F S256x256 .bf16) (D : Vec F S2048x256 .bf16) : Vec F S2048x2048 .f32 := fun j =>
  k1_pay1 (View.ld R (slabR (slabOf (j 0)))) T D (ix2 (rowIn (j 0)) (j 1))

end Cert.KernelIdeal.K1

end
-- ==== Proof.KI.Reg1Flush.lean ====
import proofs.«133194_g38319698214914_cont_sun_m_1384_4_alg».proof.Proof.KI.Reg1
import proofs.«133194_g38319698214914_cont_sun_m_1384_4_alg».proof.Proof.KI.K1Fun
import Idealize.ShloMosaic.Lib.Pipeline.Value
import Idealize.ShloMosaic.Lib.ValueIdx

/-!
The result array after the second kernel's region, as one function.

The output window walks the result's four blocks of 512 rows in order, the first input window walks the same blocks of
its operand, and the other two input windows stay on their whole arrays. So the result array ends as the function whose
block `r / 512` is the body's payload of (that block of the first operand, the second operand, the third operand), read
at row `r % 512`.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

section Flush
variable (V : (c : Dev nD) → (b : Ref sig .tc) → Buf (Elt F) ((c : Thread nD τ).loc b))

/-- `K1.dec` at row `512 b + y₀` is the payload of block `b` at row `y₀`. -/
theorem dec_blk (HR : Vec F S2048x256 .bf16) (tW : Vec F S256x256 .bf16) (HD : Vec F S2048x256 .bf16) (b : Fin 4)
    (y : S512x2048.Idx) (i : S2048x2048.Idx) (hi0 : (i 0).val = 512 * b.val + (y 0).val) (hi1 : (i 1).val = (y 1).val) :
    K1.dec HR tW HD i = k1_pay1 (View.ld HR (K1.slabR b)) tW HD y := by
  have hy : (y 0).val < 512 := (y 0).isLt
  have hb : K1.slabOf (i 0) = b := Fin.ext (by show (i 0).val / 512 = b.val; omega)
  have hr : K1.rowIn (i 0) = y 0 := Fin.ext (by show (i 0).val % 512 = (y 0).val; omega)
  have h1 : i 1 = y 1 := Fin.ext hi1
  unfold K1.dec
  rw [hb, hr, h1]
  exact congrArg (k1_pay1 (View.ld HR (K1.slabR b)) tW HD) (eq_ix2 (n0 := 512) (n1 := 2048) y).symm

/-- The windows' block indices, decided over the four grid points. -/
theorem idx1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 ∧ t.val < 4 :=
  (by decide +kernel : ∀ t : Fin grid1.N, _)

/-- The first input window's block at point `t` is block `t` of its operand. -/
theorem blk1_0 (c : Dev nD) (t : Fin cfg1.N) (b : Fin 4) (hb : b.val = t.val) :
    iblk1 V c 0 t = View.ld (V c main_v12 : S2048x256.Idx → Elt F .bf16) (K1.slabR b) := by
  obtain ⟨e0, e1, -⟩ := idx1 t
  funext x
  unfold iblk1
  rw [View.read_apply]
  show V c main_v12 _ = V c main_v12 _
  congr 1
  funext a; apply Fin.ext
  match a with
  | ⟨0, _⟩ => show win1_0.index t (0 : Fin 2) * 512 + 1 * (x 0).val = 512 * b.val + 1 * (x 0).val; omega
  | ⟨1, _⟩ => show win1_0.index t (1 : Fin 2) * 256 + 1 * (x 1).val = 0 + 1 * (x 1).val; omega

/-- The second and third input windows' blocks are their whole operands at every point. -/
theorem blk1_1 (c : Dev nD) (t : Fin cfg1.N) : iblk1 V c 1 t = (V c main_v3 : S256x256.Idx → Elt F .bf16) := by
  obtain ⟨-, -, -, -, e0, e1, -⟩ := idx1 t
  funext x
  unfold iblk1
  rw [View.read_apply]
  show V c main_v3 _ = V c main_v3 x
  congr 1
  funext a; apply Fin.ext
  match a with
  | ⟨0, _⟩ => show win1_1.index t (0 : Fin 2) * 256 + 1 * (x 0).val = (x 0).val; omega
  | ⟨1, _⟩ => show win1_1.index t (1 : Fin 2) * 256 + 1 * (x 1).val = (x 1).val; omega
theorem blk1_2 (c : Dev nD) (t : Fin cfg1.N) : iblk1 V c 2 t = (V c main_v18 : S2048x256.Idx → Elt F .bf16) := by
  obtain ⟨-, -, -, -, -, -, e0, e1, -⟩ := idx1 t
  funext x
  unfold iblk1
  rw [View.read_apply]
  show V c main_v18 _ = V c main_v18 x
  congr 1
  funext a; apply Fin.ext
  match a with
  | ⟨0, _⟩ => show win1_2.index t (0 : Fin 2) * 2048 + 1 * (x 0).val = (x 0).val; omega
  | ⟨1, _⟩ => show win1_2.index t (1 : Fin 2) * 256 + 1 * (x 1).val = (x 1).val; omega

/-- What point `t` writes back is block `t` of `K1.dec` of the operands as the region finds them. -/
theorem flushed1_3_eq (c : Dev nD) (t : Fin cfg1.N) :
    (dat1 V c).flushed 3 t = ((cfg1.win 3).blk t).view.read (Elt F) (K1.dec (V c main_v12) (V c main_v3) (V c main_v18)) := by
  obtain ⟨-, -, e0, e1, -, -, -, -, ht⟩ := idx1 t
  show (cfg1.win 3).cut (grid1.coords t) ((dat1 V c).after 3 t) = _
  rw [after1_3, out1_3_eq, blk1_0 V c t ⟨t.val, ht⟩ rfl, blk1_1, blk1_2]
  funext y
  rw [View.read_apply]
  show k1_pay1 _ _ _ y = K1.dec _ _ _ (((cfg1.win 3).blk t).view.emb y)
  refine (dec_blk _ _ _ ⟨t.val, ht⟩ y _ ?_ ?_).symm
  · show win1_3.index t (0 : Fin 2) * 512 + 1 * (y 0).val = 512 * t.val + (y 0).val; omega
  · show win1_3.index t (1 : Fin 2) * 2048 + 1 * (y 1).val = (y 1).val; omega

/-- An index of the result array is in point `t`'s block iff each coordinate is in the block's range on its axis. -/
theorem mem_blk1_3 (t : Fin cfg1.N) (i : S2048x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v19).slice (win1_3.rect t)).set ↔ _
  rw [View.set_slice_whole, Rect.mem_set_unit]
  exact Iff.rfl

/-- Row `r` of the result array is in the block of point `r / 512`, which is written back. -/
theorem covered1_3 (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  have hN : cfg1.N = 4 := N_1
  obtain ⟨t, htv⟩ : ∃ t : Fin cfg1.N, t.val = (i 0).val / 512 := ⟨⟨(i 0).val / 512, by rw [hN]; omega⟩, rfl⟩
  obtain ⟨-, -, e0, e1, -⟩ := idx1 t
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- THE RESULT ARRAY after the region: `K1.dec` of the three operands as the region finds them. -/
theorem arrAt1_3 (c : Dev nD) :
    (dat1 V c).arrAt 3 cfg1.N = K1.dec (V c main_v12) (V c main_v3) (V c main_v18) :=
  (dat1 V c).arrAt_eq_of_cover 3 (K1.dec (V c main_v12) (V c main_v3) (V c main_v18)) (fun t _ => flushed1_3_eq V c t) covered1_3

end Flush

end Cert.KernelIdeal.Hand

end
-- ==== Proof.KI.Frame.lean ====
import proofs.«133194_g38319698214914_cont_sun_m_1384_4_alg».proof.Proof.Gen.KernelIdeal.Launch
import proofs.«133194_g38319698214914_cont_sun_m_1384_4_alg».proof.Proof.Gen.KernelIdeal.Skeleton
import proofs.«133194_g38319698214914_cont_sun_m_1384_4_alg».proof.Proof.Gen.KernelIdeal.Points
import proofs.«133194_g38319698214914_cont_sun_m_1384_4_alg».proof.Proof.Gen.KernelIdeal.Regions
import proofs.«133194_g38319698214914_cont_sun_m_1384_4_alg».proof.Proof.KI.Reg0Body
import proofs.«133194_g38319698214914_cont_sun_m_1384_4_alg».proof.Proof.KI.Reg0Flush
import proofs.«133194_g38319698214914_cont_sun_m_1384_4_alg».proof.Proof.KI.Reg1
import proofs.«133194_g38319698214914_cont_sun_m_1384_4_alg».proof.Proof.KI.Reg1Flush
import proofs.«133194_g38319698214914_cont_sun_m_1384_4_alg».proof.Proof.KI.K1Fun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The whole program from launch to return. It is four stretches in order: host operations (the weights rounded, the bias
vectors reshaped to rows), the first kernel, host operations (the two windows of 2048 rows cut out of the first kernel's
result), the second kernel. The contents of a core's buffers at the five boundaries are a fold from the launch memory:
a host stretch changes the buffers its operations write, a kernel changes its result array and nothing else that
outlives it. Read at the end, that fold gives: every argument array as launched, the first kernel's result the whole
last propagation step of its operands, the second kernel's result the decoder of its operands.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.K0

variable {F : FTy → Type} [FloatOps F]

local notation "𝕄" => MT nD τ sig Unit (Elt F) ℕ (UR sig nD τ) ℕ

section Around
variable (V : (c : Dev nD) → (b : Ref sig .tc) → Buf (Elt F) ((c : Thread nD τ).loc b))

/-- Holding a whole buffer at contents `f` is owning the whole-buffer reference at `f`, and conversely. -/
theorem sc_in (c : Dev nD) (b : Ref sig .tc) (f : b.ty.Contents (Elt F)) :
    ((((c : Thread nD τ).loc b) ↦{fullShare} f) : sProp 𝕄) ⊢ owns (c : Thread nD τ) (Memref.whole b) fullShare f := by
  rw [owns_whole (c : Thread nD τ) b fullShare f]
theorem sc_out (c : Dev nD) (b : Ref sig .tc) (f : b.ty.Contents (Elt F)) :
    (owns (c : Thread nD τ) (Memref.whole b) fullShare f : sProp 𝕄) ⊢ (((c : Thread nD τ).loc b) ↦{fullShare} f) := by
  rw [owns_whole (c : Thread nD τ) b fullShare f]

/-- Before the first grid point nothing is asked of the scratch buffers: the first kernel's state between points is made
    from the generator register and the scoped buffers no window stages, whatever they hold. -/
theorem Phi0_in (c : Dev nD) :
    (iprop((∃ r, prngReg c r) ∗ Pipeline.scopedRest (Ix := Unit) (Name := ℕ) (U := UR sig nD τ) (Lvl := ℕ) (Val := Elt F) spec0 c) : sProp 𝕄)
      ⊢ Phi0 V c 0 := by
  rw [scopedRest0_eq]
  unfold Phi0 Six
  iintro ⟨Hp, ⟨%f0, H0⟩, ⟨%f1, H1⟩, ⟨%f2, H2⟩, Hsix⟩
  iexists f0; iexists f1; iexists f2
  isplitl [H0]; · iapply (sc_in c cc0_scratch0 f0); iexact H0
  isplitl [H1]; · iapply (sc_in c cc0_scratch1 f1); iexact H1
  isplitl [H2]; · iapply (sc_in c cc0_scratch2 f2); iexact H2
  isplitl [Hsix]; · iexact Hsix
  isplitl [Hp]; · iexact Hp
  ipureintro; exact Inv_zero _ _ _ _

/-- After any number of points the state gives the same resources back, the scratch buffers' contents forgotten. -/
theorem Phi0_out (c : Dev nD) (n : ℕ) :
    (Phi0 V c n : sProp 𝕄)
      ⊢ iprop((∃ r, prngReg c r) ∗ Pipeline.scopedRest (Ix := Unit) (Name := ℕ) (U := UR sig nD τ) (Lvl := ℕ) (Val := Elt F) spec0 c) := by
  rw [scopedRest0_eq]
  unfold Phi0 Six
  iintro ⟨%f0, %f1, %f2, H0, H1, H2, Hsix, Hp, -⟩
  isplitl [Hp]; · iexact Hp
  isplitl [H0]; · iexists f0; iapply (sc_out c cc0_scratch0 f0); iexact H0
  isplitl [H1]; · iexists f1; iapply (sc_out c cc0_scratch1 f1); iexact H1
  isplitl [H2]; · iexists f2; iapply (sc_out c cc0_scratch2 f2); iexact H2
  iexact Hsix

end Around

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W2_main_v7 (c : Dev nD) : W2 m ρ c (Proc.devRef .tc main_v7) = (opsOf (V1 m ρ) c).h3 :=
  (W2_arr m ρ c 8).trans
    (arrAt0_8 (dat0 (V1 m ρ) c) (opsOf (V1 m ρ) c).gb (opsOf (V1 m ρ) c).s3 (opsOf (V1 m ρ) c).b3 (fun t _ => after0_8 (V1 m ρ) c t))

theorem W4_main_v19 (c : Dev nD) :
    W4 m ρ c (Proc.devRef .tc main_v19) = K1.dec (V3 m ρ c main_v12) (V3 m ρ c main_v3) (V3 m ρ c main_v18) :=
  (W4_arr m ρ c 3).trans (arrAt1_3 (V3 m ρ) c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    iintro ⟨Hp, -, Hr⟩
    iapply (Phi0_in (V1 m ρ) c)
    isplitl [Hp]; · iexact Hp
    iexact Hr
  hout c := by
    rw [Pipeline.ownSems0_none, show (pdats m ρ 0 c).Φ (Fin.last _) = Phi0 (V1 m ρ) c cfg0.N from rfl]
    have hgive := Phi0_out (V1 m ρ) c cfg0.N
    iintro H
    ihave H' := hgive $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

/-!
The graph-convolution decoder on the extended reals, as one function of its arguments.

`S1 = H·W1`; `L1 = leaky(G·S1 + b1)`; `S2 = L1·W2`; `L2 = leaky(G·S2 + b2)`; `S3 = L2·W3`; `h = leaky(G·S3 + b3)`;
then with `R` and `D` two windows of 2048 consecutive rows of `h`, the result is `(R·T)·Dᵀ`.
Every product is a finite sum of products of extended reals, every sum taken in the one order the index type gives:
nothing here needs an argument to be finite.
-/

noncomputable section

namespace Cert.Spec

open Idealize.ShloMosaic

/-- `x` where `0 ≤ x`, a quarter of `x` elsewhere; zero and the quarter are the two float literals both programs print. -/
def leaky (x : EReal) : EReal :=
  Scalar.select (Ideal.cmp .oge x (Ideal.ofBits .f32 0x00000000#32)) x (Ideal.ofBits .f32 0x3E800000#32 * x)

/-- A matrix product, entry by entry. -/
def mm {a k b : ℕ} (A : Fin a → Fin k → EReal) (B : Fin k → Fin b → EReal) : Fin a → Fin b → EReal :=
  fun p q => ∑ j : Fin k, A p j * B j q

/-- One propagation: `leaky(G·S + b)`. -/
def layer (G : Fin 4096 → Fin 4096 → EReal) (S : Fin 4096 → Fin 256 → EReal) (b : Fin 256 → EReal) :
    Fin 4096 → Fin 256 → EReal := fun r q => leaky (mm G S r q + b q)

/-- The three supports and the last activation. -/
def S1 (H : Fin 4096 → Fin 512 → EReal) (W1 : Fin 512 → Fin 256 → EReal) : Fin 4096 → Fin 256 → EReal := mm H W1
def S2 (G : Fin 4096 → Fin 4096 → EReal) (H : Fin 4096 → Fin 512 → EReal) (W1 : Fin 512 → Fin 256 → EReal) (b1 : Fin 256 → EReal)
    (W2 : Fin 256 → Fin 256 → EReal) : Fin 4096 → Fin 256 → EReal := mm (layer G (S1 H W1) b1) W2
def S3 (G : Fin 4096 → Fin 4096 → EReal) (H : Fin 4096 → Fin 512 → EReal) (W1 : Fin 512 → Fin 256 → EReal) (b1 : Fin 256 → EReal)
    (W2 : Fin 256 → Fin 256 → EReal) (b2 : Fin 256 → EReal) (W3 : Fin 256 → Fin 256 → EReal) : Fin 4096 → Fin 256 → EReal :=
  mm (layer G (S2 G H W1 b1 W2) b2) W3
def hid (G : Fin 4096 → Fin 4096 → EReal) (H : Fin 4096 → Fin 512 → EReal) (W1 : Fin 512 → Fin 256 → EReal) (b1 : Fin 256 → EReal)
    (W2 : Fin 256 → Fin 256 → EReal) (b2 : Fin 256 → EReal) (W3 : Fin 256 → Fin 256 → EReal) (b3 : Fin 256 → EReal) :
    Fin 4096 → Fin 256 → EReal := layer G (S3 G H W1 b1 W2 b2 W3) b3

/-- The bilinear decoder `(R·T)·Dᵀ`. -/
def dec (R : Fin 2048 → Fin 256 → EReal) (T : Fin 256 → Fin 256 → EReal) (D : Fin 2048 → Fin 256 → EReal) :
    Fin 2048 → Fin 2048 → EReal := fun p q => ∑ k : Fin 256, (∑ j : Fin 256, R p j * T j k) * D q k

end Cert.Spec

end
-- ==== Proof.RefValue.lean ====
import proofs.«133194_g38319698214914_cont_sun_m_1384_4_alg».proof.Proof.RefRead
import proofs.«133194_g38319698214914_cont_sun_m_1384_4_alg».proof.Proof.Spec
import Idealize.ShloMosaic.PureOps.Ideal.Laws
import Idealize.ShloMosaic.Lib.ValueIdx
import Idealize.ShloMosaic.Lib.ValueLayout
import Idealize.ShloMosaic.Lib.Pipeline.Value

/-!
The reference's arrays on the extended reals, entry by entry, are the specification's: the three supports, the three
activations, and the bilinear decoder of two blocks of rows.
-/

noncomputable section

namespace Cert.ReferenceIdeal.RefValue

open Cert.ReferenceIdeal Cert.ReferenceIdeal.Gen Cert.ReferenceIdeal.ReadP Idealize.ShloMosaic Idealize.ShloMosaic.ValueIdx

/-! ### The index functions of the products and the broadcasts, at an index given by its coordinates -/

theorem lidx0 (r : Fin 4096) (q : Fin 256) (k : Fin 512) : lidx_main_v0 (ix2 r q) k = ix2 r k :=
  funext fun a => Fin.ext (by match a with | ⟨0, _⟩ => rfl | ⟨1, _⟩ => rfl)
theorem ridx0 (r : Fin 4096) (q : Fin 256) (k : Fin 512) : ridx_main_v0 (ix2 r q) k = ix2 k q :=
  funext fun a => Fin.ext (by match a with | ⟨0, _⟩ => rfl | ⟨1, _⟩ => rfl)
theorem lidx1 (r : Fin 4096) (q : Fin 256) (k : Fin 4096) : lidx_main_v1 (ix2 r q) k = ix2 r k :=
  funext fun a => Fin.ext (by match a with | ⟨0, _⟩ => rfl | ⟨1, _⟩ => rfl)
theorem ridx1 (r : Fin 4096) (q : Fin 256) (k : Fin 4096) : ridx_main_v1 (ix2 r q) k = ix2 k q :=
  funext fun a => Fin.ext (by match a with | ⟨0, _⟩ => rfl | ⟨1, _⟩ => rfl)
theorem bidx3 (r : Fin 4096) (q : Fin 256) : idx_main_v2 (idx_main_v3 (ix2 r q)) = ix1 q :=
  funext fun a => Fin.ext (by match a with | ⟨0, _⟩ => rfl)
theorem lidx10 (r : Fin 4096) (q : Fin 256) (k : Fin 256) : lidx_main_v10 (ix2 r q) k = ix2 r k :=
  funext fun a => Fin.ext (by match a with | ⟨0, _⟩ => rfl | ⟨1, _⟩ => rfl)
theorem ridx10 (r : Fin 4096) (q : Fin 256) (k : Fin 256) : ridx_main_v10 (ix2 r q) k = ix2 k q :=
  funext fun a => Fin.ext (by match a with | ⟨0, _⟩ => rfl | ⟨1, _⟩ => rfl)
theorem lidx11 (r : Fin 4096) (q : Fin 256) (k : Fin 4096) : lidx_main_v11 (ix2 r q) k = ix2 r k :=
  funext fun a => Fin.ext (by match a with | ⟨0, _⟩ => rfl | ⟨1, _⟩ => rfl)
theorem ridx11 (r : Fin 4096) (q : Fin 256) (k : Fin 4096) : ridx_main_v11 (ix2 r q) k = ix2 k q :=
  funext fun a => Fin.ext (by match a with | ⟨0, _⟩ => rfl | ⟨1, _⟩ => rfl)
theorem bidx13 (r : Fin 4096) (q : Fin 256) : idx_main_v12 (idx_main_v13 (ix2 r q)) = ix1 q :=
  funext fun a => Fin.ext (by match a with | ⟨0, _⟩ => rfl)
theorem lidx20 (r : Fin 4096) (q : Fin 256) (k : Fin 256) : lidx_main_v20 (ix2 r q) k = ix2 r k :=
  funext fun a => Fin.ext (by match a with | ⟨0, _⟩ => rfl | ⟨1, _⟩ => rfl)
theorem ridx20 (r : Fin 4096) (q : Fin 256) (k : Fin 256) : ridx_main_v20 (ix2 r q) k = ix2 k q :=
  funext fun a => Fin.ext (by match a with | ⟨0, _⟩ => rfl | ⟨1, _⟩ => rfl)
theorem lidx21 (r : Fin 4096) (q : Fin 256) (k : Fin 4096) : lidx_main_v21 (ix2 r q) k = ix2 r k :=
  funext fun a => Fin.ext (by match a with | ⟨0, _⟩ => rfl | ⟨1, _⟩ => rfl)
theorem ridx21 (r : Fin 4096) (q : Fin 256) (k : Fin 4096) : ridx_main_v21 (ix2 r q) k = ix2 k q :=
  funext fun a => Fin.ext (by match a with | ⟨0, _⟩ => rfl | ⟨1, _⟩ => rfl)
theorem bidx23 (r : Fin 4096) (q : Fin 256) : idx_main_v22 (idx_main_v23 (ix2 r q)) = ix1 q :=
  funext fun a => Fin.ext (by match a with | ⟨0, _⟩ => rfl)

/-- A propagation's entry from its two summands. -/
theorem layer_of (G : Fin 4096 → Fin 4096 → EReal) (S : Fin 4096 → Fin 256 → EReal) (b : Fin 256 → EReal) (r : Fin 4096) (q : Fin 256)
    (s t : EReal) (hs : s = Cert.Spec.mm G S r q) (ht : t = b q) : Cert.Spec.leaky (s + t) = Cert.Spec.layer G S b r q := by
  subst hs ht; rfl

/-- A product's entry from its summands. -/
theorem mm_of {k : ℕ} (A : Fin 4096 → Fin k → EReal) (B : Fin k → Fin 256 → EReal) (r : Fin 4096) (q : Fin 256)
    (f : Fin k → EReal) (h : ∀ j, f j = A r j * B j q) : ∑ j, f j = Cert.Spec.mm A B r q :=
  Finset.sum_congr rfl fun j _ => h j

/-! ### The first layer -/

/-- The first support: `H·W1`. -/
theorem ref_S1 (x0 : (⟨S4096x512, .f32⟩ : BufTy).Contents (Elt Ideal)) (x2 : (⟨S512x256, .f32⟩ : BufTy).Contents (Elt Ideal)) (r : Fin 4096) (q : Fin 256) :
    val_main_v0 (F := Ideal) x0 x2 (ix2 r q) = Cert.Spec.S1 (fun r k => x0 (ix2 r k)) (fun j q => x2 (ix2 j q)) r q := by
  rw [val_main_v0_apply]
  exact mm_of _ _ r q _ fun k => by simp only [lidx0, ridx0]

/-- The select of the first activation is `leaky` of the sum before it. -/
theorem ref_act1 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (i : S4096x256.Idx) :
    val_main_v9 (F := Ideal) x0 x1 x2 x3 i = Cert.Spec.leaky (val_main_v4 (F := Ideal) x0 x1 x2 x3 i) := by
  rw [val_main_v9_apply, val_main_v6_apply, val_main_v8_apply, val_main_v5_apply, val_main_v7_apply, val_main_cst_apply, val_main_cst_0_apply]
  rfl

/-- The first activation: `leaky(G·S1 + b1)`. -/
theorem ref_L1 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (r : Fin 4096) (q : Fin 256) :
    val_main_v9 (F := Ideal) x0 x1 x2 x3 (ix2 r q) = Cert.Spec.layer (fun r k => x1 (ix2 r k)) (Cert.Spec.S1 (fun r k => x0 (ix2 r k)) (fun j q => x2 (ix2 j q))) (fun q => x3 (ix1 q)) r q := by
  rw [ref_act1, val_main_v4_apply]
  refine layer_of _ _ _ r q _ _ ?_ ?_
  · rw [val_main_v1_apply]
    exact Finset.sum_congr rfl fun k _ => by rw [lidx1, ridx1, ref_S1]
  · rw [val_main_v3_apply, val_main_v2_apply, bidx3]

/-! ### The second layer -/

/-- The second support: `L1·W2`. -/
theorem ref_S2 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (r : Fin 4096) (q : Fin 256) :
    val_main_v10 (F := Ideal) x0 x1 x2 x3 x4 (ix2 r q) = Cert.Spec.S2 (fun r k => x1 (ix2 r k)) (fun r k => x0 (ix2 r k)) (fun j q => x2 (ix2 j q)) (fun q => x3 (ix1 q)) (fun j q => x4 (ix2 j q)) r q := by
  rw [val_main_v10_apply]
  exact mm_of _ _ r q _ fun k => by simp only [lidx10, ridx10, ref_L1]

theorem ref_act2 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (i : S4096x256.Idx) :
    val_main_v19 (F := Ideal) x0 x1 x2 x3 x4 x5 i = Cert.Spec.leaky (val_main_v14 (F := Ideal) x0 x1 x2 x3 x4 x5 i) := by
  rw [val_main_v19_apply, val_main_v16_apply, val_main_v18_apply, val_main_v15_apply, val_main_v17_apply, val_main_cst_1_apply, val_main_cst_2_apply]
  rfl

/-- The second activation: `leaky(G·S2 + b2)`. -/
theorem ref_L2 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (r : Fin 4096) (q : Fin 256) :
    val_main_v19 (F := Ideal) x0 x1 x2 x3 x4 x5 (ix2 r q)
      = Cert.Spec.layer (fun r k => x1 (ix2 r k)) (Cert.Spec.S2 (fun r k => x1 (ix2 r k)) (fun r k => x0 (ix2 r k)) (fun j q => x2 (ix2 j q)) (fun q => x3 (ix1 q)) (fun j q => x4 (ix2 j q))) (fun q => x5 (ix1 q)) r q := by
  rw [ref_act2, val_main_v14_apply]
  refine layer_of _ _ _ r q _ _ ?_ ?_
  · rw [val_main_v11_apply]
    exact Finset.sum_congr rfl fun k _ => by rw [lidx11, ridx11, ref_S2]
  · rw [val_main_v13_apply, val_main_v12_apply, bidx13]

/-! ### The third layer -/

/-- The third support: `L2·W3`. -/
theorem ref_S3 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (r : Fin 4096) (q : Fin 256) :
    val_main_v20 (F := Ideal) x0 x1 x2 x3 x4 x5 x6 (ix2 r q)
      = Cert.Spec.S3 (fun r k => x1 (ix2 r k)) (fun r k => x0 (ix2 r k)) (fun j q => x2 (ix2 j q)) (fun q => x3 (ix1 q)) (fun j q => x4 (ix2 j q)) (fun q => x5 (ix1 q)) (fun j q => x6 (ix2 j q)) r q := by
  rw [val_main_v20_apply]
  exact mm_of _ _ r q _ fun k => by simp only [lidx20, ridx20, ref_L2]

theorem ref_act3 (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (i : S4096x256.Idx) :
    val_main_v29 (F := Ideal) x0 x1 x2 x3 x4 x5 x6 x7 i = Cert.Spec.leaky (val_main_v24 (F := Ideal) x0 x1 x2 x3 x4 x5 x6 x7 i) := by
  rw [val_main_v29_apply, val_main_v26_apply, val_main_v28_apply, val_main_v25_apply, val_main_v27_apply, val_main_cst_3_apply, val_main_cst_4_apply]
  rfl

/-- The last activation: `leaky(G·S3 + b3)`, the hidden array both decoders read. -/
theorem ref_hid (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (r : Fin 4096) (q : Fin 256) :
    val_main_v29 (F := Ideal) x0 x1 x2 x3 x4 x5 x6 x7 (ix2 r q)
      = Cert.Spec.hid (fun r k => x1 (ix2 r k)) (fun r k => x0 (ix2 r k)) (fun j q => x2 (ix2 j q)) (fun q => x3 (ix1 q)) (fun j q => x4 (ix2 j q)) (fun q => x5 (ix1 q)) (fun j q => x6 (ix2 j q)) (fun q => x7 (ix1 q)) r q := by
  rw [ref_act3, val_main_v24_apply]
  refine layer_of _ _ _ r q _ _ ?_ ?_
  · rw [val_main_v21_apply]
    exact Finset.sum_congr rfl fun k _ => by rw [lidx21, ridx21, ref_S3]
  · rw [val_main_v23_apply, val_main_v22_apply, bidx23]

/-! ### The decoder -/

/-- The product of a block of rows by the square matrix, entry by entry, for any block. -/
theorem dotRT (y0 : (⟨S2048x256, .f32⟩ : BufTy).Contents (Elt Ideal)) (x8 : (⟨S256x256, .f32⟩ : BufTy).Contents (Elt Ideal)) (i : S2048x256.Idx) :
    Host.dotGeneral (F := Ideal) (φ₁ := .f32) (φ₂ := .f32) dot_S2048x256_S256x256_S2048x256_1_0_0_1_n_n none y0 x8 i = ∑ k : Fin 256, y0 (lidx_main_v41 i k) * x8 (ridx_main_v41 i k) := by
  simp only [Host.dotGeneral]
  rw [Ideal.dotGeneral_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx i ((ValueIdx.contrEquiv1 dot_S2048x256_S256x256_S2048x256_1_0_0_1_n_n 256 rfl rfl).symm k) = lidx_main_v41 i k := funext fun a => Fin.ext (by
    match a with
    | ⟨0, _⟩ => exact lhs_main_v41_0 _ _
    | ⟨1, _⟩ => exact (lhs_main_v41_1 _ _).trans hk)
  have er : dot_S2048x256_S256x256_S2048x256_1_0_0_1_n_n.rhsIdx i ((ValueIdx.contrEquiv1 dot_S2048x256_S256x256_S2048x256_1_0_0_1_n_n 256 rfl rfl).symm k) = ridx_main_v41 i k := funext fun a => Fin.ext (by
    match a with
    | ⟨0, _⟩ => exact (rhs_main_v41_0 _ _).trans hk
    | ⟨1, _⟩ => exact rhs_main_v41_1 _ _)
  rw [el, er]

/-- The product by a transposed block, entry by entry, for any two operands. -/
theorem dotMD (y0 : (⟨S2048x256, .f32⟩ : BufTy).Contents (Elt Ideal)) (y1 : (⟨S256x2048, .f32⟩ : BufTy).Contents (Elt Ideal)) (i : S2048x2048.Idx) :
    Host.dotGeneral (F := Ideal) (φ₁ := .f32) (φ₂ := .f32) dot_S2048x256_S256x2048_S2048x2048_1_0_0_1_n_n none y0 y1 i = ∑ k : Fin 256, y0 (lidx_main_v43 i k) * y1 (ridx_main_v43 i k) := by
  simp only [Host.dotGeneral]
  rw [Ideal.dotGeneral_apply, ← Equiv.sum_comp (ValueIdx.contrEquiv1 dot_S2048x256_S256x2048_S2048x2048_1_0_0_1_n_n 256 rfl rfl).symm]
  refine Finset.sum_congr rfl fun k _ => ?_
  have hk := ValueIdx.contrEquiv1_symm_val dot_S2048x256_S256x2048_S2048x2048_1_0_0_1_n_n 256 rfl rfl k
  have el : dot_S2048x256_S256x2048_S2048x2048_1_0_0_1_n_n.lhsIdx i ((ValueIdx.contrEquiv1 dot_S2048x256_S256x2048_S2048x2048_1_0_0_1_n_n 256 rfl rfl).symm k) = lidx_main_v43 i k := funext fun a => Fin.ext (by
    match a with
    | ⟨0, _⟩ => exact lhs_main_v43_0 _ _
    | ⟨1, _⟩ => exact (lhs_main_v43_1 _ _).trans hk)
  have er : dot_S2048x256_S256x2048_S2048x2048_1_0_0_1_n_n.rhsIdx i ((ValueIdx.contrEquiv1 dot_S2048x256_S256x2048_S2048x2048_1_0_0_1_n_n 256 rfl rfl).symm k) = ridx_main_v43 i k := funext fun a => Fin.ext (by
    match a with
    | ⟨0, _⟩ => exact (rhs_main_v43_0 _ _).trans hk
    | ⟨1, _⟩ => exact rhs_main_v43_1 _ _)
  rw [el, er]

/-- A transposed block at an index. -/
theorem transD (y : (⟨S2048x256, .f32⟩ : BufTy).Contents (Elt Ideal)) (i : S256x2048.Idx) :
    transpose S256x2048 [1, 0] y transposes_S2048x256_S256x2048_1_0 i = y (idx_main_v42 i) :=
  transpose_apply [1, 0] y transposes_S2048x256_S256x2048_1_0 i (idx_main_v42 i) (fun b => match b with
    | ⟨0, _⟩ => rfl
    | ⟨1, _⟩ => rfl)

theorem lidx41 (p : Fin 2048) (q : Fin 256) (k : Fin 256) : lidx_main_v41 (ix2 p q) k = ix2 p k :=
  funext fun a => Fin.ext (by match a with | ⟨0, _⟩ => rfl | ⟨1, _⟩ => rfl)
theorem ridx41 (p : Fin 2048) (q : Fin 256) (k : Fin 256) : ridx_main_v41 (ix2 p q) k = ix2 k q :=
  funext fun a => Fin.ext (by match a with | ⟨0, _⟩ => rfl | ⟨1, _⟩ => rfl)
theorem lidx43 (p q : Fin 2048) (k : Fin 256) : lidx_main_v43 (ix2 p q) k = ix2 p k :=
  funext fun a => Fin.ext (by match a with | ⟨0, _⟩ => rfl | ⟨1, _⟩ => rfl)
theorem ridx43 (p q : Fin 2048) (k : Fin 256) : ridx_main_v43 (ix2 p q) k = ix2 k q :=
  funext fun a => Fin.ext (by match a with | ⟨0, _⟩ => rfl | ⟨1, _⟩ => rfl)
theorem idx42 (k : Fin 256) (q : Fin 2048) : idx_main_v42 (ix2 k q) = ix2 q k :=
  funext fun a => Fin.ext (by match a with | ⟨0, _⟩ => rfl | ⟨1, _⟩ => rfl)

/-- The decoder of two blocks `R`, `D` of rows: `(R·T)·Dᵀ`, entry by entry. -/
theorem ref_dec (R D : (⟨S2048x256, .f32⟩ : BufTy).Contents (Elt Ideal)) (x8 : (⟨S256x256, .f32⟩ : BufTy).Contents (Elt Ideal)) (p q : Fin 2048) :
    Host.dotGeneral (F := Ideal) (φ₁ := .f32) (φ₂ := .f32) dot_S2048x256_S256x2048_S2048x2048_1_0_0_1_n_n none
        (Host.dotGeneral (F := Ideal) (φ₁ := .f32) (φ₂ := .f32) dot_S2048x256_S256x256_S2048x256_1_0_0_1_n_n none R x8)
        (transpose S256x2048 [1, 0] D transposes_S2048x256_S256x2048_1_0) (ix2 p q)
      = Cert.Spec.dec (fun p j => R (ix2 p j)) (fun j k => x8 (ix2 j k)) (fun q k => D (ix2 q k)) p q := by
  rw [dotMD]
  refine Finset.sum_congr rfl fun k _ => ?_
  rw [lidx43, ridx43, transD, idx42, dotRT]
  refine congrArg (· * D (ix2 q k)) (Finset.sum_congr rfl fun j _ => ?_)
  rw [lidx41, ridx41]

/-- The reference's result is the decoder of its two dynamic row slices of the hidden array. -/
theorem val_main_v43_unfold (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 x10 : (⟨S_, .i32⟩ : BufTy).Contents (Elt Ideal)) :
    val_main_v43 (F := Ideal) x0 x1 x2 x3 x4 x5 x6 x7 x8 x9 x10
      = Host.dotGeneral (F := Ideal) (φ₁ := .f32) (φ₂ := .f32) dot_S2048x256_S256x2048_S2048x2048_1_0_0_1_n_n none
          (Host.dotGeneral (F := Ideal) (φ₁ := .f32) (φ₂ := .f32) dot_S2048x256_S256x256_S2048x256_1_0_0_1_n_n none (val_main_v34 (F := Ideal) x0 x1 x2 x3 x4 x5 x6 x7 x9) x8)
          (transpose S256x2048 [1, 0] (val_main_v40 (F := Ideal) x0 x1 x2 x3 x4 x5 x6 x7 x9 x10) transposes_S2048x256_S256x2048_1_0) := by
  unfold val_main_v43 val_main_v41 val_main_v42
  rfl

end Cert.ReferenceIdeal.RefValue

end
-- ==== Proof.RefRun.lean ====
import proofs.«133194_g38319698214914_cont_sun_m_1384_4_alg».proof.Proof.Gen.ReferenceIdeal
import Idealize.ShloMosaic.Lib.StableHlo.Run
import proofs.«133194_g38319698214914_cont_sun_m_1384_4_alg».proof.Proof.RefRead

/-!
The reference's @main is a straight line of 58 host operations. On every device, for any float values, from any memory
with zero counters, every weakly fair execution of it terminates; the result buffer then holds the value the operations
compose from the eleven arguments' launch contents (`ReadP.val_main_v43` of them), and the eleven arguments are unchanged.

The line is taken in four stretches: three propagations of twelve operations each (the product by the weights, the
product by the graph matrix, the bias, the activation), then the twenty-two operations that wrap the two row offsets,
cut the two windows of 2048 rows out of the hidden array and form the decoder. Each stretch is read over arbitrary
contents: what it leaves in its last buffer as a function of the buffers it reads, and that it writes none of the
eleven arguments. The four readings are then chained.
-/

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 58 operations, in order (a called function's operations stand in its call's place, spelt `TRef.…`). -/
abbrev ops : List (HloOp τ sig (Elt F)) :=
  [ binary main_arg0 main_arg2 main_v0 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    binary main_arg1 main_v0 main_v1 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S4096x256 ![0, 1] bcast_S1x256_S4096x256_0_1 : (⟨S1x256, .f32⟩ : BufTy).Contents (Elt F) → (⟨S4096x256, .f32⟩ : BufTy).Contents (Elt F)),
    binary main_v1 main_v3 main_v4 (addf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    unary main_cst main_v5 (broadcastInDim S4096x256 ![] bcast_S_S4096x256 : (⟨S_, .f32⟩ : BufTy).Contents (Elt F) → (⟨S4096x256, .f32⟩ : BufTy).Contents (Elt F)),
    binary main_v4 main_v5 main_v6 (cmpf .oge : (⟨S4096x256, .f32⟩ : BufTy).Contents (Elt F) → (⟨S4096x256, .f32⟩ : BufTy).Contents (Elt F) → (⟨S4096x256, .i1⟩ : BufTy).Contents (Elt F)),
    nullary main_cst_0 (constant S_ .f32 0x3E800000#32),
    unary main_cst_0 main_v7 (broadcastInDim S4096x256 ![] bcast_S_S4096x256 : (⟨S_, .f32⟩ : BufTy).Contents (Elt F) → (⟨S4096x256, .f32⟩ : BufTy).Contents (Elt F)),
    binary main_v7 main_v4 main_v8 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v6) (TRef.of (T := ⟨S4096x256, .f32⟩) main_v4) (TRef.of (T := ⟨S4096x256, .f32⟩) main_v8) (TRef.of (T := ⟨S4096x256, .f32⟩) main_v9) select,
    binary main_v9 main_arg4 main_v10 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_arg1 main_v10 main_v11 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg5 main_v12 (broadcastInDim S1x256 ![1] bcast_S256_S1x256_1 : (⟨S256, .f32⟩ : BufTy).Contents (Elt F) → (⟨S1x256, .f32⟩ : BufTy).Contents (Elt F)),
    unary main_v12 main_v13 (broadcastInDim S4096x256 ![0, 1] bcast_S1x256_S4096x256_0_1 : (⟨S1x256, .f32⟩ : BufTy).Contents (Elt F) → (⟨S4096x256, .f32⟩ : BufTy).Contents (Elt F)),
    binary main_v11 main_v13 main_v14 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v15 (broadcastInDim S4096x256 ![] bcast_S_S4096x256 : (⟨S_, .f32⟩ : BufTy).Contents (Elt F) → (⟨S4096x256, .f32⟩ : BufTy).Contents (Elt F)),
    binary main_v14 main_v15 main_v16 (cmpf .oge : (⟨S4096x256, .f32⟩ : BufTy).Contents (Elt F) → (⟨S4096x256, .f32⟩ : BufTy).Contents (Elt F) → (⟨S4096x256, .i1⟩ : BufTy).Contents (Elt F)),
    nullary main_cst_2 (constant S_ .f32 0x3E800000#32),
    unary main_cst_2 main_v17 (broadcastInDim S4096x256 ![] bcast_S_S4096x256 : (⟨S_, .f32⟩ : BufTy).Contents (Elt F) → (⟨S4096x256, .f32⟩ : BufTy).Contents (Elt F)),
    binary main_v17 main_v14 main_v18 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v16) (TRef.of (T := ⟨S4096x256, .f32⟩) main_v14) (TRef.of (T := ⟨S4096x256, .f32⟩) main_v18) (TRef.of (T := ⟨S4096x256, .f32⟩) main_v19) select,
    binary main_v19 main_arg6 main_v20 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_arg1 main_v20 main_v21 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg7 main_v22 (broadcastInDim S1x256 ![1] bcast_S256_S1x256_1 : (⟨S256, .f32⟩ : BufTy).Contents (Elt F) → (⟨S1x256, .f32⟩ : BufTy).Contents (Elt F)),
    unary main_v22 main_v23 (broadcastInDim S4096x256 ![0, 1] bcast_S1x256_S4096x256_0_1 : (⟨S1x256, .f32⟩ : BufTy).Contents (Elt F) → (⟨S4096x256, .f32⟩ : BufTy).Contents (Elt F)),
    binary main_v21 main_v23 main_v24 (addf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    unary main_cst_3 main_v25 (broadcastInDim S4096x256 ![] bcast_S_S4096x256 : (⟨S_, .f32⟩ : BufTy).Contents (Elt F) → (⟨S4096x256, .f32⟩ : BufTy).Contents (Elt F)),
    binary main_v24 main_v25 main_v26 (cmpf .oge : (⟨S4096x256, .f32⟩ : BufTy).Contents (Elt F) → (⟨S4096x256, .f32⟩ : BufTy).Contents (Elt F) → (⟨S4096x256, .i1⟩ : BufTy).Contents (Elt F)),
    nullary main_cst_4 (constant S_ .f32 0x3E800000#32),
    unary main_cst_4 main_v27 (broadcastInDim S4096x256 ![] bcast_S_S4096x256 : (⟨S_, .f32⟩ : BufTy).Contents (Elt F) → (⟨S4096x256, .f32⟩ : BufTy).Contents (Elt F)),
    binary main_v27 main_v24 main_v28 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v26) (TRef.of (T := ⟨S4096x256, .f32⟩) main_v24) (TRef.of (T := ⟨S4096x256, .f32⟩) main_v28) (TRef.of (T := ⟨S4096x256, .f32⟩) main_v29) select,
    nullary main_c (constantI S_ 32 2048#32),
    binary main_arg9 main_c main_v30 (subi : (⟨S_, .i32⟩ : BufTy).Contents (Elt F) → (⟨S_, .i32⟩ : BufTy).Contents (Elt F) → (⟨S_, .i32⟩ : BufTy).Contents (Elt F)),
    nullary main_c_5 (constantI S_ 32 0#32),
    binary main_v30 main_c_5 main_v31 (cmpi .slt : (⟨S_, .i32⟩ : BufTy).Contents (Elt F) → (⟨S_, .i32⟩ : BufTy).Contents (Elt F) → (⟨S_, .i1⟩ : BufTy).Contents (Elt F)),
    nullary main_c_6 (constantI S_ 32 4096#32),
    binary main_v30 main_c_6 main_v32 (addi : (⟨S_, .i32⟩ : BufTy).Contents (Elt F) → (⟨S_, .i32⟩ : BufTy).Contents (Elt F) → (⟨S_, .i32⟩ : BufTy).Contents (Elt F)),
    ternary main_v31 main_v32 main_v30 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_7 (constantI S_ 32 0#32),
    unaryIndexed main_v29 ![main_v33, main_c_7] ⟨S_, .i32⟩ main_v34 ((fun x i => Host.dynamicSlice S2048x256 x (fun k => (i k (Shape.Idx.first h_S_)).toInt) sliceFits_S4096x256_S2048x256) : (⟨S4096x256, .f32⟩ : BufTy).Contents (Elt F) → (Fin 2 → (⟨S_, .i32⟩ : BufTy).Contents (Elt F)) → (⟨S2048x256, .f32⟩ : BufTy).Contents (Elt F)),
    binary main_arg9 main_arg10 main_v35 (addi : (⟨S_, .i32⟩ : BufTy).Contents (Elt F) → (⟨S_, .i32⟩ : BufTy).Contents (Elt F) → (⟨S_, .i32⟩ : BufTy).Contents (Elt F)),
    nullary main_c_8 (constantI S_ 32 2048#32),
    binary main_v35 main_c_8 main_v36 (subi : (⟨S_, .i32⟩ : BufTy).Contents (Elt F) → (⟨S_, .i32⟩ : BufTy).Contents (Elt F) → (⟨S_, .i32⟩ : BufTy).Contents (Elt F)),
    nullary main_c_9 (constantI S_ 32 0#32),
    binary main_v36 main_c_9 main_v37 (cmpi .slt : (⟨S_, .i32⟩ : BufTy).Contents (Elt F) → (⟨S_, .i32⟩ : BufTy).Contents (Elt F) → (⟨S_, .i1⟩ : BufTy).Contents (Elt F)),
    nullary main_c_10 (constantI S_ 32 4096#32),
    binary main_v36 main_c_10 main_v38 (addi : (⟨S_, .i32⟩ : BufTy).Contents (Elt F) → (⟨S_, .i32⟩ : BufTy).Contents (Elt F) → (⟨S_, .i32⟩ : BufTy).Contents (Elt F)),
    ternary main_v37 main_v38 main_v36 main_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_11 (constantI S_ 32 0#32),
    unaryIndexed main_v29 ![main_v39, main_c_11] ⟨S_, .i32⟩ main_v40 ((fun x i => Host.dynamicSlice S2048x256 x (fun k => (i k (Shape.Idx.first h_S_)).toInt) sliceFits_S4096x256_S2048x256) : (⟨S4096x256, .f32⟩ : BufTy).Contents (Elt F) → (Fin 2 → (⟨S_, .i32⟩ : BufTy).Contents (Elt F)) → (⟨S2048x256, .f32⟩ : BufTy).Contents (Elt F)),
    binary main_v34 main_arg8 main_v41 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v40 main_v42 ((transpose S256x2048 [1, 0] · transposes_S2048x256_S256x2048_1_0) : (⟨S2048x256, .f32⟩ : BufTy).Contents (Elt F) → (⟨S256x2048, .f32⟩ : BufTy).Contents (Elt F)),
    binary main_v41 main_v42 main_v43 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., nullary_bufs_sub .., binary_bufs_sub .., ternary_bufs_sub .., nullary_bufs_sub .., unaryIndexed_bufs_sub .., binary_bufs_sub .., nullary_bufs_sub .., binary_bufs_sub .., nullary_bufs_sub .., binary_bufs_sub .., nullary_bufs_sub .., binary_bufs_sub .., ternary_bufs_sub .., nullary_bufs_sub .., unaryIndexed_bufs_sub .., binary_bufs_sub .., unary_bufs_sub .., binary_bufs_sub ..⟩

/-! ### The line in four pieces: three propagations, then the two row windows and the decoder -/

/-- The first propagation: operations 1 to 12. -/
abbrev seg1 : List (HloOp τ sig (Elt F)) :=
  [ binary main_arg0 main_arg2 main_v0 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    binary main_arg1 main_v0 main_v1 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S4096x256 ![0, 1] bcast_S1x256_S4096x256_0_1 : (⟨S1x256, .f32⟩ : BufTy).Contents (Elt F) → (⟨S4096x256, .f32⟩ : BufTy).Contents (Elt F)),
    binary main_v1 main_v3 main_v4 (addf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    unary main_cst main_v5 (broadcastInDim S4096x256 ![] bcast_S_S4096x256 : (⟨S_, .f32⟩ : BufTy).Contents (Elt F) → (⟨S4096x256, .f32⟩ : BufTy).Contents (Elt F)),
    binary main_v4 main_v5 main_v6 (cmpf .oge : (⟨S4096x256, .f32⟩ : BufTy).Contents (Elt F) → (⟨S4096x256, .f32⟩ : BufTy).Contents (Elt F) → (⟨S4096x256, .i1⟩ : BufTy).Contents (Elt F)),
    nullary main_cst_0 (constant S_ .f32 0x3E800000#32),
    unary main_cst_0 main_v7 (broadcastInDim S4096x256 ![] bcast_S_S4096x256 : (⟨S_, .f32⟩ : BufTy).Contents (Elt F) → (⟨S4096x256, .f32⟩ : BufTy).Contents (Elt F)),
    binary main_v7 main_v4 main_v8 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v6) (TRef.of (T := ⟨S4096x256, .f32⟩) main_v4) (TRef.of (T := ⟨S4096x256, .f32⟩) main_v8) (TRef.of (T := ⟨S4096x256, .f32⟩) main_v9) select ]

/-- The second propagation: operations 13 to 24. -/
abbrev seg2 : List (HloOp τ sig (Elt F)) :=
  [ binary main_v9 main_arg4 main_v10 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_arg1 main_v10 main_v11 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg5 main_v12 (broadcastInDim S1x256 ![1] bcast_S256_S1x256_1 : (⟨S256, .f32⟩ : BufTy).Contents (Elt F) → (⟨S1x256, .f32⟩ : BufTy).Contents (Elt F)),
    unary main_v12 main_v13 (broadcastInDim S4096x256 ![0, 1] bcast_S1x256_S4096x256_0_1 : (⟨S1x256, .f32⟩ : BufTy).Contents (Elt F) → (⟨S4096x256, .f32⟩ : BufTy).Contents (Elt F)),
    binary main_v11 main_v13 main_v14 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v15 (broadcastInDim S4096x256 ![] bcast_S_S4096x256 : (⟨S_, .f32⟩ : BufTy).Contents (Elt F) → (⟨S4096x256, .f32⟩ : BufTy).Contents (Elt F)),
    binary main_v14 main_v15 main_v16 (cmpf .oge : (⟨S4096x256, .f32⟩ : BufTy).Contents (Elt F) → (⟨S4096x256, .f32⟩ : BufTy).Contents (Elt F) → (⟨S4096x256, .i1⟩ : BufTy).Contents (Elt F)),
    nullary main_cst_2 (constant S_ .f32 0x3E800000#32),
    unary main_cst_2 main_v17 (broadcastInDim S4096x256 ![] bcast_S_S4096x256 : (⟨S_, .f32⟩ : BufTy).Contents (Elt F) → (⟨S4096x256, .f32⟩ : BufTy).Contents (Elt F)),
    binary main_v17 main_v14 main_v18 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v16) (TRef.of (T := ⟨S4096x256, .f32⟩) main_v14) (TRef.of (T := ⟨S4096x256, .f32⟩) main_v18) (TRef.of (T := ⟨S4096x256, .f32⟩) main_v19) select ]

/-- The third propagation: operations 25 to 36. -/
abbrev seg3 : List (HloOp τ sig (Elt F)) :=
  [ binary main_v19 main_arg6 main_v20 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_arg1 main_v20 main_v21 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg7 main_v22 (broadcastInDim S1x256 ![1] bcast_S256_S1x256_1 : (⟨S256, .f32⟩ : BufTy).Contents (Elt F) → (⟨S1x256, .f32⟩ : BufTy).Contents (Elt F)),
    unary main_v22 main_v23 (broadcastInDim S4096x256 ![0, 1] bcast_S1x256_S4096x256_0_1 : (⟨S1x256, .f32⟩ : BufTy).Contents (Elt F) → (⟨S4096x256, .f32⟩ : BufTy).Contents (Elt F)),
    binary main_v21 main_v23 main_v24 (addf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    unary main_cst_3 main_v25 (broadcastInDim S4096x256 ![] bcast_S_S4096x256 : (⟨S_, .f32⟩ : BufTy).Contents (Elt F) → (⟨S4096x256, .f32⟩ : BufTy).Contents (Elt F)),
    binary main_v24 main_v25 main_v26 (cmpf .oge : (⟨S4096x256, .f32⟩ : BufTy).Contents (Elt F) → (⟨S4096x256, .f32⟩ : BufTy).Contents (Elt F) → (⟨S4096x256, .i1⟩ : BufTy).Contents (Elt F)),
    nullary main_cst_4 (constant S_ .f32 0x3E800000#32),
    unary main_cst_4 main_v27 (broadcastInDim S4096x256 ![] bcast_S_S4096x256 : (⟨S_, .f32⟩ : BufTy).Contents (Elt F) → (⟨S4096x256, .f32⟩ : BufTy).Contents (Elt F)),
    binary main_v27 main_v24 main_v28 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v26) (TRef.of (T := ⟨S4096x256, .f32⟩) main_v24) (TRef.of (T := ⟨S4096x256, .f32⟩) main_v28) (TRef.of (T := ⟨S4096x256, .f32⟩) main_v29) select ]

/-- The two windows of rows and the decoder: operations 37 to 58. -/
abbrev seg4 : List (HloOp τ sig (Elt F)) :=
  [ nullary main_c (constantI S_ 32 2048#32),
    binary main_arg9 main_c main_v30 (subi : (⟨S_, .i32⟩ : BufTy).Contents (Elt F) → (⟨S_, .i32⟩ : BufTy).Contents (Elt F) → (⟨S_, .i32⟩ : BufTy).Contents (Elt F)),
    nullary main_c_5 (constantI S_ 32 0#32),
    binary main_v30 main_c_5 main_v31 (cmpi .slt : (⟨S_, .i32⟩ : BufTy).Contents (Elt F) → (⟨S_, .i32⟩ : BufTy).Contents (Elt F) → (⟨S_, .i1⟩ : BufTy).Contents (Elt F)),
    nullary main_c_6 (constantI S_ 32 4096#32),
    binary main_v30 main_c_6 main_v32 (addi : (⟨S_, .i32⟩ : BufTy).Contents (Elt F) → (⟨S_, .i32⟩ : BufTy).Contents (Elt F) → (⟨S_, .i32⟩ : BufTy).Contents (Elt F)),
    ternary main_v31 main_v32 main_v30 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_7 (constantI S_ 32 0#32),
    unaryIndexed main_v29 ![main_v33, main_c_7] ⟨S_, .i32⟩ main_v34 ((fun x i => Host.dynamicSlice S2048x256 x (fun k => (i k (Shape.Idx.first h_S_)).toInt) sliceFits_S4096x256_S2048x256) : (⟨S4096x256, .f32⟩ : BufTy).Contents (Elt F) → (Fin 2 → (⟨S_, .i32⟩ : BufTy).Contents (Elt F)) → (⟨S2048x256, .f32⟩ : BufTy).Contents (Elt F)),
    binary main_arg9 main_arg10 main_v35 (addi : (⟨S_, .i32⟩ : BufTy).Contents (Elt F) → (⟨S_, .i32⟩ : BufTy).Contents (Elt F) → (⟨S_, .i32⟩ : BufTy).Contents (Elt F)),
    nullary main_c_8 (constantI S_ 32 2048#32),
    binary main_v35 main_c_8 main_v36 (subi : (⟨S_, .i32⟩ : BufTy).Contents (Elt F) → (⟨S_, .i32⟩ : BufTy).Contents (Elt F) → (⟨S_, .i32⟩ : BufTy).Contents (Elt F)),
    nullary main_c_9 (constantI S_ 32 0#32),
    binary main_v36 main_c_9 main_v37 (cmpi .slt : (⟨S_, .i32⟩ : BufTy).Contents (Elt F) → (⟨S_, .i32⟩ : BufTy).Contents (Elt F) → (⟨S_, .i1⟩ : BufTy).Contents (Elt F)),
    nullary main_c_10 (constantI S_ 32 4096#32),
    binary main_v36 main_c_10 main_v38 (addi : (⟨S_, .i32⟩ : BufTy).Contents (Elt F) → (⟨S_, .i32⟩ : BufTy).Contents (Elt F) → (⟨S_, .i32⟩ : BufTy).Contents (Elt F)),
    ternary main_v37 main_v38 main_v36 main_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_11 (constantI S_ 32 0#32),
    unaryIndexed main_v29 ![main_v39, main_c_11] ⟨S_, .i32⟩ main_v40 ((fun x i => Host.dynamicSlice S2048x256 x (fun k => (i k (Shape.Idx.first h_S_)).toInt) sliceFits_S4096x256_S2048x256) : (⟨S4096x256, .f32⟩ : BufTy).Contents (Elt F) → (Fin 2 → (⟨S_, .i32⟩ : BufTy).Contents (Elt F)) → (⟨S2048x256, .f32⟩ : BufTy).Contents (Elt F)),
    binary main_v34 main_arg8 main_v41 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v40 main_v42 ((transpose S256x2048 [1, 0] · transposes_S2048x256_S256x2048_1_0) : (⟨S2048x256, .f32⟩ : BufTy).Contents (Elt F) → (⟨S256x2048, .f32⟩ : BufTy).Contents (Elt F)),
    binary main_v41 main_v42 main_v43 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)) ]

set_option maxRecDepth 8192 in
theorem ops_split : (ops : List (HloOp τ sig (Elt F))) = seg1 ++ (seg2 ++ (seg3 ++ seg4)) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem seg1_keep (V : Valuation τ sig (Elt F)) :
    after (seg1 (F := F)) V (Proc.devRef .tc main_arg0) = V (Proc.devRef .tc main_arg0)
      ∧ after (seg1 (F := F)) V (Proc.devRef .tc main_arg1) = V (Proc.devRef .tc main_arg1)
      ∧ after (seg1 (F := F)) V (Proc.devRef .tc main_arg2) = V (Proc.devRef .tc main_arg2)
      ∧ after (seg1 (F := F)) V (Proc.devRef .tc main_arg3) = V (Proc.devRef .tc main_arg3)
      ∧ after (seg1 (F := F)) V (Proc.devRef .tc main_arg4) = V (Proc.devRef .tc main_arg4)
      ∧ after (seg1 (F := F)) V (Proc.devRef .tc main_arg5) = V (Proc.devRef .tc main_arg5)
      ∧ after (seg1 (F := F)) V (Proc.devRef .tc main_arg6) = V (Proc.devRef .tc main_arg6)
      ∧ after (seg1 (F := F)) V (Proc.devRef .tc main_arg7) = V (Proc.devRef .tc main_arg7)
      ∧ after (seg1 (F := F)) V (Proc.devRef .tc main_arg8) = V (Proc.devRef .tc main_arg8)
      ∧ after (seg1 (F := F)) V (Proc.devRef .tc main_arg9) = V (Proc.devRef .tc main_arg9)
      ∧ after (seg1 (F := F)) V (Proc.devRef .tc main_arg10) = V (Proc.devRef .tc main_arg10) := by
  refine ⟨?_, ?_, ?_, ?_, ?_, ?_, ?_, ?_, ?_, ?_, ?_⟩ <;> after_results_simp

theorem seg2_keep (V : Valuation τ sig (Elt F)) :
    after (seg2 (F := F)) V (Proc.devRef .tc main_arg0) = V (Proc.devRef .tc main_arg0)
      ∧ after (seg2 (F := F)) V (Proc.devRef .tc main_arg1) = V (Proc.devRef .tc main_arg1)
      ∧ after (seg2 (F := F)) V (Proc.devRef .tc main_arg2) = V (Proc.devRef .tc main_arg2)
      ∧ after (seg2 (F := F)) V (Proc.devRef .tc main_arg3) = V (Proc.devRef .tc main_arg3)
      ∧ after (seg2 (F := F)) V (Proc.devRef .tc main_arg4) = V (Proc.devRef .tc main_arg4)
      ∧ after (seg2 (F := F)) V (Proc.devRef .tc main_arg5) = V (Proc.devRef .tc main_arg5)
      ∧ after (seg2 (F := F)) V (Proc.devRef .tc main_arg6) = V (Proc.devRef .tc main_arg6)
      ∧ after (seg2 (F := F)) V (Proc.devRef .tc main_arg7) = V (Proc.devRef .tc main_arg7)
      ∧ after (seg2 (F := F)) V (Proc.devRef .tc main_arg8) = V (Proc.devRef .tc main_arg8)
      ∧ after (seg2 (F := F)) V (Proc.devRef .tc main_arg9) = V (Proc.devRef .tc main_arg9)
      ∧ after (seg2 (F := F)) V (Proc.devRef .tc main_arg10) = V (Proc.devRef .tc main_arg10) := by
  refine ⟨?_, ?_, ?_, ?_, ?_, ?_, ?_, ?_, ?_, ?_, ?_⟩ <;> after_results_simp

theorem seg3_keep (V : Valuation τ sig (Elt F)) :
    after (seg3 (F := F)) V (Proc.devRef .tc main_arg0) = V (Proc.devRef .tc main_arg0)
      ∧ after (seg3 (F := F)) V (Proc.devRef .tc main_arg1) = V (Proc.devRef .tc main_arg1)
      ∧ after (seg3 (F := F)) V (Proc.devRef .tc main_arg2) = V (Proc.devRef .tc main_arg2)
      ∧ after (seg3 (F := F)) V (Proc.devRef .tc main_arg3) = V (Proc.devRef .tc main_arg3)
      ∧ after (seg3 (F := F)) V (Proc.devRef .tc main_arg4) = V (Proc.devRef .tc main_arg4)
      ∧ after (seg3 (F := F)) V (Proc.devRef .tc main_arg5) = V (Proc.devRef .tc main_arg5)
      ∧ after (seg3 (F := F)) V (Proc.devRef .tc main_arg6) = V (Proc.devRef .tc main_arg6)
      ∧ after (seg3 (F := F)) V (Proc.devRef .tc main_arg7) = V (Proc.devRef .tc main_arg7)
      ∧ after (seg3 (F := F)) V (Proc.devRef .tc main_arg8) = V (Proc.devRef .tc main_arg8)
      ∧ after (seg3 (F := F)) V (Proc.devRef .tc main_arg9) = V (Proc.devRef .tc main_arg9)
      ∧ after (seg3 (F := F)) V (Proc.devRef .tc main_arg10) = V (Proc.devRef .tc main_arg10) := by
  refine ⟨?_, ?_, ?_, ?_, ?_, ?_, ?_, ?_, ?_, ?_, ?_⟩ <;> after_results_simp

theorem seg4_keep (V : Valuation τ sig (Elt F)) :
    after (seg4 (F := F)) V (Proc.devRef .tc main_arg0) = V (Proc.devRef .tc main_arg0)
      ∧ after (seg4 (F := F)) V (Proc.devRef .tc main_arg1) = V (Proc.devRef .tc main_arg1)
      ∧ after (seg4 (F := F)) V (Proc.devRef .tc main_arg2) = V (Proc.devRef .tc main_arg2)
      ∧ after (seg4 (F := F)) V (Proc.devRef .tc main_arg3) = V (Proc.devRef .tc main_arg3)
      ∧ after (seg4 (F := F)) V (Proc.devRef .tc main_arg4) = V (Proc.devRef .tc main_arg4)
      ∧ after (seg4 (F := F)) V (Proc.devRef .tc main_arg5) = V (Proc.devRef .tc main_arg5)
      ∧ after (seg4 (F := F)) V (Proc.devRef .tc main_arg6) = V (Proc.devRef .tc main_arg6)
      ∧ after (seg4 (F := F)) V (Proc.devRef .tc main_arg7) = V (Proc.devRef .tc main_arg7)
      ∧ after (seg4 (F := F)) V (Proc.devRef .tc main_arg8) = V (Proc.devRef .tc main_arg8)
      ∧ after (seg4 (F := F)) V (Proc.devRef .tc main_arg9) = V (Proc.devRef .tc main_arg9)
      ∧ after (seg4 (F := F)) V (Proc.devRef .tc main_arg10) = V (Proc.devRef .tc main_arg10) := by
  refine ⟨?_, ?_, ?_, ?_, ?_, ?_, ?_, ?_, ?_, ?_, ?_⟩ <;> after_results_simp

theorem seg1_v9 (V : Valuation τ sig (Elt F)) :
    after (seg1 (F := F)) V (Proc.devRef .tc main_v9)
      = ReadP.val_main_v9 (F := F) (V (Proc.devRef .tc main_arg0)) (V (Proc.devRef .tc main_arg1)) (V (Proc.devRef .tc main_arg2)) (V (Proc.devRef .tc main_arg3)) := by
  after_results_simp
  rfl

theorem seg2_v19 (V : Valuation τ sig (Elt F)) (x0 : (⟨S4096x512, .f32⟩ : BufTy).Contents (Elt F)) (x1 : (⟨S4096x4096, .f32⟩ : BufTy).Contents (Elt F)) (x2 : (⟨S512x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (h9 : V (Proc.devRef .tc main_v9) = ReadP.val_main_v9 (F := F) x0 x1 x2 x3) (h1 : V (Proc.devRef .tc main_arg1) = x1)
    (h4 : V (Proc.devRef .tc main_arg4) = x4) (h5 : V (Proc.devRef .tc main_arg5) = x5) :
    after (seg2 (F := F)) V (Proc.devRef .tc main_v19) = ReadP.val_main_v19 (F := F) x0 x1 x2 x3 x4 x5 := by
  after_results_simp
  rw [h9, h1, h4, h5]
  rfl

theorem seg3_v29 (V : Valuation τ sig (Elt F)) (x0 : (⟨S4096x512, .f32⟩ : BufTy).Contents (Elt F)) (x1 : (⟨S4096x4096, .f32⟩ : BufTy).Contents (Elt F)) (x2 : (⟨S512x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F))
    (h19 : V (Proc.devRef .tc main_v19) = ReadP.val_main_v19 (F := F) x0 x1 x2 x3 x4 x5) (h1 : V (Proc.devRef .tc main_arg1) = x1)
    (h6 : V (Proc.devRef .tc main_arg6) = x6) (h7 : V (Proc.devRef .tc main_arg7) = x7) :
    after (seg3 (F := F)) V (Proc.devRef .tc main_v29) = ReadP.val_main_v29 (F := F) x0 x1 x2 x3 x4 x5 x6 x7 := by
  after_results_simp
  rw [h19, h1, h6, h7]
  rfl

theorem seg4_v43 (V : Valuation τ sig (Elt F)) (x0 : (⟨S4096x512, .f32⟩ : BufTy).Contents (Elt F)) (x1 : (⟨S4096x4096, .f32⟩ : BufTy).Contents (Elt F)) (x2 : (⟨S512x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S_, .i32⟩ : BufTy).Contents (Elt F)) (x10 : (⟨S_, .i32⟩ : BufTy).Contents (Elt F))
    (h29 : V (Proc.devRef .tc main_v29) = ReadP.val_main_v29 (F := F) x0 x1 x2 x3 x4 x5 x6 x7) (h8 : V (Proc.devRef .tc main_arg8) = x8)
    (h9 : V (Proc.devRef .tc main_arg9) = x9) (h10 : V (Proc.devRef .tc main_arg10) = x10) :
    after (seg4 (F := F)) V (Proc.devRef .tc main_v43) = ReadP.val_main_v43 (F := F) x0 x1 x2 x3 x4 x5 x6 x7 x8 x9 x10 := by
  subst h8 h9 h10
  unfold ReadP.val_main_v43 ReadP.val_main_v41 ReadP.val_main_v42 ReadP.val_main_v34 ReadP.val_main_v40
  rw [← h29]
  after_results_simp
  refine congrArg₂ (fun a b => Host.dotGeneral dot_S2048x256_S256x2048_S2048x2048_1_0_0_1_n_n none a b)
    (congrArg (fun a => Host.dotGeneral dot_S2048x256_S256x256_S2048x256_1_0_0_1_n_n none a (V (Proc.devRef .tc main_arg8)))
      (congrArg (fun i => Host.dynamicSlice S2048x256 (V (Proc.devRef .tc main_v29)) i sliceFits_S4096x256_S2048x256) (funext fun k => ?_)))
    (congrArg (fun a => transpose S256x2048 [1, 0] a transposes_S2048x256_S256x2048_1_0)
      (congrArg (fun i => Host.dynamicSlice S2048x256 (V (Proc.devRef .tc main_v29)) i sliceFits_S4096x256_S2048x256) (funext fun k => ?_)))
  · fin_cases k <;> (try simp only [Matrix.cons_val_zero', Matrix.cons_val_succ', Fin.zero_eta, Fin.mk_one, Matrix.cons_val_zero, Matrix.cons_val_one, Matrix.head_cons]) <;> (try after_results_simp) <;> rfl
  · fin_cases k <;> (try simp only [Matrix.cons_val_zero', Matrix.cons_val_succ', Fin.zero_eta, Fin.mk_one, Matrix.cons_val_zero, Matrix.cons_val_one, Matrix.head_cons]) <;> (try after_results_simp) <;> rfl

/-- After the whole line the result buffer holds the reference's value of the eleven arguments' contents. -/
theorem after_ops_v43 (V : Valuation τ sig (Elt F)) :
    after (ops (F := F)) V (Proc.devRef .tc main_v43)
      = ReadP.val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split, after_append, after_append, after_append]
  obtain ⟨a0, a1, a2, a3, a4, a5, a6, a7, a8, a9, a10⟩ := seg1_keep (F := F) V
  obtain ⟨b0, b1, b2, b3, b4, b5, b6, b7, b8, b9, b10⟩ := seg2_keep (F := F) (after seg1 V)
  obtain ⟨c0, c1, c2, c3, c4, c5, c6, c7, c8, c9, c10⟩ := seg3_keep (F := F) (after seg2 (after seg1 V))
  exact seg4_v43 _ _ _ _ _ _ _ _ _ _ _ _
    (seg3_v29 _ _ _ _ _ _ _ _ _
      (seg2_v19 _ _ _ _ _ _ _ (seg1_v9 V) a1 a4 a5)
      (b1.trans a1) (b6.trans a6) (b7.trans a7))
    (c8.trans (b8.trans a8)) (c9.trans (b9.trans a9)) (c10.trans (b10.trans a10))

/-- The whole line leaves the eleven arguments as they were. -/
theorem after_ops_keep (V : Valuation τ sig (Elt F)) :
    after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2)
      ∧ after (ops (F := F)) V (Proc.devRef .tc main_arg3) = V (Proc.devRef .tc main_arg3)
      ∧ after (ops (F := F)) V (Proc.devRef .tc main_arg4) = V (Proc.devRef .tc main_arg4)
      ∧ after (ops (F := F)) V (Proc.devRef .tc main_arg5) = V (Proc.devRef .tc main_arg5)
      ∧ after (ops (F := F)) V (Proc.devRef .tc main_arg6) = V (Proc.devRef .tc main_arg6)
      ∧ after (ops (F := F)) V (Proc.devRef .tc main_arg7) = V (Proc.devRef .tc main_arg7)
      ∧ after (ops (F := F)) V (Proc.devRef .tc main_arg8) = V (Proc.devRef .tc main_arg8)
      ∧ after (ops (F := F)) V (Proc.devRef .tc main_arg9) = V (Proc.devRef .tc main_arg9)
      ∧ after (ops (F := F)) V (Proc.devRef .tc main_arg10) = V (Proc.devRef .tc main_arg10) := by
  rw [ops_split, after_append, after_append, after_append]
  obtain ⟨a0, a1, a2, a3, a4, a5, a6, a7, a8, a9, a10⟩ := seg1_keep (F := F) V
  obtain ⟨b0, b1, b2, b3, b4, b5, b6, b7, b8, b9, b10⟩ := seg2_keep (F := F) (after seg1 V)
  obtain ⟨c0, c1, c2, c3, c4, c5, c6, c7, c8, c9, c10⟩ := seg3_keep (F := F) (after seg2 (after seg1 V))
  obtain ⟨d0, d1, d2, d3, d4, d5, d6, d7, d8, d9, d10⟩ := seg4_keep (F := F) (after seg3 (after seg2 (after seg1 V)))
  exact ⟨d0.trans (c0.trans (b0.trans a0)), d1.trans (c1.trans (b1.trans a1)), d2.trans (c2.trans (b2.trans a2)), d3.trans (c3.trans (b3.trans a3)), d4.trans (c4.trans (b4.trans a4)), d5.trans (c5.trans (b5.trans a5)), d6.trans (c6.trans (b6.trans a6)), d7.trans (c7.trans (b7.trans a7)), d8.trans (c8.trans (b8.trans a8)), d9.trans (c9.trans (b9.trans a9)), d10.trans (c10.trans (b10.trans a10))⟩

/-- On every device, for any float values, from any memory with zero counters: every weakly fair execution of
    @main terminates with the result at the reference's value of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = ReadP.val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨k0, k1, k2, k3, k4, k5, k6, k7, k8, k9, k10⟩ := after_ops_keep (F := F) (launchContents m c)
      exact ⟨(h c main_v43).trans (after_ops_v43 _), (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10⟩)
    (run_seq scopedRefs_eq scopedSems_eq defs main (fun _ => ops) main_eq (fun _ => ops_sub) m ρ)

end Cert.ReferenceIdeal.ValueP

end
-- ==== Proof.RefFinal.lean ====
import proofs.«133194_g38319698214914_cont_sun_m_1384_4_alg».proof.Proof.RefValue
import proofs.«133194_g38319698214914_cont_sun_m_1384_4_alg».proof.Proof.RefRun
import proofs.«133194_g38319698214914_cont_sun_m_1384_4_alg».proof.Defs
import proofs.«133194_g38319698214914_cont_sun_m_1384_4_alg».proof.Proof.Gen.Pre_finite_inputs

/-!
The reference's frame claim, and the two row offsets of its windows as the chains of integer operations they are:
an offset `s` becomes `s - 2048`, to which 4096 is added when it is negative.
-/

noncomputable section

namespace Cert.ReferenceIdeal.RefValue

open Cert.ReferenceIdeal Cert.ReferenceIdeal.Gen Cert.ReferenceIdeal.ReadP Idealize.ShloMosaic Idealize.SL.Sem Idealize.ShloMosaic.ValueIdx

/-- The reference runs and leaves its eleven arguments unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.ValueP.run (F := Ideal) m ρ)

variable {F : FTy → Type} [FloatOps F]

/-- The first window's wrapped row offset. -/
theorem val_main_v33_chain (x9 : (⟨S_, .i32⟩ : BufTy).Contents (Elt F)) :
    val_main_v33 (F := F) x9 = (select (cmpi .slt (subi x9 (constantI S_ 32 2048#32)) (constantI S_ 32 0#32)) (addi (subi x9 (constantI S_ 32 2048#32)) (constantI S_ 32 4096#32)) (subi x9 (constantI S_ 32 2048#32)) : (⟨S_, .i32⟩ : BufTy).Contents (Elt F)) := by
  unfold val_main_v33 val_main_v32 val_main_v31 val_main_v30 val_main_c val_main_c_5 val_main_c_6
  rfl
theorem val_main_c_7_eq : val_main_c_7 (F := F) = (constantI S_ 32 0#32 : (⟨S_, .i32⟩ : BufTy).Contents (Elt F)) := rfl

/-- The second window's wrapped row offset. -/
theorem val_main_v39_chain (x9 x10 : (⟨S_, .i32⟩ : BufTy).Contents (Elt F)) :
    val_main_v39 (F := F) x9 x10 = (select (cmpi .slt (subi (addi x9 x10) (constantI S_ 32 2048#32)) (constantI S_ 32 0#32)) (addi (subi (addi x9 x10) (constantI S_ 32 2048#32)) (constantI S_ 32 4096#32)) (subi (addi x9 x10) (constantI S_ 32 2048#32)) : (⟨S_, .i32⟩ : BufTy).Contents (Elt F)) := by
  unfold val_main_v39 val_main_v38 val_main_v37 val_main_v36 val_main_v35 val_main_c_8 val_main_c_9 val_main_c_10
  rfl
theorem val_main_c_11_eq : val_main_c_11 (F := F) = (constantI S_ 32 0#32 : (⟨S_, .i32⟩ : BufTy).Contents (Elt F)) := rfl

/-- The first window: 2048 rows of the hidden array from the first wrapped offset, all 256 columns. -/
theorem val_main_v34_unfold (x0 : (⟨S4096x512, .f32⟩ : BufTy).Contents (Elt F)) (x1 : (⟨S4096x4096, .f32⟩ : BufTy).Contents (Elt F)) (x2 : (⟨S512x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x9 : (⟨S_, .i32⟩ : BufTy).Contents (Elt F)) :
    val_main_v34 (F := F) x0 x1 x2 x3 x4 x5 x6 x7 x9
      = Host.dynamicSlice S2048x256 (val_main_v29 (F := F) x0 x1 x2 x3 x4 x5 x6 x7)
          (fun k => (((![val_main_v33 (F := F) x9, val_main_c_7 (F := F)] : Fin 2 → (⟨S_, .i32⟩ : BufTy).Contents (Elt F))) k (Shape.Idx.first h_S_)).toInt)
          sliceFits_S4096x256_S2048x256 := rfl

/-- The second window: 2048 rows of the hidden array from the second wrapped offset, all 256 columns. -/
theorem val_main_v40_unfold (x0 : (⟨S4096x512, .f32⟩ : BufTy).Contents (Elt F)) (x1 : (⟨S4096x4096, .f32⟩ : BufTy).Contents (Elt F)) (x2 : (⟨S512x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x9 x10 : (⟨S_, .i32⟩ : BufTy).Contents (Elt F)) :
    val_main_v40 (F := F) x0 x1 x2 x3 x4 x5 x6 x7 x9 x10
      = Host.dynamicSlice S2048x256 (val_main_v29 (F := F) x0 x1 x2 x3 x4 x5 x6 x7)
          (fun k => (((![val_main_v39 (F := F) x9 x10, val_main_c_11 (F := F)] : Fin 2 → (⟨S_, .i32⟩ : BufTy).Contents (Elt F))) k (Shape.Idx.first h_S_)).toInt)
          sliceFits_S4096x256_S2048x256 := rfl

end Cert.ReferenceIdeal.RefValue

end
-- ==== Proof.KI.HostReads.lean ====
import proofs.«133194_g38319698214914_cont_sun_m_1384_4_alg».proof.Proof.Gen.KernelIdeal.Launch
import proofs.«133194_g38319698214914_cont_sun_m_1384_4_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
What the host lines of the kernel's program compute. The seven lines before the first kernel round the four weight
matrices and lay the three bias vectors out as rows; the nineteen lines between the two kernels wrap the two start
rows into range (`r - 2048`, plus `4096` when negative) and cut the two 2048-row windows out of the first kernel's result.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

variable {F : FTy → Type} [FloatOps F]

/-- A start row wrapped into range: `r - 2048`, plus `4096` when that is negative. -/
abbrev wrapRow (x : (⟨S_, .i32⟩ : BufTy).Contents (Elt F)) : (⟨S_, .i32⟩ : BufTy).Contents (Elt F) :=
  select (cmpi .slt (subi x (constantI S_ 32 2048#32)) (constantI S_ 32 0#32))
    (addi (subi x (constantI S_ 32 2048#32)) (constantI S_ 32 4096#32))
    (subi x (constantI S_ 32 2048#32))

section Reads
variable (W : Valuation τ sig (Elt F))

/-! ## The lines before the first kernel -/

theorem host0_v0 : (StableHlo.after hostOps0 W (Proc.devRef .tc main_v0) : (⟨S512x256, .bf16⟩ : BufTy).Contents (Elt F))
    = truncf .bf16 (W (Proc.devRef .tc main_arg2) : (⟨S512x256, .f32⟩ : BufTy).Contents (Elt F)) bitsLt_bf16_f32 := by
  after_results <;> rfl
theorem host0_v1 : (StableHlo.after hostOps0 W (Proc.devRef .tc main_v1) : (⟨S256x256, .bf16⟩ : BufTy).Contents (Elt F))
    = truncf .bf16 (W (Proc.devRef .tc main_arg4) : (⟨S256x256, .f32⟩ : BufTy).Contents (Elt F)) bitsLt_bf16_f32 := by
  after_results <;> rfl
theorem host0_v2 : (StableHlo.after hostOps0 W (Proc.devRef .tc main_v2) : (⟨S256x256, .bf16⟩ : BufTy).Contents (Elt F))
    = truncf .bf16 (W (Proc.devRef .tc main_arg6) : (⟨S256x256, .f32⟩ : BufTy).Contents (Elt F)) bitsLt_bf16_f32 := by
  after_results <;> rfl
theorem host0_v3 : (StableHlo.after hostOps0 W (Proc.devRef .tc main_v3) : (⟨S256x256, .bf16⟩ : BufTy).Contents (Elt F))
    = truncf .bf16 (W (Proc.devRef .tc main_arg8) : (⟨S256x256, .f32⟩ : BufTy).Contents (Elt F)) bitsLt_bf16_f32 := by
  after_results <;> rfl
theorem host0_v4 : (StableHlo.after hostOps0 W (Proc.devRef .tc main_v4) : (⟨S1x256, .f32⟩ : BufTy).Contents (Elt F))
    = shapeCast S1x256 (W (Proc.devRef .tc main_arg3) : (⟨S256, .f32⟩ : BufTy).Contents (Elt F)) shapeCasts_S256_S1x256 := by
  after_results <;> rfl
theorem host0_v5 : (StableHlo.after hostOps0 W (Proc.devRef .tc main_v5) : (⟨S1x256, .f32⟩ : BufTy).Contents (Elt F))
    = shapeCast S1x256 (W (Proc.devRef .tc main_arg5) : (⟨S256, .f32⟩ : BufTy).Contents (Elt F)) shapeCasts_S256_S1x256 := by
  after_results <;> rfl
theorem host0_v6 : (StableHlo.after hostOps0 W (Proc.devRef .tc main_v6) : (⟨S1x256, .f32⟩ : BufTy).Contents (Elt F))
    = shapeCast S1x256 (W (Proc.devRef .tc main_arg7) : (⟨S256, .f32⟩ : BufTy).Contents (Elt F)) shapeCasts_S256_S1x256 := by
  after_results <;> rfl

/-- They write nothing else. -/
theorem host0_keep (b : Ref sig .tc) (hb : b ∉ ([main_v0, main_v1, main_v2, main_v3, main_v4, main_v5, main_v6] : List (Ref sig .tc))) :
    StableHlo.after hostOps0 W (Proc.devRef .tc b) = W (Proc.devRef .tc b) :=
  StableHlo.after_of_writes_sub hostOps0 W hostOps0_writes hb

/-! ## The lines between the two kernels -/

set_option maxHeartbeats 2000000 in
/-- The first window: 2048 rows of the first kernel's result from the wrapped first start row. -/
theorem host1_v12 : (StableHlo.after hostOps1 W (Proc.devRef .tc main_v12) : (⟨S2048x256, .bf16⟩ : BufTy).Contents (Elt F))
    = Host.dynamicSlice S2048x256 (W (Proc.devRef .tc main_v7) : (⟨S4096x256, .bf16⟩ : BufTy).Contents (Elt F))
        (fun k => ((![wrapRow (W (Proc.devRef .tc main_arg9)), constantI S_ 32 0#32] : Fin 2 → (⟨S_, .i32⟩ : BufTy).Contents (Elt F)) k (Shape.Idx.first h_S_)).toInt)
        sliceFits_S4096x256_S2048x256 := by
  after_results_simp
  congr 1
  funext k
  fin_cases k <;> simp only [Matrix.cons_val_zero', Matrix.cons_val_succ', Fin.zero_eta, Fin.mk_one, Matrix.cons_val_zero, Matrix.cons_val_one, Matrix.head_cons] <;> after_results_simp <;> rfl

set_option maxHeartbeats 2000000 in
/-- The second window: the same from the wrapped sum of the two start rows. -/
theorem host1_v18 : (StableHlo.after hostOps1 W (Proc.devRef .tc main_v18) : (⟨S2048x256, .bf16⟩ : BufTy).Contents (Elt F))
    = Host.dynamicSlice S2048x256 (W (Proc.devRef .tc main_v7) : (⟨S4096x256, .bf16⟩ : BufTy).Contents (Elt F))
        (fun k => ((![wrapRow (addi (W (Proc.devRef .tc main_arg9) : (⟨S_, .i32⟩ : BufTy).Contents (Elt F)) (W (Proc.devRef .tc main_arg10))), constantI S_ 32 0#32] : Fin 2 → (⟨S_, .i32⟩ : BufTy).Contents (Elt F)) k (Shape.Idx.first h_S_)).toInt)
        sliceFits_S4096x256_S2048x256 := by
  after_results_simp
  congr 1
  funext k
  fin_cases k <;> simp only [Matrix.cons_val_zero', Matrix.cons_val_succ', Fin.zero_eta, Fin.mk_one, Matrix.cons_val_zero, Matrix.cons_val_one, Matrix.head_cons] <;> after_results_simp <;> rfl

/-- They write only their own results. -/
theorem host1_keep (b : Ref sig .tc) (hb : b ∉ ([main_c, main_v8, main_c_0, main_v9, main_c_1, main_v10, main_v11, main_c_2, main_v12, main_v13, main_c_3, main_v14, main_c_4, main_v15, main_c_5, main_v16, main_v17, main_c_6, main_v18] : List (Ref sig .tc))) :
    StableHlo.after hostOps1 W (Proc.devRef .tc b) = W (Proc.devRef .tc b) :=
  StableHlo.after_of_writes_sub hostOps1 W hostOps1_writes hb

end Reads

/-! ## Over the extended reals -/

/-- Rounding to the narrower format is the identity. -/
theorem truncf_ideal {s : Shape} {φ ψ : FTy} (x : FVec Ideal s φ) (h : ψ.bits < φ.bits) : (truncf ψ x h : FVec Ideal s ψ) = x := rfl

/-- A vector laid out as a row, read at an index. -/
theorem row_apply {α : Type} (x : S256.Idx → α) (q : Fin 256) :
    shapeCast S1x256 x shapeCasts_S256_S1x256 (ix2 (0 : Fin 1) q) = x (ix1 q) :=
  shapeCast_a_1a_apply x shapeCasts_S256_S1x256 0 q

end Cert.KernelIdeal.Hand

end
-- ==== Proof.KI.Final.lean ====
import proofs.«133194_g38319698214914_cont_sun_m_1384_4_alg».proof.Proof.KI.Frame
import proofs.«133194_g38319698214914_cont_sun_m_1384_4_alg».proof.Proof.KI.HostReads

/-!
The second kernel's result in terms of the launch memory. The host lines before the first kernel round the weight
matrices and lay the bias vectors out as rows and touch nothing else, so the first kernel's operands are the two
argument matrices, the rounded weights and the bias rows. The host lines between the kernels cut two windows of 2048
rows out of the first kernel's result, from the two wrapped start rows, and touch nothing else that the second kernel
reads. So the program's result is the decoder of those two windows and the rounded last weight matrix.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Cert.KernelIdeal.K0

variable {F : FTy → Type} [FloatOps F]
variable (m : (ℓ : Loc nD τ sig) → Buf (Elt F) ℓ) (ρ : Dev nD → PrngReg)

/-- The first kernel's operands read off the launch memory: the adjacency and the features as launched, the weights
    rounded, the biases as rows. -/
abbrev launchOps (c : Dev nD) : Ops F :=
  ⟨m ((c : Thread nD τ).loc main_arg1), m ((c : Thread nD τ).loc main_arg0),
    truncf .bf16 (m ((c : Thread nD τ).loc main_arg2) : (⟨S512x256, .f32⟩ : BufTy).Contents (Elt F)) bitsLt_bf16_f32,
    shapeCast S1x256 (m ((c : Thread nD τ).loc main_arg3) : (⟨S256, .f32⟩ : BufTy).Contents (Elt F)) shapeCasts_S256_S1x256,
    truncf .bf16 (m ((c : Thread nD τ).loc main_arg4) : (⟨S256x256, .f32⟩ : BufTy).Contents (Elt F)) bitsLt_bf16_f32,
    shapeCast S1x256 (m ((c : Thread nD τ).loc main_arg5) : (⟨S256, .f32⟩ : BufTy).Contents (Elt F)) shapeCasts_S256_S1x256,
    truncf .bf16 (m ((c : Thread nD τ).loc main_arg6) : (⟨S256x256, .f32⟩ : BufTy).Contents (Elt F)) bitsLt_bf16_f32,
    shapeCast S1x256 (m ((c : Thread nD τ).loc main_arg7) : (⟨S256, .f32⟩ : BufTy).Contents (Elt F)) shapeCasts_S256_S1x256⟩

/-- The operands the first kernel is entered with are those. -/
theorem ops_launch (c : Dev nD) : opsOf (V1 m ρ) c = launchOps m c := by
  have e1 : V1 m ρ c main_arg1 = m ((c : Thread nD τ).loc main_arg1) := host0_keep (W0 m ρ c) main_arg1 (by decide)
  have e0 : V1 m ρ c main_arg0 = m ((c : Thread nD τ).loc main_arg0) := host0_keep (W0 m ρ c) main_arg0 (by decide)
  have e2 : V1 m ρ c main_v0 = _ := host0_v0 (W0 m ρ c)
  have e3 : V1 m ρ c main_v4 = _ := host0_v4 (W0 m ρ c)
  have e4 : V1 m ρ c main_v1 = _ := host0_v1 (W0 m ρ c)
  have e5 : V1 m ρ c main_v5 = _ := host0_v5 (W0 m ρ c)
  have e6 : V1 m ρ c main_v2 = _ := host0_v2 (W0 m ρ c)
  have e7 : V1 m ρ c main_v6 = _ := host0_v6 (W0 m ρ c)
  unfold opsOf
  rw [e1, e0, e2, e3, e4, e5, e6, e7]

/-- The start rows reach the second stretch of host lines as launched. -/
theorem W2_main_arg9 (c : Dev nD) : W2 m ρ c (Proc.devRef .tc main_arg9) = m ((c : Thread nD τ).loc main_arg9) :=
  (W2_of_ne m ρ c main_arg9 (by decide)).trans (host0_keep (W0 m ρ c) main_arg9 (by decide))
theorem W2_main_arg10 (c : Dev nD) : W2 m ρ c (Proc.devRef .tc main_arg10) = m ((c : Thread nD τ).loc main_arg10) :=
  (W2_of_ne m ρ c main_arg10 (by decide)).trans (host0_keep (W0 m ρ c) main_arg10 (by decide))

/-- The second kernel's first operand: 2048 rows of the first kernel's result from the wrapped first start row. -/
theorem V3_main_v12 (c : Dev nD) :
    V3 m ρ c main_v12 = Host.dynamicSlice S2048x256 (opsOf (V1 m ρ) c).h3
        (fun k => ((![wrapRow (m ((c : Thread nD τ).loc main_arg9) : (⟨S_, .i32⟩ : BufTy).Contents (Elt F)), constantI S_ 32 0#32] : Fin 2 → (⟨S_, .i32⟩ : BufTy).Contents (Elt F)) k (Shape.Idx.first h_S_)).toInt)
        sliceFits_S4096x256_S2048x256 := by
  refine (host1_v12 (W2 m ρ c)).trans ?_
  rw [W2_main_v7 m ρ c, W2_main_arg9 m ρ c]
  rfl

/-- Its third operand: the same from the wrapped sum of the two start rows. -/
theorem V3_main_v18 (c : Dev nD) :
    V3 m ρ c main_v18 = Host.dynamicSlice S2048x256 (opsOf (V1 m ρ) c).h3
        (fun k => ((![wrapRow (addi (m ((c : Thread nD τ).loc main_arg9) : (⟨S_, .i32⟩ : BufTy).Contents (Elt F)) (m ((c : Thread nD τ).loc main_arg10))), constantI S_ 32 0#32] : Fin 2 → (⟨S_, .i32⟩ : BufTy).Contents (Elt F)) k (Shape.Idx.first h_S_)).toInt)
        sliceFits_S4096x256_S2048x256 := by
  refine (host1_v18 (W2 m ρ c)).trans ?_
  rw [W2_main_v7 m ρ c, W2_main_arg9 m ρ c, W2_main_arg10 m ρ c]
  rfl

/-- Its second operand: the last weight matrix rounded. -/
theorem V3_main_v3 (c : Dev nD) :
    V3 m ρ c main_v3 = truncf .bf16 (m ((c : Thread nD τ).loc main_arg8) : (⟨S256x256, .f32⟩ : BufTy).Contents (Elt F)) bitsLt_bf16_f32 :=
  (host1_keep (W2 m ρ c) main_v3 (by decide)).trans
    ((W2_of_ne m ρ c main_v3 (by decide)).trans (host0_v3 (W0 m ρ c)))

/-- THE RESULT ARRAY at the end: the decoder of the two windows and the rounded last weight matrix. -/
theorem kernel_value (c : Dev nD) :
    W4 m ρ c (Proc.devRef .tc main_v19) = K1.dec (Host.dynamicSlice S2048x256 (opsOf (V1 m ρ) c).h3
        (fun k => ((![wrapRow (m ((c : Thread nD τ).loc main_arg9) : (⟨S_, .i32⟩ : BufTy).Contents (Elt F)), constantI S_ 32 0#32] : Fin 2 → (⟨S_, .i32⟩ : BufTy).Contents (Elt F)) k (Shape.Idx.first h_S_)).toInt)
        sliceFits_S4096x256_S2048x256)
      (truncf .bf16 (m ((c : Thread nD τ).loc main_arg8) : (⟨S256x256, .f32⟩ : BufTy).Contents (Elt F)) bitsLt_bf16_f32)
      (Host.dynamicSlice S2048x256 (opsOf (V1 m ρ) c).h3
        (fun k => ((![wrapRow (addi (m ((c : Thread nD τ).loc main_arg9) : (⟨S_, .i32⟩ : BufTy).Contents (Elt F)) (m ((c : Thread nD τ).loc main_arg10))), constantI S_ 32 0#32] : Fin 2 → (⟨S_, .i32⟩ : BufTy).Contents (Elt F)) k (Shape.Idx.first h_S_)).toInt)
        sliceFits_S4096x256_S2048x256) := by
  rw [W4_main_v19 m ρ c, V3_main_v12 m ρ c, V3_main_v3 m ρ c, V3_main_v18 m ρ c]

/-- THE RUN, READ: every execution terminates with the result array at that value and every argument as launched. -/
theorem run_value : θ_run defs (onTc (τ := τ) (main (F := F))) ⟨m, fun _ => 0, ρ⟩ (fun r => ∀ c : Dev nD,
      r.2.mem ((c.tc : Thread nD τ).loc main_v19) = K1.dec (Host.dynamicSlice S2048x256 (opsOf (V1 m ρ) c).h3
        (fun k => ((![wrapRow (m ((c : Thread nD τ).loc main_arg9) : (⟨S_, .i32⟩ : BufTy).Contents (Elt F)), constantI S_ 32 0#32] : Fin 2 → (⟨S_, .i32⟩ : BufTy).Contents (Elt F)) k (Shape.Idx.first h_S_)).toInt)
        sliceFits_S4096x256_S2048x256)
      (truncf .bf16 (m ((c : Thread nD τ).loc main_arg8) : (⟨S256x256, .f32⟩ : BufTy).Contents (Elt F)) bitsLt_bf16_f32)
      (Host.dynamicSlice S2048x256 (opsOf (V1 m ρ) c).h3
        (fun k => ((![wrapRow (addi (m ((c : Thread nD τ).loc main_arg9) : (⟨S_, .i32⟩ : BufTy).Contents (Elt F)) (m ((c : Thread nD τ).loc main_arg10))), constantI S_ 32 0#32] : Fin 2 → (⟨S_, .i32⟩ : BufTy).Contents (Elt F)) k (Shape.Idx.first h_S_)).toInt)
        sliceFits_S4096x256_S2048x256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v19 (by decide))).trans (kernel_value m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run_all m ρ)

end Cert.KernelIdeal.Hand

end
-- ==== Proof.KI.K0Value.lean ====
import proofs.«133194_g38319698214914_cont_sun_m_1384_4_alg».proof.Proof.Spec
import proofs.«133194_g38319698214914_cont_sun_m_1384_4_alg».proof.Proof.KI.K0Fun
import Idealize.ShloMosaic.PureOps.Ideal.Laws
import Idealize.ShloMosaic.Lib.ValueIdx
import Idealize.ShloMosaic.Lib.ValueLayout
import Idealize.ShloMosaic.Lib.Pipeline.Value

/-!
The first kernel's arrays, read entry by entry on the extended reals. Each payload at an index is a finite sum of
products (a matrix product into a zero accumulator), followed where the body says so by the bias row and the leaky
rectifier; a slab read at row `p` of slab `b` is the whole array at row `512 b + p`. Assembled, the four phases give
`Spec.hid` of the eight operands.
-/

noncomputable section

namespace Cert.KernelIdeal.K0V

open Cert.KernelIdeal Cert.KernelIdeal.Gen
open Idealize.ShloMosaic Idealize.ShloMosaic.TcCoe Idealize.ShloMosaic.ValueIdx Idealize.SL.Sem

/-! ## The four matrix products at an index -/

theorem mmH_l0 (i : S512x256.Idx) (c : dot_S512x512_S512x256_S512x256_1_0_0_1_n_n.contr.Idx) : (dot_S512x512_S512x256_S512x256_1_0_0_1_n_n.lhsIdx i c 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem mmH_l1 (i : S512x256.Idx) (c : dot_S512x512_S512x256_S512x256_1_0_0_1_n_n.contr.Idx) : (dot_S512x512_S512x256_S512x256_1_0_0_1_n_n.lhsIdx i c 1).val = (c ⟨0, by decide⟩).val :=
  dot_S512x512_S512x256_S512x256_1_0_0_1_n_n.lhsIdx_val_of_single rfl i c
theorem mmH_r0 (i : S512x256.Idx) (c : dot_S512x512_S512x256_S512x256_1_0_0_1_n_n.contr.Idx) : (dot_S512x512_S512x256_S512x256_1_0_0_1_n_n.rhsIdx i c 0).val = (c ⟨0, by decide⟩).val :=
  dot_S512x512_S512x256_S512x256_1_0_0_1_n_n.rhsIdx_val_of_single rfl i c
theorem mmH_r1 (i : S512x256.Idx) (c : dot_S512x512_S512x256_S512x256_1_0_0_1_n_n.contr.Idx) : (dot_S512x512_S512x256_S512x256_1_0_0_1_n_n.rhsIdx i c 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl
/-- The product into the zero accumulator, entry `(p, q)`. -/
theorem mmH {φ₁ φ₂ : FTy} (x : FVec Ideal S512x512 φ₁) (w : FVec Ideal S512x256 φ₂) (p : Fin 512) (q : Fin 256) :
    FloatOps.matmul dot_S512x512_S512x256_S512x256_1_0_0_1_n_n none x w (constant (F := Ideal) S512x256 .f32 0x00000000#32) (ix2 p q)
      = ∑ k : Fin 512, x (ix2 p k) * w (ix2 k q) := by
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p q) ((ValueIdx.contrEquiv1 dot_S512x512_S512x256_S512x256_1_0_0_1_n_n 512 rfl rfl).symm k) = ix2 p k := funext fun a => Fin.ext (by
    match a with
    | ⟨0, _⟩ => exact mmH_l0 _ _
    | ⟨1, _⟩ => exact (mmH_l1 _ _).trans hk)
  have er : dot_S512x512_S512x256_S512x256_1_0_0_1_n_n.rhsIdx (ix2 p q) ((ValueIdx.contrEquiv1 dot_S512x512_S512x256_S512x256_1_0_0_1_n_n 512 rfl rfl).symm k) = ix2 k q := funext fun a => Fin.ext (by
    match a with
    | ⟨0, _⟩ => exact (mmH_r0 _ _).trans hk
    | ⟨1, _⟩ => exact mmH_r1 _ _)
  rw [el, er]

theorem mmG_l0 (i : S512x256.Idx) (c : dot_S512x4096_S4096x256_S512x256_1_0_0_1_n_n.contr.Idx) : (dot_S512x4096_S4096x256_S512x256_1_0_0_1_n_n.lhsIdx i c 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem mmG_l1 (i : S512x256.Idx) (c : dot_S512x4096_S4096x256_S512x256_1_0_0_1_n_n.contr.Idx) : (dot_S512x4096_S4096x256_S512x256_1_0_0_1_n_n.lhsIdx i c 1).val = (c ⟨0, by decide⟩).val :=
  dot_S512x4096_S4096x256_S512x256_1_0_0_1_n_n.lhsIdx_val_of_single rfl i c
theorem mmG_r0 (i : S512x256.Idx) (c : dot_S512x4096_S4096x256_S512x256_1_0_0_1_n_n.contr.Idx) : (dot_S512x4096_S4096x256_S512x256_1_0_0_1_n_n.rhsIdx i c 0).val = (c ⟨0, by decide⟩).val :=
  dot_S512x4096_S4096x256_S512x256_1_0_0_1_n_n.rhsIdx_val_of_single rfl i c
theorem mmG_r1 (i : S512x256.Idx) (c : dot_S512x4096_S4096x256_S512x256_1_0_0_1_n_n.contr.Idx) : (dot_S512x4096_S4096x256_S512x256_1_0_0_1_n_n.rhsIdx i c 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl
/-- The product into the zero accumulator, entry `(p, q)`. -/
theorem mmG {φ₁ φ₂ : FTy} (x : FVec Ideal S512x4096 φ₁) (w : FVec Ideal S4096x256 φ₂) (p : Fin 512) (q : Fin 256) :
    FloatOps.matmul dot_S512x4096_S4096x256_S512x256_1_0_0_1_n_n none x w (constant (F := Ideal) S512x256 .f32 0x00000000#32) (ix2 p q)
      = ∑ k : Fin 4096, x (ix2 p k) * w (ix2 k q) := by
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact mmG_l0 _ _
    | ⟨1, _⟩ => exact (mmG_l1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (mmG_r0 _ _).trans hk
    | ⟨1, _⟩ => exact mmG_r1 _ _)
  rw [el, er]

theorem mmW_l0 (i : S512x256.Idx) (c : dot_S512x256_S256x256_S512x256_1_0_0_1_n_n.contr.Idx) : (dot_S512x256_S256x256_S512x256_1_0_0_1_n_n.lhsIdx i c 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mmW_l1 (i : S512x256.Idx) (c : dot_S512x256_S256x256_S512x256_1_0_0_1_n_n.contr.Idx) : (dot_S512x256_S256x256_S512x256_1_0_0_1_n_n.lhsIdx i c 1).val = (c ⟨0, by decide⟩).val :=
  dot_S512x256_S256x256_S512x256_1_0_0_1_n_n.lhsIdx_val_of_single rfl i c
theorem mmW_r0 (i : S512x256.Idx) (c : dot_S512x256_S256x256_S512x256_1_0_0_1_n_n.contr.Idx) : (dot_S512x256_S256x256_S512x256_1_0_0_1_n_n.rhsIdx i c 0).val = (c ⟨0, by decide⟩).val :=
  dot_S512x256_S256x256_S512x256_1_0_0_1_n_n.rhsIdx_val_of_single rfl i c
theorem mmW_r1 (i : S512x256.Idx) (c : dot_S512x256_S256x256_S512x256_1_0_0_1_n_n.contr.Idx) : (dot_S512x256_S256x256_S512x256_1_0_0_1_n_n.rhsIdx i c 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- The product into the zero accumulator, entry `(p, q)`. -/
theorem mmW {φ₁ φ₂ : FTy} (x : FVec Ideal S512x256 φ₁) (w : FVec Ideal S256x256 φ₂) (p : Fin 512) (q : Fin 256) :
    FloatOps.matmul dot_S512x256_S256x256_S512x256_1_0_0_1_n_n none x w (constant (F := Ideal) S512x256 .f32 0x00000000#32) (ix2 p q)
      = ∑ k : Fin 256, x (ix2 p k) * w (ix2 k q) := by
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact mmW_l0 _ _
    | ⟨1, _⟩ => exact (mmW_l1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (mmW_r0 _ _).trans hk
    | ⟨1, _⟩ => exact mmW_r1 _ _)
  rw [el, er]

theorem mmT_l0 (i : S512x2048.Idx) (c : dot_S512x256_S2048x256_S512x2048_1_1_0_0_n_n.contr.Idx) : (dot_S512x256_S2048x256_S512x2048_1_1_0_0_n_n.lhsIdx i c 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem mmT_l1 (i : S512x2048.Idx) (c : dot_S512x256_S2048x256_S512x2048_1_1_0_0_n_n.contr.Idx) : (dot_S512x256_S2048x256_S512x2048_1_1_0_0_n_n.lhsIdx i c 1).val = (c ⟨0, by decide⟩).val :=
  dot_S512x256_S2048x256_S512x2048_1_1_0_0_n_n.lhsIdx_val_of_single rfl i c
theorem mmT_r0 (i : S512x2048.Idx) (c : dot_S512x256_S2048x256_S512x2048_1_1_0_0_n_n.contr.Idx) : (dot_S512x256_S2048x256_S512x2048_1_1_0_0_n_n.rhsIdx i c 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem mmT_r1 (i : S512x2048.Idx) (c : dot_S512x256_S2048x256_S512x2048_1_1_0_0_n_n.contr.Idx) : (dot_S512x256_S2048x256_S512x2048_1_1_0_0_n_n.rhsIdx i c 1).val = (c ⟨0, by decide⟩).val :=
  dot_S512x256_S2048x256_S512x2048_1_1_0_0_n_n.rhsIdx_val_of_single rfl i c
/-- The product into the zero accumulator, entry `(p, q)`. -/
theorem mmT {φ₁ φ₂ : FTy} (x : FVec Ideal S512x256 φ₁) (w : FVec Ideal S2048x256 φ₂) (p : Fin 512) (q : Fin 2048) :
    FloatOps.matmul dot_S512x256_S2048x256_S512x2048_1_1_0_0_n_n none x w (constant (F := Ideal) S512x2048 .f32 0x00000000#32) (ix2 p q)
      = ∑ k : Fin 256, x (ix2 p k) * w (ix2 q k) := by
  rw [Ideal.matmul_constant_zero_apply, ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 p q) ((ValueIdx.contrEquiv1 dot_S512x256_S2048x256_S512x2048_1_1_0_0_n_n 256 rfl rfl).symm k) = ix2 p k := funext fun a => Fin.ext (by
    match a with
    | ⟨0, _⟩ => exact mmT_l0 _ _
    | ⟨1, _⟩ => exact (mmT_l1 _ _).trans hk)
  have er : dot_S512x256_S2048x256_S512x2048_1_1_0_0_n_n.rhsIdx (ix2 p q) ((ValueIdx.contrEquiv1 dot_S512x256_S2048x256_S512x2048_1_1_0_0_n_n 256 rfl rfl).symm k) = ix2 q k := funext fun a => Fin.ext (by
    match a with
    | ⟨0, _⟩ => exact mmT_r0 _ _
    | ⟨1, _⟩ => exact (mmT_r1 _ _).trans hk)
  rw [el, er]

/-! ## The payloads at an index -/

/-- The rectifier as the body computes it, entry by entry: compare with zero, keep or scale by a quarter. -/
theorem leaky_apply {s : Shape} (v : FVec Ideal s .f32) (i : s.Idx) :
    (truncf .bf16 (select (cmpf .oge v (broadcast s (Scalar.ofBits (F := Ideal) .f32 0x00000000#32))) v
      (mulf (broadcast s (Scalar.ofBits (F := Ideal) .f32 0x3E800000#32)) v)) bitsLt_bf16_f32 : FVec Ideal s .bf16) i
      = Spec.leaky (v i) := rfl

/-- The bias row under every row of the slab. -/
theorem bias_apply (b : Vec Ideal S1x256 .f32) (p : Fin 512) (q : Fin 256) :
    broadcastTo S512x256 (shapeCast S1x256 b shapeCasts_S1x256_S1x256) broadcasts_S1x256_S512x256 (ix2 p q)
      = b (ix2 (0 : Fin 1) q) := by
  rw [shapeCast_self]
  exact broadcastTo_1b_ab_apply b _ p q

/-- Rounding a slab of `G` changes nothing on the extended reals. -/
theorem pay1_apply (x : Vec Ideal S512x4096 .f32) (j : S512x4096.Idx) : k0_pay1 (F := Ideal) x j = x j := by
  exact congrFun (shapeCast_self (truncf .bf16 (x : FVec Ideal S512x4096 .f32) bitsLt_bf16_f32 : FVec Ideal S512x4096 .bf16)
    shapeCasts_S512x4096_S512x4096) j

/-- A slab of `H·W1`. -/
theorem pay2_apply (x : Vec Ideal S512x512 .f32) (w : Vec Ideal S512x256 .bf16) (p : Fin 512) (q : Fin 256) :
    k0_pay2 (F := Ideal) x w (ix2 p q) = ∑ k : Fin 512, x (ix2 p k) * w (ix2 k q) := by
  unfold k0_pay2
  show shapeCast S512x256 (truncf .bf16 (matmul dot_S512x512_S512x256_S512x256_1_0_0_1_n_n none
    (truncf .bf16 x bitsLt_bf16_f32) (shapeCast S512x256 w shapeCasts_S512x256_S512x256)
    (constant (F := Ideal) S512x256 .f32 0x00000000#32)) bitsLt_bf16_f32) shapeCasts_S512x256_S512x256 (ix2 p q) = _
  rw [shapeCast_self, shapeCast_self]
  exact mmH (φ₁ := .bf16) (φ₂ := .bf16) (truncf .bf16 (x : FVec Ideal S512x512 .f32) bitsLt_bf16_f32) w p q

/-- A slab of `leaky(G·S + b)`. -/
theorem pay5_apply (g : Vec Ideal S512x4096 .bf16) (s : Vec Ideal S4096x256 .bf16) (b : Vec Ideal S1x256 .f32)
    (p : Fin 512) (q : Fin 256) :
    k0_pay5 (F := Ideal) g s b (ix2 p q)
      = Spec.leaky ((∑ k : Fin 4096, g (ix2 p k) * s (ix2 k q)) + b (ix2 (0 : Fin 1) q)) := by
  unfold k0_pay5
  refine (leaky_apply _ _).trans (congrArg Spec.leaky ?_)
  exact congrArg₂ (· + ·) (mmG g s p q) (bias_apply b p q)

/-- A slab of `leaky(G·S + b)·W` (phase 1). -/
theorem pay3_apply (g : Vec Ideal S512x4096 .bf16) (s : Vec Ideal S4096x256 .bf16) (b : Vec Ideal S1x256 .f32)
    (w : Vec Ideal S256x256 .bf16) (p : Fin 512) (q : Fin 256) :
    k0_pay3 (F := Ideal) g s b w (ix2 p q)
      = ∑ k : Fin 256, Spec.leaky ((∑ k' : Fin 4096, g (ix2 p k') * s (ix2 k' k)) + b (ix2 (0 : Fin 1) k)) * w (ix2 k q) := by
  have e : k0_pay3 (F := Ideal) g s b w = shapeCast S512x256 (truncf .bf16 (matmul dot_S512x256_S256x256_S512x256_1_0_0_1_n_n none
      (k0_pay5 (F := Ideal) g s b) (shapeCast S256x256 w shapeCasts_S256x256_S256x256)
      (constant (F := Ideal) S512x256 .f32 0x00000000#32)) bitsLt_bf16_f32) shapeCasts_S512x256_S512x256 := rfl
  rw [e, shapeCast_self, shapeCast_self]
  refine (mmW (φ₁ := .bf16) (φ₂ := .bf16) (k0_pay5 (F := Ideal) g s b) w p q).trans ?_
  exact Finset.sum_congr rfl fun k _ => congrArg (· * w (ix2 k q)) (pay5_apply g s b p k)

/-- A slab of `leaky(G·S + b)·W` (phase 2: the same arithmetic). -/
theorem pay4_apply (g : Vec Ideal S512x4096 .bf16) (s : Vec Ideal S4096x256 .bf16) (b : Vec Ideal S1x256 .f32)
    (w : Vec Ideal S256x256 .bf16) (p : Fin 512) (q : Fin 256) :
    k0_pay4 (F := Ideal) g s b w (ix2 p q)
      = ∑ k : Fin 256, Spec.leaky ((∑ k' : Fin 4096, g (ix2 p k') * s (ix2 k' k)) + b (ix2 (0 : Fin 1) k)) * w (ix2 k q) :=
  pay3_apply g s b w p q

/-- A block of the decoder: `(R·T)·Dᵀ`. -/
theorem k1_pay1_apply (x0 : Vec Ideal S512x256 .bf16) (x1 : Vec Ideal S256x256 .bf16) (x2 : Vec Ideal S2048x256 .bf16)
    (p : Fin 512) (q : Fin 2048) :
    k1_pay1 (F := Ideal) x0 x1 x2 (ix2 p q)
      = ∑ k : Fin 256, (∑ j : Fin 256, x0 (ix2 p j) * x1 (ix2 j k)) * x2 (ix2 q k) := by
  have e : k1_pay1 (F := Ideal) x0 x1 x2 = matmul dot_S512x256_S2048x256_S512x2048_1_1_0_0_n_n none
      (truncf .bf16 (matmul dot_S512x256_S256x256_S512x256_1_0_0_1_n_n none (shapeCast S512x256 x0 shapeCasts_S512x256_S512x256)
        (shapeCast S256x256 x1 shapeCasts_S256x256_S256x256) (constant (F := Ideal) S512x256 .f32 0x00000000#32)) bitsLt_bf16_f32)
      (shapeCast S2048x256 x2 shapeCasts_S2048x256_S2048x256) (constant (F := Ideal) S512x2048 .f32 0x00000000#32) := rfl
  rw [e, shapeCast_self, shapeCast_self, shapeCast_self]
  refine (mmT (φ₁ := .bf16) (φ₂ := .bf16) _ x2 p q).trans ?_
  exact Finset.sum_congr rfl fun k _ => congrArg (· * x2 (ix2 q k)) (mmW (φ₁ := .bf16) (φ₂ := .bf16) x0 x1 p k)

/-! ## A slab read at a row is the whole array at that row -/

/-- `512 (r / 512) + r % 512 = r`, on the three slabbed shapes. -/
theorem slabG_idx (r : Fin 4096) (k : Fin 4096) : (K0.slabG (K0.slabOf r)).idx (ix2 (K0.rowIn r) k) = ix2 r k := by
  funext a; apply Fin.ext
  match a with
  | ⟨0, _⟩ => show 512 * (r.val / 512) + 1 * (r.val % 512) = r.val; omega
  | ⟨1, _⟩ => show 0 + 1 * k.val = k.val; omega
theorem slabH_idx (r : Fin 4096) (k : Fin 512) : (K0.slabH (K0.slabOf r)).idx (ix2 (K0.rowIn r) k) = ix2 r k := by
  funext a; apply Fin.ext
  match a with
  | ⟨0, _⟩ => show 512 * (r.val / 512) + 1 * (r.val % 512) = r.val; omega
  | ⟨1, _⟩ => show 0 + 1 * k.val = k.val; omega

theorem ld_slabG {e : EltTy} (X : Vec Ideal S4096x4096 e) (r : Fin 4096) (k : Fin 4096) :
    View.ld X (K0.slabG (K0.slabOf r)) (ix2 (K0.rowIn r) k) = X (ix2 r k) := congrArg X (slabG_idx r k)
theorem ld_slabH {e : EltTy} (X : Vec Ideal S4096x512 e) (r : Fin 4096) (k : Fin 512) :
    View.ld X (K0.slabH (K0.slabOf r)) (ix2 (K0.rowIn r) k) = X (ix2 r k) := congrArg X (slabH_idx r k)

/-! ## The whole arrays -/

/-- The rounded `G` is `G`. -/
theorem gb_gen (G : Vec Ideal S4096x4096 .f32) (r : Fin 4096) (k : Fin 4096) : K0.gb G (ix2 r k) = G (ix2 r k) := by
  show k0_pay1 (F := Ideal) (View.ld G (K0.slabG (K0.slabOf r))) (ix2 (K0.rowIn r) k) = _
  rw [pay1_apply]
  exact ld_slabG G r k

/-- The first support is `H·W1`. -/
theorem s1_gen (H : Vec Ideal S4096x512 .f32) (W1 : Vec Ideal S512x256 .bf16) (r : Fin 4096) (q : Fin 256) :
    K0.s1 H W1 (ix2 r q) = Spec.mm (fun r k => H (ix2 r k)) (fun j q => W1 (ix2 j q)) r q := by
  show k0_pay2 (F := Ideal) (View.ld H (K0.slabH (K0.slabOf r))) W1 (ix2 (K0.rowIn r) q) = _
  rw [pay2_apply]
  exact Finset.sum_congr rfl fun k _ => congrArg (· * W1 (ix2 k q)) (ld_slabH H r k)

/-- One propagation step followed by the next weight: `leaky(G·S + b)·W`. -/
theorem s2_gen (Gb : Vec Ideal S4096x4096 .bf16) (S : Vec Ideal S4096x256 .bf16) (b : Vec Ideal S1x256 .f32)
    (W : Vec Ideal S256x256 .bf16) (r : Fin 4096) (q : Fin 256) :
    K0.s2 Gb S b W (ix2 r q)
      = Spec.mm (Spec.layer (fun r k => Gb (ix2 r k)) (fun r k => S (ix2 r k)) (fun q => b (ix2 (0 : Fin 1) q)))
          (fun j q => W (ix2 j q)) r q := by
  show k0_pay3 (F := Ideal) (View.ld Gb (K0.slabG (K0.slabOf r))) S b W (ix2 (K0.rowIn r) q) = _
  rw [pay3_apply]
  refine Finset.sum_congr rfl fun k _ => ?_
  refine congrArg (fun t => Spec.leaky (t + b (ix2 (0 : Fin 1) k)) * W (ix2 k q)) ?_
  exact Finset.sum_congr rfl fun k' _ => congrArg (· * S (ix2 k' k)) (ld_slabG Gb r k')
theorem s3_gen (Gb : Vec Ideal S4096x4096 .bf16) (S : Vec Ideal S4096x256 .bf16) (b : Vec Ideal S1x256 .f32)
    (W : Vec Ideal S256x256 .bf16) (r : Fin 4096) (q : Fin 256) :
    K0.s3 Gb S b W (ix2 r q)
      = Spec.mm (Spec.layer (fun r k => Gb (ix2 r k)) (fun r k => S (ix2 r k)) (fun q => b (ix2 (0 : Fin 1) q)))
          (fun j q => W (ix2 j q)) r q := s2_gen Gb S b W r q

/-- The last propagation step: `leaky(G·S + b)`. -/
theorem h3_gen (Gb : Vec Ideal S4096x4096 .bf16) (S : Vec Ideal S4096x256 .bf16) (b : Vec Ideal S1x256 .f32)
    (r : Fin 4096) (q : Fin 256) :
    K0.h3 Gb S b (ix2 r q)
      = Spec.layer (fun r k => Gb (ix2 r k)) (fun r k => S (ix2 r k)) (fun q => b (ix2 (0 : Fin 1) q)) r q := by
  show k0_pay5 (F := Ideal) (View.ld Gb (K0.slabG (K0.slabOf r))) S b (ix2 (K0.rowIn r) q) = _
  rw [pay5_apply]
  refine congrArg (fun t => Spec.leaky (t + b (ix2 (0 : Fin 1) q))) ?_
  exact Finset.sum_congr rfl fun k' _ => congrArg (· * S (ix2 k' q)) (ld_slabG Gb r k')

/-! ## The first kernel computes `Spec.hid` -/

section
variable (o : K0.Ops Ideal)

theorem gb_apply (r : Fin 4096) (k : Fin 4096) : o.gb (ix2 r k) = o.G (ix2 r k) := gb_gen o.G r k

theorem gb_fun : (fun (r : Fin 4096) (k : Fin 4096) => o.gb (ix2 r k)) = fun r k => o.G (ix2 r k) :=
  funext fun r => funext fun k => gb_apply o r k

theorem s1_apply (r : Fin 4096) (q : Fin 256) :
    o.s1 (ix2 r q) = Spec.S1 (fun r k => o.H (ix2 r k)) (fun j q => o.W1 (ix2 j q)) r q := s1_gen o.H o.W1 r q

theorem s1_fun : (fun (r : Fin 4096) (q : Fin 256) => o.s1 (ix2 r q))
    = Spec.S1 (fun r k => o.H (ix2 r k)) (fun j q => o.W1 (ix2 j q)) :=
  funext fun r => funext fun q => s1_apply o r q

theorem s2_apply (r : Fin 4096) (q : Fin 256) :
    o.s2 (ix2 r q) = Spec.S2 (fun r k => o.G (ix2 r k)) (fun r k => o.H (ix2 r k)) (fun j q => o.W1 (ix2 j q))
      (fun q => o.b1 (ix2 (0 : Fin 1) q)) (fun j q => o.W2 (ix2 j q)) r q := by
  refine (s2_gen o.gb o.s1 o.b1 o.W2 r q).trans ?_
  exact congrArg₂ (fun A B => Spec.mm (Spec.layer A B (fun q => o.b1 (ix2 (0 : Fin 1) q))) (fun j q => o.W2 (ix2 j q)) r q)
    (gb_fun o) (s1_fun o)

theorem s2_fun : (fun (r : Fin 4096) (q : Fin 256) => o.s2 (ix2 r q))
    = Spec.S2 (fun r k => o.G (ix2 r k)) (fun r k => o.H (ix2 r k)) (fun j q => o.W1 (ix2 j q))
      (fun q => o.b1 (ix2 (0 : Fin 1) q)) (fun j q => o.W2 (ix2 j q)) :=
  funext fun r => funext fun q => s2_apply o r q

theorem s3_apply (r : Fin 4096) (q : Fin 256) :
    o.s3 (ix2 r q) = Spec.S3 (fun r k => o.G (ix2 r k)) (fun r k => o.H (ix2 r k)) (fun j q => o.W1 (ix2 j q))
      (fun q => o.b1 (ix2 (0 : Fin 1) q)) (fun j q => o.W2 (ix2 j q)) (fun q => o.b2 (ix2 (0 : Fin 1) q))
      (fun j q => o.W3 (ix2 j q)) r q := by
  refine (s3_gen o.gb o.s2 o.b2 o.W3 r q).trans ?_
  exact congrArg₂ (fun A B => Spec.mm (Spec.layer A B (fun q => o.b2 (ix2 (0 : Fin 1) q))) (fun j q => o.W3 (ix2 j q)) r q)
    (gb_fun o) (s2_fun o)

theorem s3_fun : (fun (r : Fin 4096) (q : Fin 256) => o.s3 (ix2 r q))
    = Spec.S3 (fun r k => o.G (ix2 r k)) (fun r k => o.H (ix2 r k)) (fun j q => o.W1 (ix2 j q))
      (fun q => o.b1 (ix2 (0 : Fin 1) q)) (fun j q => o.W2 (ix2 j q)) (fun q => o.b2 (ix2 (0 : Fin 1) q))
      (fun j q => o.W3 (ix2 j q)) :=
  funext fun r => funext fun q => s3_apply o r q

/-- The array the first kernel writes is the third activation of the eight operands. -/
theorem kern_hid (r : Fin 4096) (q : Fin 256) :
    o.h3 (ix2 r q) = Spec.hid (fun r k => o.G (ix2 r k)) (fun r k => o.H (ix2 r k)) (fun j q => o.W1 (ix2 j q))
      (fun q => o.b1 (ix2 (0 : Fin 1) q)) (fun j q => o.W2 (ix2 j q)) (fun q => o.b2 (ix2 (0 : Fin 1) q))
      (fun j q => o.W3 (ix2 j q)) (fun q => o.b3 (ix2 (0 : Fin 1) q)) r q := by
  refine (h3_gen o.gb o.s3 o.b3 r q).trans ?_
  exact congrArg₂ (fun A B => Spec.layer A B (fun q => o.b3 (ix2 (0 : Fin 1) q)) r q) (gb_fun o) (s3_fun o)

end

end Cert.KernelIdeal.K0V

end
-- ==== Proof.KI.K1Value.lean ====
import proofs.«133194_g38319698214914_cont_sun_m_1384_4_alg».proof.Proof.KI.K0Value
import proofs.«133194_g38319698214914_cont_sun_m_1384_4_alg».proof.Proof.KI.K1Fun

/-!
The second kernel's result, entry by entry: the slab of `R` a grid point reads is rows `512 b … 512 b + 511` of `R`, so
the assembled array is `(R·T)·Dᵀ`. And the window of 2048 rows a dynamic slice takes of a 4096×256 array, at an index:
row `p` of the window is row `c + p` of the array, `c` the start clamped into `[0, 2048]`; the column start clamps to 0.
-/

noncomputable section

namespace Cert.KernelIdeal.K1V

open Cert.KernelIdeal Cert.KernelIdeal.Gen
open Idealize.ShloMosaic Idealize.ShloMosaic.TcCoe Idealize.ShloMosaic.ValueIdx Idealize.SL.Sem

/-! ## The decoder -/

/-- `512 (r / 512) + r % 512 = r`. -/
theorem slabR_idx (r : Fin 2048) (k : Fin 256) : (K1.slabR (K1.slabOf r)).idx (ix2 (K1.rowIn r) k) = ix2 r k := by
  funext a; apply Fin.ext
  match a with
  | ⟨0, _⟩ => show 512 * (r.val / 512) + 1 * (r.val % 512) = r.val; omega
  | ⟨1, _⟩ => show 0 + 1 * k.val = k.val; omega

theorem ld_slabR {e : EltTy} (X : Vec Ideal S2048x256 e) (r : Fin 2048) (k : Fin 256) :
    View.ld X (K1.slabR (K1.slabOf r)) (ix2 (K1.rowIn r) k) = X (ix2 r k) := congrArg X (slabR_idx r k)

/-- The array the second kernel writes is `(R·T)·Dᵀ`. -/
theorem kern_dec (R : Vec Ideal S2048x256 .bf16) (T : Vec Ideal S256x256 .bf16) (D : Vec Ideal S2048x256 .bf16)
    (p q : Fin 2048) :
    K1.dec (F := Ideal) R T D (ix2 p q)
      = Cert.Spec.dec (fun p j => R (ix2 p j)) (fun j k => T (ix2 j k)) (fun q k => D (ix2 q k)) p q := by
  show k1_pay1 (F := Ideal) (View.ld R (K1.slabR (K1.slabOf p))) T D (ix2 (K1.rowIn p) q) = _
  rw [K0V.k1_pay1_apply]
  refine Finset.sum_congr rfl fun k _ => congrArg (· * D (ix2 q k)) ?_
  exact Finset.sum_congr rfl fun j _ => congrArg (· * T (ix2 j k)) (ld_slabR R p j)

/-! ## A window of 2048 rows at a dynamic start -/

/-- The row start clamped into `[0, 4096 - 2048]`. -/
def rowStart (z : ℤ) : ℕ := (min (max z 0) (2048 : ℤ)).toNat

theorem rowStart_le (z : ℤ) : rowStart z ≤ 2048 := by unfold rowStart; omega

/-- Row `p` of the window is row `rowStart + p` of the array; every column is kept. -/
theorem dynamicSlice_rows_apply {α : Type} (X : S4096x256.Idx → α) (st : Fin 2 → ℤ)
    (fits : S4096x256.Slices (fun _ => 0) S2048x256) (p : Fin 2048) (q : Fin 256) :
    Host.dynamicSlice S2048x256 X st fits (ix2 p q)
      = X (ix2 (⟨rowStart (st 0) + p.val, by have := rowStart_le (st 0); have := p.isLt; omega⟩ : Fin 4096) q) := by
  unfold Host.dynamicSlice
  refine extractStridedSlice_apply _ X _ (ix2 p q) _ fun a => ?_
  match a with
  | ⟨0, _⟩ =>
    show rowStart (st 0) + p.val = (min (max (st 0) 0) ((4096 - 2048 : ℕ) : ℤ)).toNat + p.val
    rfl
  | ⟨1, _⟩ =>
    show q.val = (min (max (st 1) 0) ((256 - 256 : ℕ) : ℤ)).toNat + q.val
    omega

/-- Windows of arrays equal entry by entry, at the same start, are equal. -/
theorem dynamicSlice_congr {α : Type} {X Y : S4096x256.Idx → α} (h : ∀ j, X j = Y j) (st : Fin 2 → ℤ)
    (fits : S4096x256.Slices (fun _ => 0) S2048x256) :
    Host.dynamicSlice S2048x256 X st fits = Host.dynamicSlice S2048x256 Y st fits := by
  rw [funext h]

end Cert.KernelIdeal.K1V

end
-- ==== Proof.Bridge.lean ====
import proofs.«133194_g38319698214914_cont_sun_m_1384_4_alg».proof.Proof.KI.K0Value
import proofs.«133194_g38319698214914_cont_sun_m_1384_4_alg».proof.Proof.KI.K1Value
import proofs.«133194_g38319698214914_cont_sun_m_1384_4_alg».proof.Proof.RefValue

/-!
The two programs compute one function. The kernel's hidden array and the reference's are both `Spec.hid` of the same
eight operands; a dynamic slice of either, at the same start, takes the same rows; and each decoder is `Spec.dec` of its
two windows and the square matrix. So the two results agree at every index.
-/

noncomputable section

namespace Cert.Bridge

open Idealize.ShloMosaic Idealize.ShloMosaic.TcCoe Idealize.ShloMosaic.ValueIdx Idealize.SL.Sem

/-- `Spec.hid` of equal operands. -/
theorem hid_congr {G G' : Fin 4096 → Fin 4096 → EReal} {H H' : Fin 4096 → Fin 512 → EReal} {W1 W1' : Fin 512 → Fin 256 → EReal}
    {b1 b1' : Fin 256 → EReal} {W2 W2' : Fin 256 → Fin 256 → EReal} {b2 b2' : Fin 256 → EReal}
    {W3 W3' : Fin 256 → Fin 256 → EReal} {b3 b3' : Fin 256 → EReal}
    (hG : G = G') (hH : H = H') (hW1 : W1 = W1') (hb1 : b1 = b1') (hW2 : W2 = W2') (hb2 : b2 = b2') (hW3 : W3 = W3')
    (hb3 : b3 = b3') : Spec.hid G H W1 b1 W2 b2 W3 b3 = Spec.hid G' H' W1' b1' W2' b2' W3' b3' := by
  subst hG hH hW1 hb1 hW2 hb2 hW3 hb3; rfl

/-- `Spec.dec` of equal operands. -/
theorem dec_congr {R R' : Fin 2048 → Fin 256 → EReal} {T T' : Fin 256 → Fin 256 → EReal} {D D' : Fin 2048 → Fin 256 → EReal}
    (hR : R = R') (hT : T = T') (hD : D = D') : Spec.dec R T D = Spec.dec R' T' D' := by
  subst hR hT hD; rfl

section
variable (x0 : (⟨Cert.ReferenceIdeal.S4096x512, .f32⟩ : BufTy).Contents (Elt Ideal)) (x1 : (⟨Cert.ReferenceIdeal.S4096x4096, .f32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal))
  (x4 : (⟨Cert.ReferenceIdeal.S256x256, .f32⟩ : BufTy).Contents (Elt Ideal)) (x5 : (⟨Cert.ReferenceIdeal.S256, .f32⟩ : BufTy).Contents (Elt Ideal)) (x6 : (⟨Cert.ReferenceIdeal.S256x256, .f32⟩ : BufTy).Contents (Elt Ideal)) (x7 : (⟨Cert.ReferenceIdeal.S256, .f32⟩ : BufTy).Contents (Elt Ideal)) (x8 : (⟨Cert.ReferenceIdeal.S256x256, .f32⟩ : BufTy).Contents (Elt Ideal))
  (o : Cert.KernelIdeal.K0.Ops Ideal) (T : Vec Ideal Cert.KernelIdeal.S256x256 .bf16)
  (hG : ∀ j, o.G j = x1 j) (hH : ∀ j, o.H j = x0 j) (hW1 : ∀ j, o.W1 j = x2 j)
  (hb1 : ∀ q : Fin 256, o.b1 (ix2 (0 : Fin 1) q) = x3 (ix1 q)) (hW2 : ∀ j, o.W2 j = x4 j)
  (hb2 : ∀ q : Fin 256, o.b2 (ix2 (0 : Fin 1) q) = x5 (ix1 q)) (hW3 : ∀ j, o.W3 j = x6 j)
  (hb3 : ∀ q : Fin 256, o.b3 (ix2 (0 : Fin 1) q) = x7 (ix1 q)) (hT : ∀ j, T j = x8 j)

include hG hH hW1 hb1 hW2 hb2 hW3 hb3 in
/-- The hidden array is the same in both programs. -/
theorem hid_eq (r : Fin 4096) (q : Fin 256) :
    o.h3 (ix2 r q) = Cert.ReferenceIdeal.ReadP.val_main_v29 (F := Ideal) x0 x1 x2 x3 x4 x5 x6 x7 (ix2 r q) := by
  refine (Cert.KernelIdeal.K0V.kern_hid o r q).trans (Eq.trans ?_ (Cert.ReferenceIdeal.RefValue.ref_hid x0 x1 x2 x3 x4 x5 x6 x7 r q).symm)
  exact congrFun (congrFun (hid_congr
    (funext fun r => funext fun k => hG (ix2 r k)) (funext fun r => funext fun k => hH (ix2 r k))
    (funext fun j => funext fun q => hW1 (ix2 j q)) (funext fun q => hb1 q)
    (funext fun j => funext fun q => hW2 (ix2 j q)) (funext fun q => hb2 q)
    (funext fun j => funext fun q => hW3 (ix2 j q)) (funext fun q => hb3 q)) r) q

include hG hH hW1 hb1 hW2 hb2 hW3 hb3 in
/-- A window of 2048 rows of the hidden array, at the same start, is the same in both programs. -/
theorem win_eq (st : Fin 2 → ℤ) (fitsK : Cert.KernelIdeal.S4096x256.Slices (fun _ => 0) Cert.KernelIdeal.S2048x256)
    (fitsR : Cert.ReferenceIdeal.S4096x256.Slices (fun _ => 0) Cert.ReferenceIdeal.S2048x256) (p : Fin 2048) (q : Fin 256) :
    Host.dynamicSlice Cert.KernelIdeal.S2048x256 o.h3 st fitsK (ix2 p q)
      = Host.dynamicSlice Cert.ReferenceIdeal.S2048x256 (Cert.ReferenceIdeal.ReadP.val_main_v29 (F := Ideal) x0 x1 x2 x3 x4 x5 x6 x7) st fitsR (ix2 p q) :=
  (Cert.KernelIdeal.K1V.dynamicSlice_rows_apply o.h3 st fitsK p q).trans
    ((hid_eq x0 x1 x2 x3 x4 x5 x6 x7 o hG hH hW1 hb1 hW2 hb2 hW3 hb3 _ q).trans
      (Cert.KernelIdeal.K1V.dynamicSlice_rows_apply (Cert.ReferenceIdeal.ReadP.val_main_v29 (F := Ideal) x0 x1 x2 x3 x4 x5 x6 x7) st fitsR p q).symm)

include hG hH hW1 hb1 hW2 hb2 hW3 hb3 hT in
/-- The two results at an index. -/
theorem results_eq_at (stR stD : Fin 2 → ℤ) (fitsK : Cert.KernelIdeal.S4096x256.Slices (fun _ => 0) Cert.KernelIdeal.S2048x256)
    (fitsR : Cert.ReferenceIdeal.S4096x256.Slices (fun _ => 0) Cert.ReferenceIdeal.S2048x256) (p q : Fin 2048) :
    Cert.KernelIdeal.K1.dec (F := Ideal) (Host.dynamicSlice Cert.KernelIdeal.S2048x256 o.h3 stR fitsK) T (Host.dynamicSlice Cert.KernelIdeal.S2048x256 o.h3 stD fitsK) (ix2 p q)
      = Host.dotGeneral (F := Ideal) (φ₁ := .f32) (φ₂ := .f32) Cert.ReferenceIdeal.dot_S2048x256_S256x2048_S2048x2048_1_0_0_1_n_n none
          (Host.dotGeneral (F := Ideal) (φ₁ := .f32) (φ₂ := .f32) Cert.ReferenceIdeal.dot_S2048x256_S256x256_S2048x256_1_0_0_1_n_n none
            (Host.dynamicSlice Cert.ReferenceIdeal.S2048x256 (Cert.ReferenceIdeal.ReadP.val_main_v29 (F := Ideal) x0 x1 x2 x3 x4 x5 x6 x7) stR fitsR) x8)
          (transpose Cert.ReferenceIdeal.S256x2048 [1, 0]
            (Host.dynamicSlice Cert.ReferenceIdeal.S2048x256 (Cert.ReferenceIdeal.ReadP.val_main_v29 (F := Ideal) x0 x1 x2 x3 x4 x5 x6 x7) stD fitsR)
            Cert.ReferenceIdeal.Gen.transposes_S2048x256_S256x2048_1_0) (ix2 p q) := by
  refine (Cert.KernelIdeal.K1V.kern_dec _ T _ p q).trans (Eq.trans ?_ (Cert.ReferenceIdeal.RefValue.ref_dec _ _ x8 p q).symm)
  exact congrFun (congrFun (dec_congr
    (funext fun p => funext fun j => win_eq x0 x1 x2 x3 x4 x5 x6 x7 o hG hH hW1 hb1 hW2 hb2 hW3 hb3 stR fitsK fitsR p j)
    (funext fun j => funext fun k => hT (ix2 j k))
    (funext fun q => funext fun k => win_eq x0 x1 x2 x3 x4 x5 x6 x7 o hG hH hW1 hb1 hW2 hb2 hW3 hb3 stD fitsK fitsR q k)) p) q

include hG hH hW1 hb1 hW2 hb2 hW3 hb3 hT in
/-- The two results are one function. -/
theorem results_eq (stR stD : Fin 2 → ℤ) (fitsK : Cert.KernelIdeal.S4096x256.Slices (fun _ => 0) Cert.KernelIdeal.S2048x256)
    (fitsR : Cert.ReferenceIdeal.S4096x256.Slices (fun _ => 0) Cert.ReferenceIdeal.S2048x256) :
    Cert.KernelIdeal.K1.dec (F := Ideal) (Host.dynamicSlice Cert.KernelIdeal.S2048x256 o.h3 stR fitsK) T (Host.dynamicSlice Cert.KernelIdeal.S2048x256 o.h3 stD fitsK)
      = Host.dotGeneral (F := Ideal) (φ₁ := .f32) (φ₂ := .f32) Cert.ReferenceIdeal.dot_S2048x256_S256x2048_S2048x2048_1_0_0_1_n_n none
          (Host.dotGeneral (F := Ideal) (φ₁ := .f32) (φ₂ := .f32) Cert.ReferenceIdeal.dot_S2048x256_S256x256_S2048x256_1_0_0_1_n_n none
            (Host.dynamicSlice Cert.ReferenceIdeal.S2048x256 (Cert.ReferenceIdeal.ReadP.val_main_v29 (F := Ideal) x0 x1 x2 x3 x4 x5 x6 x7) stR fitsR) x8)
          (transpose Cert.ReferenceIdeal.S256x2048 [1, 0]
            (Host.dynamicSlice Cert.ReferenceIdeal.S2048x256 (Cert.ReferenceIdeal.ReadP.val_main_v29 (F := Ideal) x0 x1 x2 x3 x4 x5 x6 x7) stD fitsR)
            Cert.ReferenceIdeal.Gen.transposes_S2048x256_S256x2048_1_0) := by
  funext j
  rw [ValueIdx.eq_ix2 j]
  exact results_eq_at x0 x1 x2 x3 x4 x5 x6 x7 x8 o T hG hH hW1 hb1 hW2 hb2 hW3 hb3 hT stR stD fitsK fitsR (j 0) (j 1)

end

end Cert.Bridge

end
-- ==== Proof.Algebraic.lean ====
import proofs.«133194_g38319698214914_cont_sun_m_1384_4_alg».proof.Defs
import proofs.«133194_g38319698214914_cont_sun_m_1384_4_alg».proof.Proof.Gen.KernelIdeal
import proofs.«133194_g38319698214914_cont_sun_m_1384_4_alg».proof.Proof.Gen.ReferenceIdeal
import proofs.«133194_g38319698214914_cont_sun_m_1384_4_alg».proof.Proof.Gen.Pre_finite_inputs
import proofs.«133194_g38319698214914_cont_sun_m_1384_4_alg».proof.Proof.KI.Final
import proofs.«133194_g38319698214914_cont_sun_m_1384_4_alg».proof.Proof.Bridge
import proofs.«133194_g38319698214914_cont_sun_m_1384_4_alg».proof.Proof.RefRun

/-!
The kernel's program and the reference agree over the extended reals. The kernel's run ends with its result array at
the decoder of two windows of the last propagation step of the launch operands; the reference's run ends with its result
at the same decoder of the same windows of the same step, written with the host's products. The operands agree by
hypothesis, rounding is the identity over the extended reals, a bias row read at a column is the bias vector there, and
the start rows are wrapped by the same integer arithmetic: so the two results are one function.
-/

set_option maxRecDepth 16384

noncomputable section

namespace Cert.Proof

open Idealize.ShloMosaic Idealize.ShloMosaic.TcCoe Idealize.ShloMosaic.ValueIdx Idealize.SL.Sem

section
variable (m : (ℓ : Loc Cert.KernelIdeal.nD Cert.KernelIdeal.τ Cert.KernelIdeal.sig) → Buf (Elt Ideal) ℓ)

/-- The two start rows as launched, wrapped, as the offsets a slice takes. -/
abbrev stR (c : Dev Cert.KernelIdeal.nD) : Fin 2 → ℤ := fun k =>
  ((![Cert.KernelIdeal.Hand.wrapRow (m ((c.tc : Thread Cert.KernelIdeal.nD Cert.KernelIdeal.τ).loc Cert.KernelIdeal.main_arg9) : (⟨Cert.KernelIdeal.S_, .i32⟩ : BufTy).Contents (Elt Ideal)), constantI Cert.KernelIdeal.S_ 32 0#32] :
    Fin 2 → (⟨Cert.KernelIdeal.S_, .i32⟩ : BufTy).Contents (Elt Ideal)) k (Shape.Idx.first Cert.KernelIdeal.Gen.h_S_)).toInt
abbrev stD (c : Dev Cert.KernelIdeal.nD) : Fin 2 → ℤ := fun k =>
  ((![Cert.KernelIdeal.Hand.wrapRow (addi (m ((c.tc : Thread Cert.KernelIdeal.nD Cert.KernelIdeal.τ).loc Cert.KernelIdeal.main_arg9) : (⟨Cert.KernelIdeal.S_, .i32⟩ : BufTy).Contents (Elt Ideal)) (m ((c.tc : Thread Cert.KernelIdeal.nD Cert.KernelIdeal.τ).loc Cert.KernelIdeal.main_arg10))), constantI Cert.KernelIdeal.S_ 32 0#32] :
    Fin 2 → (⟨Cert.KernelIdeal.S_, .i32⟩ : BufTy).Contents (Elt Ideal)) k (Shape.Idx.first Cert.KernelIdeal.Gen.h_S_)).toInt

/-- The last weight matrix as launched, rounded. -/
abbrev kT (c : Dev Cert.KernelIdeal.nD) : Vec Ideal Cert.KernelIdeal.S256x256 .bf16 :=
  truncf (F := Ideal) .bf16 (m ((c.tc : Thread Cert.KernelIdeal.nD Cert.KernelIdeal.τ).loc Cert.KernelIdeal.main_arg8) : (⟨Cert.KernelIdeal.S256x256, .f32⟩ : BufTy).Contents (Elt Ideal)) Cert.KernelIdeal.Gen.bitsLt_bf16_f32

/-- The common result: the decoder of the two windows of the last propagation step of the launch operands. -/
def kval (c : Dev Cert.KernelIdeal.nD) : Vec Ideal Cert.KernelIdeal.S2048x2048 .f32 :=
  Cert.KernelIdeal.K1.dec (F := Ideal)
    (Host.dynamicSlice Cert.KernelIdeal.S2048x256 (Cert.KernelIdeal.Hand.launchOps m c).h3 (stR m c) Cert.KernelIdeal.Gen.sliceFits_S4096x256_S2048x256)
    (kT m c)
    (Host.dynamicSlice Cert.KernelIdeal.S2048x256 (Cert.KernelIdeal.Hand.launchOps m c).h3 (stD m c) Cert.KernelIdeal.Gen.sliceFits_S4096x256_S2048x256)

/-- The kernel's run ends with its result array at `kval` and every argument as launched. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v19) = kval m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun r h c => by
      obtain ⟨h19, rest⟩ := h c
      refine ⟨h19.trans ?_, rest⟩
      rw [Cert.KernelIdeal.Hand.ops_launch m g c]
      rfl)
    (Cert.KernelIdeal.Hand.run_value (F := Ideal) m g)

/-- The reference's result from operands equal to the kernel's is `kval`. -/
theorem ref_value (c : Dev Cert.KernelIdeal.nD) :
    Cert.ReferenceIdeal.ReadP.val_main_v43 (F := Ideal)
        (m ((c.tc : Thread Cert.KernelIdeal.nD Cert.KernelIdeal.τ).loc Cert.KernelIdeal.main_arg0) : (⟨Cert.ReferenceIdeal.S4096x512, .f32⟩ : BufTy).Contents (Elt Ideal))
        (m ((c.tc : Thread Cert.KernelIdeal.nD Cert.KernelIdeal.τ).loc Cert.KernelIdeal.main_arg1) : (⟨Cert.ReferenceIdeal.S4096x4096, .f32⟩ : BufTy).Contents (Elt Ideal))
        (m ((c.tc : Thread Cert.KernelIdeal.nD Cert.KernelIdeal.τ).loc Cert.KernelIdeal.main_arg2) : (⟨Cert.ReferenceIdeal.S512x256, .f32⟩ : BufTy).Contents (Elt Ideal))
        (m ((c.tc : Thread Cert.KernelIdeal.nD Cert.KernelIdeal.τ).loc Cert.KernelIdeal.main_arg3) : (⟨Cert.ReferenceIdeal.S256, .f32⟩ : BufTy).Contents (Elt Ideal))
        (m ((c.tc : Thread Cert.KernelIdeal.nD Cert.KernelIdeal.τ).loc Cert.KernelIdeal.main_arg4) : (⟨Cert.ReferenceIdeal.S256x256, .f32⟩ : BufTy).Contents (Elt Ideal))
        (m ((c.tc : Thread Cert.KernelIdeal.nD Cert.KernelIdeal.τ).loc Cert.KernelIdeal.main_arg5) : (⟨Cert.ReferenceIdeal.S256, .f32⟩ : BufTy).Contents (Elt Ideal))
        (m ((c.tc : Thread Cert.KernelIdeal.nD Cert.KernelIdeal.τ).loc Cert.KernelIdeal.main_arg6) : (⟨Cert.ReferenceIdeal.S256x256, .f32⟩ : BufTy).Contents (Elt Ideal))
        (m ((c.tc : Thread Cert.KernelIdeal.nD Cert.KernelIdeal.τ).loc Cert.KernelIdeal.main_arg7) : (⟨Cert.ReferenceIdeal.S256, .f32⟩ : BufTy).Contents (Elt Ideal))
        (m ((c.tc : Thread Cert.KernelIdeal.nD Cert.KernelIdeal.τ).loc Cert.KernelIdeal.main_arg8) : (⟨Cert.ReferenceIdeal.S256x256, .f32⟩ : BufTy).Contents (Elt Ideal))
        (m ((c.tc : Thread Cert.KernelIdeal.nD Cert.KernelIdeal.τ).loc Cert.KernelIdeal.main_arg9) : (⟨Cert.ReferenceIdeal.S_, .i32⟩ : BufTy).Contents (Elt Ideal))
        (m ((c.tc : Thread Cert.KernelIdeal.nD Cert.KernelIdeal.τ).loc Cert.KernelIdeal.main_arg10) : (⟨Cert.ReferenceIdeal.S_, .i32⟩ : BufTy).Contents (Elt Ideal))
      = kval m c := by
  rw [Cert.ReferenceIdeal.RefValue.val_main_v43_unfold]
  exact (Cert.Bridge.results_eq
    (m ((c.tc : Thread Cert.KernelIdeal.nD Cert.KernelIdeal.τ).loc Cert.KernelIdeal.main_arg0) : (⟨Cert.ReferenceIdeal.S4096x512, .f32⟩ : BufTy).Contents (Elt Ideal))
    (m ((c.tc : Thread Cert.KernelIdeal.nD Cert.KernelIdeal.τ).loc Cert.KernelIdeal.main_arg1) : (⟨Cert.ReferenceIdeal.S4096x4096, .f32⟩ : BufTy).Contents (Elt Ideal))
    (m ((c.tc : Thread Cert.KernelIdeal.nD Cert.KernelIdeal.τ).loc Cert.KernelIdeal.main_arg2) : (⟨Cert.ReferenceIdeal.S512x256, .f32⟩ : BufTy).Contents (Elt Ideal))
    (m ((c.tc : Thread Cert.KernelIdeal.nD Cert.KernelIdeal.τ).loc Cert.KernelIdeal.main_arg3) : (⟨Cert.ReferenceIdeal.S256, .f32⟩ : BufTy).Contents (Elt Ideal))
    (m ((c.tc : Thread Cert.KernelIdeal.nD Cert.KernelIdeal.τ).loc Cert.KernelIdeal.main_arg4) : (⟨Cert.ReferenceIdeal.S256x256, .f32⟩ : BufTy).Contents (Elt Ideal))
    (m ((c.tc : Thread Cert.KernelIdeal.nD Cert.KernelIdeal.τ).loc Cert.KernelIdeal.main_arg5) : (⟨Cert.ReferenceIdeal.S256, .f32⟩ : BufTy).Contents (Elt Ideal))
    (m ((c.tc : Thread Cert.KernelIdeal.nD Cert.KernelIdeal.τ).loc Cert.KernelIdeal.main_arg6) : (⟨Cert.ReferenceIdeal.S256x256, .f32⟩ : BufTy).Contents (Elt Ideal))
    (m ((c.tc : Thread Cert.KernelIdeal.nD Cert.KernelIdeal.τ).loc Cert.KernelIdeal.main_arg7) : (⟨Cert.ReferenceIdeal.S256, .f32⟩ : BufTy).Contents (Elt Ideal))
    (m ((c.tc : Thread Cert.KernelIdeal.nD Cert.KernelIdeal.τ).loc Cert.KernelIdeal.main_arg8) : (⟨Cert.ReferenceIdeal.S256x256, .f32⟩ : BufTy).Contents (Elt Ideal))
    (Cert.KernelIdeal.Hand.launchOps m c) (kT m c)
    (fun _ => rfl) (fun _ => rfl) (fun _ => rfl) (fun q => Cert.KernelIdeal.Hand.row_apply _ q)
    (fun _ => rfl) (fun q => Cert.KernelIdeal.Hand.row_apply _ q) (fun _ => rfl) (fun q => Cert.KernelIdeal.Hand.row_apply _ q) (fun _ => rfl)
    (stR m c) (stD m c) Cert.KernelIdeal.Gen.sliceFits_S4096x256_S2048x256 Cert.ReferenceIdeal.Gen.sliceFits_S4096x256_S2048x256).symm

end

/-- Over the extended reals the two programs, run from memories agreeing on the arguments, end with equal results and
    unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => kval m c, kernel_run m g, ?_⟩
  refine (θ_run (Cert.ReferenceIdeal.defs (F := Ideal)) _ _).mono (fun r h c => ?_) (Cert.ReferenceIdeal.ValueP.run (F := Ideal) m' g')
  obtain ⟨h43, a0, a1, a2, a3, a4, a5, a6, a7, a8, a9, a10⟩ := h c
  refine ⟨h43.trans ?_, a0, a1, a2, a3, a4, a5, a6, a7, a8, a9, a10⟩
  obtain ⟨e0, e1, e2, e3, e4, e5, e6, e7, e8, e9, e10⟩ := hagree c
  rw [e0, e1, e2, e3, e4, e5, e6, e7, e8, e9, e10]
  exact ref_value m c

end Cert.Proof

end
-- ==== Proof.lean ====
import proofs.«133194_g38319698214914_cont_sun_m_1384_4_alg».proof.Defs
import proofs.«133194_g38319698214914_cont_sun_m_1384_4_alg».proof.Proof.Gen.Kernel
import proofs.«133194_g38319698214914_cont_sun_m_1384_4_alg».proof.Proof.Gen.KernelIdeal
import proofs.«133194_g38319698214914_cont_sun_m_1384_4_alg».proof.Proof.Gen.ReferenceIdeal
import proofs.«133194_g38319698214914_cont_sun_m_1384_4_alg».proof.Proof.Gen.Pre_finite_inputs
import proofs.«133194_g38319698214914_cont_sun_m_1384_4_alg».proof.Proof.K.Frame
import proofs.«133194_g38319698214914_cont_sun_m_1384_4_alg».proof.Proof.KI.Frame
import proofs.«133194_g38319698214914_cont_sun_m_1384_4_alg».proof.Proof.RefFinal
import proofs.«133194_g38319698214914_cont_sun_m_1384_4_alg».proof.Proof.Algebraic

/-!
The certificate of a three-layer graph-convolution decoder. The kernel's program rounds its weights, runs one kernel
that carries the adjacency and the three supports in scratch buffers through four phases of eight slabs of 512 rows —
`S1 = H·W1`; `S2 = leaky(G·S1 + b1)·W2`; `S3 = leaky(G·S2 + b2)·W3`; `h = leaky(G·S3 + b3)` —, cuts two windows
`R`, `D` of 2048 consecutive rows out of `h` at two wrapped start rows, and runs a second kernel that writes
`(R·T)·Dᵀ` in four blocks of 512 rows. The reference computes the same with whole-array products.

The five claims:
* the kernel's program, in both its readings, terminates from any memory with every argument array as launched: its
  four stretches (host lines, first kernel, host lines, second kernel) are run in order over the contents of the
  buffers at the five boundaries; the first kernel's state between grid points says which slabs of the scratch
  buffers already hold their rows of the rounded adjacency and of the supports; the second kernel writes each block
  from its own inputs only; no stretch writes an argument;
* the reference terminates likewise with its arguments as launched;
* the idealized reading of the kernel's program is its own text, no operation rewritten;
* over the extended reals both programs end with one and the same function of the arguments: each hidden array is
  the three propagation layers of the same eight operands, a window at the same start takes the same rows of it, and
  each result is the bilinear decoder of its two windows and the square matrix, every product a finite sum taken in
  the one order its index type gives.
-/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefValue.frame_ri,
    trivial,
    Cert.Proof.algebraic⟩

end Cert.Proof

end
